-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S_ : Shape := ⟨0, ![]⟩

class Facts : Prop where
  bcast_S_S128x4x16384 : S_.BroadcastsInDim S128x4x16384 (![] : Fin 0 → Fin S128x4x16384.rank)
  reducesTo_S128x4x16384_S_d0_1_2 : S128x4x16384.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_
  bcast_S_S32x1 : S_.BroadcastsInDim S32x1 (![] : Fin 0 → Fin S32x1.rank)
  reducesTo_S32x1_S_d0_1 : S32x1.ReducesTo [0, 1] S_
  bcast_S_S64x32 : S_.BroadcastsInDim S64x32 (![] : Fin 0 → Fin S64x32.rank)
  reducesTo_S64x32_S_d0_1 : S64x32.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_arg5 : FVec F S64x1 .f32) (main_arg6 : FVec F S64x1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S128x4x16384 .f32) (main_arg1 : FVec F S32x4 .f32) (main_arg2 : FVec F S32x1 .f32) (main_arg3 : FVec F S64x32 .f32) (main_arg4 : FVec F S64x1 .f32) (main_arg5 : FVec F S64x1 .f32) (main_arg6 : FVec F S64x1 .f32) : IVec S_ 1 :=
  let main_v0 : FVec F S128x4x16384 .f32 := Host.absf main_arg0
  let main_cst : FVec F S_ .f32 := constant S_ .f32 0x7F800000#32
  let main_v1 : FVec F S128x4x16384 .f32 := broadcastInDim S128x4x16384 ![] bcast_S_S128x4x16384 main_cst
  let main_v2 : IVec S128x4x16384 1 := cmpf .olt main_v0 main_v1
  let main_c : IVec S_ 1 := constantI S_ 1 1#1
  let main_v3 : IVec S_ 1 := (fun x v => Host.reduce IntOp.andi x v reducesTo_S128x4x16384_S_d0_1_2 h_S_) main_v2 main_c
  let main_v4 : FVec F S32x4 .f32 := Host.absf main_arg1
  let main_cst_0 : FVec F S_ .f32 := constant S_ .f32 0x7F800000#32
  let main_v5 : FVec F S32x4 .f32 := broadcastInDim S32x4 ![] bcast_S_S32x4 main_cst_0
  let main_v6 : IVec S32x4 1 := cmpf .olt main_v4 main_v5
  let main_c_1 : IVec S_ 1 := constantI S_ 1 1#1
  let main_v7 : IVec S_ 1 := (fun x v => Host.reduce IntOp.andi x v reducesTo_S32x4_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S_ : Shape := ⟨0, ![]⟩
abbrev S40x4 : Shape := ⟨2, ![40, 4]⟩
abbrev S1 : Shape := ⟨1, ![1]⟩
abbrev S40x1 : Shape := ⟨2, ![40, 1]⟩
abbrev S2 : Shape := ⟨1, ![2]⟩
abbrev S64x40 : Shape := ⟨2, ![64, 40]⟩
abbrev S64 : Shape := ⟨1, ![64]⟩
abbrev S2x64x1 : Shape := ⟨3, ![2, 64, 1]⟩
abbrev S1x4x16384 : Shape := ⟨3, ![1, 4, 16384]⟩
abbrev S1x64x1 : Shape := ⟨3, ![1, 64, 1]⟩
abbrev S4x16384 : Shape := ⟨2, ![4, 16384]⟩
abbrev S40x16384 : Shape := ⟨2, ![40, 16384]⟩
abbrev S64x16384 : Shape := ⟨2, ![64, 16384]⟩
abbrev S128x64x16384 : Shape := ⟨3, ![128, 64, 16384]⟩
abbrev S1x64x16384 : Shape := ⟨3, ![1, 64, 16384]⟩

abbrev nBuf : Space → Nat
  | .hbm => 60
  | .vmem => 18
  | .smem => 0
  | _ => 0

abbrev bufTy : (tb : Table) → Fin (tcTables nBuf tb) → BufTy
  | .hbm, ⟨0, _⟩ => ⟨S128x4x16384, .f32⟩
  | .hbm, ⟨1, _⟩ => ⟨S32x4, .f32⟩
  | .hbm, ⟨2, _⟩ => ⟨S32x1, .f32⟩
  | .hbm, ⟨3, _⟩ => ⟨S64x32, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S40x4, .f32⟩
  | .hbm, ⟨9, _⟩ => ⟨S_, .i32⟩
  | .hbm, ⟨10, _⟩ => ⟨S1, .i32⟩
  | .hbm, ⟨11, _⟩ => ⟨S40x4, .f32⟩
  | .hbm, ⟨12, _⟩ => ⟨S40x4, .bf16⟩
  | .hbm, ⟨13, _⟩ => ⟨S_, .f32⟩
  | .hbm, ⟨14, _⟩ => ⟨S40x1, .f32⟩
  | .hbm, ⟨15, _⟩ => ⟨S_, .i32⟩
  | .hbm, ⟨16, _⟩ => ⟨S1, .i32⟩
  | .hbm, ⟨17, _⟩ => ⟨S40x1, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S_, .f32⟩
  | .hbm, ⟨24, _⟩ => ⟨S40x1, .f32⟩
  | .hbm, ⟨25, _⟩ => ⟨S_, .f32⟩
  | .hbm, ⟨26, _⟩ => ⟨S64x40, .f32⟩
  | .hbm, ⟨27, _⟩ => ⟨S_, .i32⟩
  | .hbm, ⟨28, _⟩ => ⟨S1, .i32⟩
  | .hbm, ⟨29, _⟩ => ⟨S64x40, .f32⟩
  | .hbm, ⟨30, _⟩ => ⟨S64, .f32⟩
  | .hbm, ⟨31, _⟩ => ⟨S_, .i32⟩
  | .hbm, ⟨32, _⟩ => ⟨S1, .i32⟩
  | .hbm, ⟨33, _⟩ => ⟨S64x40, .f32⟩
  | .hbm, ⟨34, _⟩ => ⟨S64x40, .bf16⟩
  | .hbm, ⟨35, _⟩ => ⟨S2x64x1, .f32⟩
  | .hbm, ⟨36, _⟩ => ⟨S2x64x1, .f32⟩
  | .hbm, ⟨37, _⟩ => ⟨S_, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S_, .f32⟩
  | .hbm, ⟨50, _⟩ => ⟨S64x1, .f32⟩
  | .hbm, ⟨51, _⟩ => ⟨S64x1, .f32⟩
  | .hbm, ⟨52, _⟩ => ⟨S_, .f32⟩
  | .hbm, ⟨53, _⟩ => ⟨S64x1, .f32⟩
  | .hbm, ⟨54, _⟩ => ⟨S64x1, .f32⟩
  | .hbm, ⟨55, _⟩ => ⟨S64x1, .f32⟩
  | .hbm, ⟨56, _⟩ => ⟨S64x1, .f32⟩
  | .hbm, ⟨57, _⟩ => ⟨S64x1, .f32⟩
  | .hbm, ⟨58, _⟩ => ⟨S64x1, .f32⟩
  | .hbm, ⟨59, _⟩ => ⟨S128x64x16384, .f32⟩
  | .local _ .vmem, ⟨0, _⟩ => ⟨S1x4x16384, .f32⟩
  | .local _ .vmem, ⟨1, _⟩ => ⟨S1x4x16384, .f32⟩
  | .local _ .vmem, ⟨2, _⟩ => ⟨S40x4, .bf16⟩
  | .local _ .vmem, ⟨3, _⟩ => ⟨S40x1, .f32⟩
  | .local _ .vmem, ⟨4, _⟩ => ⟨S64x40, .bf16⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x4x16384, .f32⟩
  | .local _ .vmem, ⟨10, _⟩ => ⟨S1x4x16384, .f32⟩
  | .local _ .vmem, ⟨11, _⟩ => ⟨S40x4, .bf16⟩
  | .local _ .vmem, ⟨12, _⟩ => ⟨S40x1, .f32⟩
  | .local _ .vmem, ⟨13, _⟩ => ⟨S64x40, .bf16⟩
  | .local _ .vmem, ⟨14, _⟩ => ⟨S64x1, .f32⟩
  | .local _ .vmem, ⟨15, _⟩ => ⟨S64x1, .f32⟩
  | .local _ .vmem, ⟨16, _⟩ => ⟨S1x64x16384, .f32⟩
  | .local _ .vmem, ⟨17, _⟩ => ⟨S1x64x16384, .f32⟩
  | _, _ => ⟨S128x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_c_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_cst_8 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_v22 : Ref sig .tc := ⟨.hbm, 43, rfl⟩
abbrev main_cst_11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_12 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_13 : BitVec 32 := 0#32
  let v25 : BitVec 1 := Scalar.cmpi .ne v24 c0_i32_13
  v25

def k0_cond2 (i : grid0.Coords) : BitVec 1 :=
  let arg1 : BitVec 32 := BitVec.ofNat 32 (i 1).val
  let c0_i32_14 : BitVec 32 := 0#32
  let v26 : BitVec 1 := Scalar.cmpi .ne arg1 c0_i32_14
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x4 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S40x4 : S_.BroadcastsInDim S40x4 (![] : Fin 0 → Fin S40x4.rank)
  bcast_S_S1 : S_.BroadcastsInDim S1 (![] : Fin 0 → Fin S1.rank)
  bitsLt_bf16_f32 : FTy.bits .bf16 < FTy.bits .f32
  bcast_S_S40x1 : S_.BroadcastsInDim S40x1 (![] : Fin 0 → Fin S40x1.rank)
  concatenates_S1_S1_S2_d0 : Shape.Concatenates [S1, S1] S2 0
  bcast_S_S64x40 : S_.BroadcastsInDim S64x40 (![] : Fin 0 → Fin S64x40.rank)
  shapeCasts_S64x1_S64 : S64x1.ShapeCasts S64
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  inb_S40x4_S40x4_0_0 : ∀ a, (![0, 0] : Fin 2 → Nat) a + S40x4.size a ≤ S40x4.size a
  h_S40x4 : 0 < S40x4.numel
  shapeCasts_S40x4_S40x4 : S40x4.ShapeCasts S40x4
  inb_S40x1_S40x1_0_0 : ∀ a, (![0, 0] : Fin 2 → Nat) a + S40x1.size a ≤ S40x1.size a
  h_S40x1 : 0 < S40x1.numel
  shapeCasts_S40x1_S40x1 : S40x1.ShapeCasts S40x1
  broadcasts_S40x1_S40x16384 : S40x1.Broadcasts S40x16384
  inb_S64x40_S64x40_0_0 : ∀ a, (![0, 0] : Fin 2 → Nat) a + S64x40.size a ≤ S64x40.size a
  h_S64x40 : 0 < S64x40.numel
  shapeCasts_S64x40_S64x40 : S64x40.ShapeCasts S64x40
  reduces_S64x16384_S64 : S64x16384.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S2x64x1_S64x1_d0 : S2x64x1.ReducesTo [0] S64x1
  h_S_ : 0 < S_.numel
  bcast_S_S64x1 : S_.BroadcastsInDim S64x1 (![] : Fin 0 → Fin S64x1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  scatter_S40x4_S1_S32x4_01_n_0_0_wf : ScatterDims.WF S40x4 S1 S32x4 [0, 1] [] [0] 0
  scatter_S40x1_S1_S32x1_01_n_0_0_wf : ScatterDims.WF S40x1 S1 S32x1 [0, 1] [] [0] 0
  scatter_S40x1_S2_S__n_01_01_0_wf : ScatterDims.WF S40x1 S2 S_ [] [0, 1] [0, 1] 0
  scatter_S64x40_S1_S64x32_01_n_1_0_wf : ScatterDims.WF S64x40 S1 S64x32 [0, 1] [] [1] 0
  scatter_S64x40_S1_S64_0_1_1_0_wf : ScatterDims.WF S64x40 S1 S64 [0] [1] [1] 0
  dot_S40x4_S4x16384_S40x16384_1_0_0_1_n_n_wf : DotDims.WF S40x4 S4x16384 S40x16384 [1] [0] [0] [1] [] []
  dot_S64x40_S40x16384_S64x16384_1_0_0_1_n_n_wf : DotDims.WF S64x40 S40x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16384.size a ≤ S128x4x16384.size a
  hwx0_0 : ∀ i : grid0.Coords, EltTy.bits .f32 = 32 ∨ (Rect.block (s := S128x4x16384) S1x4x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x4.size a ≤ S40x4.size a
  hwx0_1 : ∀ i : grid0.Coords, EltTy.bits .bf16 = 32 ∨ (Rect.block (s := S40x4) S40x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S40x1.size a
  hwx0_2 : ∀ i : grid0.Coords, EltTy.bits .f32 = 32 ∨ (Rect.block (s := S40x1) S40x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x40.size a ≤ S64x40.size a
  hwx0_3 : ∀ i : grid0.Coords, EltTy.bits .bf16 = 32 ∨ (Rect.block (s := S64x40) S64x40.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S2x64x1.size a
  hwx0_5 : ∀ i : grid0.Coords, EltTy.bits .f32 = 32 ∨ (Rect.block (s := S2x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x16384.size a ≤ S128x4x16384.size a
  hwx1_0 : ∀ i : grid1.Coords, EltTy.bits .f32 = 32 ∨ (Rect.block (s := S128x4x16384) S1x4x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x4.size a ≤ S40x4.size a
  hwx1_1 : ∀ i : grid1.Coords, EltTy.bits .bf16 = 32 ∨ (Rect.block (s := S40x4) S40x4.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x1.size a ≤ S40x1.size a
  hwx1_2 : ∀ i : grid1.Coords, EltTy.bits .f32 = 32 ∨ (Rect.block (s := S40x1) S40x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x16384.size a ≤ S128x64x16384.size a
  hwx1_6 : ∀ i : grid1.Coords, EltTy.bits .f32 = 32 ∨ (Rect.block (s := S128x64x16384) S1x64x16384.size (cc1_transform_6 i) (hinb1_6 i)).WholeWords (EltTy.packing .f32)

variable [Facts₀]

def scatter_S40x4_S1_S32x4_01_n_0_0 : ScatterDims S40x4 S1 S32x4 where
  updateWindowDims := [0, 1]
  insertedWindowDims := []
  scatterDimsToOperandDims := [0]
  indexVectorDim := 0
  wf := scatter_S40x4_S1_S32x4_01_n_0_0_wf
def scatter_S40x1_S1_S32x1_01_n_0_0 : ScatterDims S40x1 S1 S32x1 where
  updateWindowDims := [0, 1]
  insertedWindowDims := []
  scatterDimsToOperandDims := [0]
  indexVectorDim := 0
  wf := scatter_S40x1_S1_S32x1_01_n_0_0_wf
def scatter_S40x1_S2_S__n_01_01_0 : ScatterDims S40x1 S2 S_ where
  updateWindowDims := []
  insertedWindowDims := [0, 1]
  scatterDimsToOperandDims := [0, 1]
  indexVectorDim := 0
  wf := scatter_S40x1_S2_S__n_01_01_0_wf
def scatter_S64x40_S1_S64x32_01_n_1_0 : ScatterDims S64x40 S1 S64x32 where
  updateWindowDims := [0, 1]
  insertedWindowDims := []
  scatterDimsToOperandDims := [1]
  indexVectorDim := 0
  wf := scatter_S64x40_S1_S64x32_01_n_1_0_wf
def scatter_S64x40_S1_S64_0_1_1_0 : ScatterDims S64x40 S1 S64 where
  updateWindowDims := [0]
  insertedWindowDims := [1]
  scatterDimsToOperandDims := [1]
  indexVectorDim := 0
  wf := scatter_S64x40_S1_S64_0_1_1_0_wf
def dot_S40x4_S4x16384_S40x16384_1_0_0_1_n_n : DotDims S40x4 S4x16384 S40x16384 where
  lhsContracting := [1]
  rhsContracting := [0]
  lhsNonContracting := [0]
  rhsNonContracting := [1]
  lhsBatch := []
  rhsBatch := []
  wf := dot_S40x4_S4x16384_S40x16384_1_0_0_1_n_n_wf
def dot_S64x40_S40x16384_S64x16384_1_0_0_1_n_n : DotDims S64x40 S40x16384 S64x16384 where
  lhsContracting := [1]
  rhsContracting := [0]
  lhsNonContracting := [0]
  rhsNonContracting := [1]
  lhsBatch := []
  rhsBatch := []
  wf := dot_S64x40_S40x16384_S64x16384_1_0_0_1_n_n_wf

abbrev win0_0 : Pipeline.Window sig grid0 :=
  Pipeline.Window.ofSpec (Memref.whole main_arg0) S1x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S40x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S40x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

abbrev win1_0 : Pipeline.Window sig grid1 :=
  Pipeline.Window.ofSpec (Memref.whole main_arg0) S1x4x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S40x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S40x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64x16384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S128x1x64x1 : Shape := ⟨4, ![128, 1, 64, 1]⟩
abbrev S1x4x16384 : Shape := ⟨3, ![1, 4, 16384]⟩
abbrev S1x1x64x1 : Shape := ⟨4, ![1, 1, 64, 1]⟩
abbrev S4x16384 : Shape := ⟨2, ![4, 16384]⟩
abbrev S32x16384 : Shape := ⟨2, ![32, 16384]⟩
abbrev S64x16384 : Shape := ⟨2, ![64, 16384]⟩
abbrev S64 : Shape := ⟨1, ![64]⟩
abbrev S_ : Shape := ⟨0, ![]⟩
abbrev S128x64x16384 : Shape := ⟨3, ![128, 64, 16384]⟩
abbrev S1x64x16384 : Shape := ⟨3, ![1, 64, 16384]⟩

abbrev nBuf : Space → Nat
  | .hbm => 32
  | .vmem => 20
  | .smem => 0
  | _ => 0

abbrev bufTy : (tb : Table) → Fin (tcTables nBuf tb) → BufTy
  | .hbm, ⟨0, _⟩ => ⟨S128x4x16384, .f32⟩
  | .hbm, ⟨1, _⟩ => ⟨S32x4, .f32⟩
  | .hbm, ⟨2, _⟩ => ⟨S32x1, .f32⟩
  | .hbm, ⟨3, _⟩ => ⟨S64x32, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S128x1x64x1, .f32⟩
  | .hbm, ⟨8, _⟩ => ⟨S128x1x64x1, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S_, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S128x64x16384, .f32⟩
  | .local _ .vmem, ⟨0, _⟩ => ⟨S1x4x16384, .f32⟩
  | .local _ .vmem, ⟨1, _⟩ => ⟨S1x4x16384, .f32⟩
  | .local _ .vmem, ⟨2, _⟩ => ⟨S32x4, .f32⟩
  | .local _ .vmem, ⟨3, _⟩ => ⟨S32x1, .f32⟩
  | .local _ .vmem, ⟨4, _⟩ => ⟨S64x32, .f32⟩
  | .local _ .vmem, ⟨5, _⟩ => ⟨S64x1, .f32⟩
  | .local _ .vmem, ⟨6, _⟩ => ⟨S1x1x64x1, .f32⟩
  | .local _ .vmem, ⟨7, _⟩ => ⟨S1x1x64x1, .f32⟩
  | .local _ .vmem, ⟨8, _⟩ => ⟨S1x1x64x1, .f32⟩
  | .local _ .vmem, ⟨9, _⟩ => ⟨S1x1x64x1, .f32⟩
  | .local _ .vmem, ⟨10, _⟩ => ⟨S1x4x16384, .f32⟩
  | .local _ .vmem, ⟨11, _⟩ => ⟨S1x4x16384, .f32⟩
  | .local _ .vmem, ⟨12, _⟩ => ⟨S64x1, .f32⟩
  | .local _ .vmem, ⟨13, _⟩ => ⟨S64x1, .f32⟩
  | .local _ .vmem, ⟨14, _⟩ => ⟨S32x4, .f32⟩
  | .local _ .vmem, ⟨15, _⟩ => ⟨S32x1, .f32⟩
  | .local _ .vmem, ⟨16, _⟩ => ⟨S64x32, .f32⟩
  | .local _ .vmem, ⟨17, _⟩ => ⟨S64x1, .f32⟩
  | .local _ .vmem, ⟨18, _⟩ => ⟨S1x64x16384, .f32⟩
  | .local _ .vmem, ⟨19, _⟩ => ⟨S1x64x16384, .f32⟩
  | _, _ => ⟨S128x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![128, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x64x16384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  inb_S32x4_S32x4_0_0 : ∀ a, (![0, 0] : Fin 2 → Nat) a + S32x4.size a ≤ S32x4.size a
  h_S32x4 : 0 < S32x4.numel
  inb_S32x1_S32x1_0_0 : ∀ a, (![0, 0] : Fin 2 → Nat) a + S32x1.size a ≤ S32x1.size a
  h_S32x1 : 0 < S32x1.numel
  broadcasts_S32x1_S32x16384 : S32x1.Broadcasts S32x16384
  inb_S64x32_S64x32_0_0 : ∀ a, (![0, 0] : Fin 2 → Nat) a + S64x32.size a ≤ S64x32.size a
  h_S64x32 : 0 < S64x32.numel
  inb_S64x1_S64x1_0_0 : ∀ a, (![0, 0] : Fin 2 → Nat) a + S64x1.size a ≤ S64x1.size a
  h_S64x1 : 0 < S64x1.numel
  broadcasts_S64x1_S64x16384 : S64x1.Broadcasts S64x16384
  reduces_S64x16384_S64 : S64x16384.Reduces [1] S64
  shapeCasts_S64_S64x1 : S64.ShapeCasts S64x1
  inb_S1x1x64x1_S1x1x64x1_0_0_0_0 : ∀ a, (![0, 0, 0, 0] : Fin 4 → Nat) a + S1x1x64x1.size a ≤ S1x1x64x1.size a
  h_S1x1x64x1 : 0 < S1x1x64x1.numel
  shapeCasts_S1x1x64x1_S64x1 : S1x1x64x1.ShapeCasts S64x1
  shapeCasts_S64x1_S1x1x64x1 : S64x1.ShapeCasts S1x1x64x1
  reducesTo_S128x1x64x1_S64x1_d0_1 : S128x1x64x1.ReducesTo [0, 1] S64x1
  h_S_ : 0 < S_.numel
  bcast_S_S64x1 : S_.BroadcastsInDim S64x1 (![] : Fin 0 → Fin S64x1.rank)
  shapeCasts_S64x1_S64x1 : S64x1.ShapeCasts S64x1
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  dot_S32x4_S4x16384_S32x16384_1_0_0_1_n_n_wf : DotDims.WF S32x4 S4x16384 S32x16384 [1] [0] [0] [1] [] []
  dot_S64x32_S32x16384_S64x16384_1_0_0_1_n_n_wf : DotDims.WF S64x32 S32x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16384.size a ≤ S128x4x16384.size a
  hwx0_0 : ∀ i : grid0.Coords, EltTy.bits .f32 = 32 ∨ (Rect.block (s := S128x4x16384) S1x4x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .f32 = 32 ∨ (Rect.block (s := S32x4) S32x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x1.size a ≤ S128x1x64x1.size a
  hwx0_5 : ∀ i : grid0.Coords, EltTy.bits .f32 = 32 ∨ (Rect.block (s := S128x1x64x1) S1x1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64x1.size a ≤ S128x1x64x1.size a
  hwx0_6 : ∀ i : grid0.Coords, EltTy.bits .f32 = 32 ∨ (Rect.block (s := S128x1x64x1) S1x1x64x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x16384.size a ≤ S128x4x16384.size a
  hwx1_0 : ∀ i : grid1.Coords, EltTy.bits .f32 = 32 ∨ (Rect.block (s := S128x4x16384) S1x4x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x4.size a ≤ S32x4.size a
  hwx1_3 : ∀ i : grid1.Coords, EltTy.bits .f32 = 32 ∨ (Rect.block (s := S32x4) S32x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x16384.size a ≤ S128x64x16384.size a
  hwx1_7 : ∀ i : grid1.Coords, EltTy.bits .f32 = 32 ∨ (Rect.block (s := S128x64x16384) S1x64x16384.size (cc1_transform_7 i) (hinb1_7 i)).WholeWords (EltTy.packing .f32)

variable [Facts₀]

def dot_S32x4_S4x16384_S32x16384_1_0_0_1_n_n : DotDims S32x4 S4x16384 S32x16384 where
  lhsContracting := [1]
  rhsContracting := [0]
  lhsNonContracting := [0]
  rhsNonContracting := [1]
  lhsBatch := []
  rhsBatch := []
  wf := dot_S32x4_S4x16384_S32x16384_1_0_0_1_n_n_wf
def dot_S64x32_S32x16384_S64x16384_1_0_0_1_n_n : DotDims S64x32 S32x16384 S64x16384 where
  lhsContracting := [1]
  rhsContracting := [0]
  lhsNonContracting := [0]
  rhsNonContracting := [1]
  lhsBatch := []
  rhsBatch := []
  wf := dot_S64x32_S32x16384_S64x16384_1_0_0_1_n_n_wf

abbrev win0_0 : Pipeline.Window sig grid0 :=
  Pipeline.Window.ofSpec (Memref.whole main_arg0) S1x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x4x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x64x16384.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.B0Body.lean ====
/-
  The statistics pass, one grid point at a time. The grid is 2 × 64: point (q, j) handles batch element 64·q + j.
  The body computes, from the point's block of x and the augmented parameters, the per-channel sum s and sum of
  squares of the rectified second layer over the 16384 points; at j = 0 it stores them into the two 1×64×1 output
  blocks, at j ≠ 0 it adds them to what the blocks hold. Here: each window's block at a point, what the two output
  blocks hold after the body in each of the two cases, and the body's run in each case.
-/
import proofs.«145259_g2000300775167955_pallasbulk_386_8_alg».proof.Proof.Gen.Kernel.Launch
import proofs.«145259_g2000300775167955_pallasbulk_386_8_alg».proof.Proof.Gen.Kernel.Skeleton
import proofs.«145259_g2000300775167955_pallasbulk_386_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0 holds its block at every point, fetched there or not: unfetched, its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0 holds its block at every point, fetched there or not: unfetched, its index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0 holds its block at every point, fetched there or not: unfetched, its index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of region 0 holds its block at every point, fetched there or not: unfetched, its index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x4x16384 := Rect.unit (s := S1x4x16384) ![0, 0, 0] S1x4x16384.size inb_S1x4x16384_S1x4x16384_0_0_0
abbrev r0_1 : Rect S40x4 := Rect.unit (s := S40x4) ![0, 0] S40x4.size inb_S40x4_S40x4_0_0
abbrev r0_2 : Rect S40x1 := Rect.unit (s := S40x1) ![0, 0] S40x1.size inb_S40x1_S40x1_0_0
abbrev r0_3 : Rect S64x40 := Rect.unit (s := S64x40) ![0, 0] S64x40.size inb_S64x40_S64x40_0_0
abbrev r0_4 : Rect S1x64x1 := Rect.unit (s := S1x64x1) ![0, 0, 0] S1x64x1.size inb_S1x64x1_S1x64x1_0_0_0

/-! ## What the body leaves in the two output blocks -/

/-- The sum block after a point with j = 0: the point's own sums. -/
def outA_4 (x0 : Vec F S1x4x16384 .f32) (x1 : Vec F S40x4 .bf16) (x2 : Vec F S40x1 .f32) (x3 : Vec F S64x40 .bf16) : Vec F S1x64x1 .f32 :=
  View.canon [⟨r0_4, k0_pay4 (View.ld x0 r0_0) (View.ld x1 r0_1) (View.ld x2 r0_2) (View.ld x3 r0_3)⟩]
/-- The sum-of-squares block after a point with j = 0. -/
def outA_5 (x0 : Vec F S1x4x16384 .f32) (x1 : Vec F S40x4 .bf16) (x2 : Vec F S40x1 .f32) (x3 : Vec F S64x40 .bf16) : Vec F S1x64x1 .f32 :=
  View.canon [⟨r0_4, k0_pay5 (View.ld x0 r0_0) (View.ld x1 r0_1) (View.ld x2 r0_2) (View.ld x3 r0_3)⟩]
/-- The sum block after a point with j ≠ 0: what it held (`xo`) plus the point's sums. -/
def outB_4 (x0 : Vec F S1x4x16384 .f32) (x1 : Vec F S40x4 .bf16) (x2 : Vec F S40x1 .f32) (x3 : Vec F S64x40 .bf16) (xo : Vec F S1x64x1 .f32) : Vec F S1x64x1 .f32 :=
  View.canon [⟨r0_4, k0_pay6 (View.ld x0 r0_0) (View.ld x1 r0_1) (View.ld x2 r0_2) (View.ld x3 r0_3) (View.ld xo r0_4)⟩]
/-- The sum-of-squares block after a point with j ≠ 0. -/
def outB_5 (x0 : Vec F S1x4x16384 .f32) (x1 : Vec F S40x4 .bf16) (x2 : Vec F S40x1 .f32) (x3 : Vec F S64x40 .bf16) (xo : Vec F S1x64x1 .f32) : Vec F S1x64x1 .f32 :=
  View.canon [⟨r0_4, k0_pay7 (View.ld x0 r0_0) (View.ld x1 r0_1) (View.ld x2 r0_2) (View.ld x3 r0_3) (View.ld xo r0_4)⟩]

/-- One store of the whole block covers it. -/
theorem cover0_4 (p0 : Vec F S1x64x1 .f32) (y : S1x64x1.Idx) :
    ∃ pc ∈ ([⟨r0_4, p0⟩] : List (View.Piece (Elt F) S1x64x1 .f32)), y ∈ pc.1.set :=
  View.cover_of_tiled [⟨r0_4, p0⟩] S1x64x1.size (by rfl) y

/-! ## The body's run, case by case -/

set_option maxHeartbeats 1000000 in
/-- At a point with j = 0 (the first branch taken, the second not): from the inputs' buffers at their contents and the two
    output buffers at anything, the body runs to the inputs' as they were and the outputs' at the point's own sums. -/
theorem sound_kernel0A (c : Dev nD) (E : Set ℕ) (i : grid0.Coords) (hc1 : k0_cond1 i = 1#1) (hc2 : ¬ k0_cond2 i = 1#1)
    (arg2 : Memref sig .tc .vmem S1x4x16384 .f32) (harg2 : arg2.IsWhole) (arg3 : Memref sig .tc .vmem S40x4 .bf16) (harg3 : arg3.IsWhole) (arg4 : Memref sig .tc .vmem S40x1 .f32) (harg4 : arg4.IsWhole) (arg5 : Memref sig .tc .vmem S64x40 .bf16) (harg5 : arg5.IsWhole) (arg6 : Memref sig .tc .vmem S1x64x1 .f32) (harg6 : arg6.IsWhole) (arg7 : Memref sig .tc .vmem S1x64x1 .f32) (harg7 : arg7.IsWhole)
    (x0 : Vec F S1x4x16384 .f32) (x1 : Vec F S40x4 .bf16) (x2 : Vec F S40x1 .f32) (x3 : Vec F S64x40 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outA_4 x0 x1 x2 x3) ∗ owns (c : Thread nD τ) arg7 fullShare (outA_5 x0 x1 x2 x3)) -∗ K ⟨⟩))
      ⊢ wp frame (wpE (defs₀ (F := F)) Variants.none c none) E (cc0__stats_body i arg2 harg2 arg3 harg3 arg4 harg4 arg5 harg5 arg6 harg6 arg7 harg7) K := by
  simp only [cc0__stats_body_eq_skeleton]; unfold cc0__stats_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

set_option maxHeartbeats 1000000 in
/-- At a point with j ≠ 0 (the second branch taken, the first not): from the inputs' buffers at their contents and the two
    output buffers at `xo4`, `xo5`, the body runs to the inputs' as they were and the outputs' at those plus the point's sums. -/
theorem sound_kernel0B (c : Dev nD) (E : Set ℕ) (i : grid0.Coords) (hc1 : ¬ k0_cond1 i = 1#1) (hc2 : k0_cond2 i = 1#1)
    (arg2 : Memref sig .tc .vmem S1x4x16384 .f32) (harg2 : arg2.IsWhole) (arg3 : Memref sig .tc .vmem S40x4 .bf16) (harg3 : arg3.IsWhole) (arg4 : Memref sig .tc .vmem S40x1 .f32) (harg4 : arg4.IsWhole) (arg5 : Memref sig .tc .vmem S64x40 .bf16) (harg5 : arg5.IsWhole) (arg6 : Memref sig .tc .vmem S1x64x1 .f32) (harg6 : arg6.IsWhole) (arg7 : Memref sig .tc .vmem S1x64x1 .f32) (harg7 : arg7.IsWhole)
    (x0 : Vec F S1x4x16384 .f32) (x1 : Vec F S40x4 .bf16) (x2 : Vec F S40x1 .f32) (x3 : Vec F S64x40 .bf16) (xo4 xo5 : Vec F S1x64x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB_4 x0 x1 x2 x3 xo4) ∗ owns (c : Thread nD τ) arg7 fullShare (outB_5 x0 x1 x2 x3 xo5)) -∗ K ⟨⟩))
      ⊢ wp frame (wpE (defs₀ (F := F)) Variants.none c none) E (cc0__stats_body i arg2 harg2 arg3 harg3 arg4 harg4 arg5 harg5 arg6 harg6 arg7 harg7) K := by
  simp only [cc0__stats_body_eq_skeleton]; unfold cc0__stats_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

end Cert.Kernel.Hand

end
-- ==== Proof.B0Dat.lean ====
/-
  The statistics pass over its whole grid. What the two output blocks hold after each point, by recursion on the
  point: at a point with j = 0 (every 64th point) the point's own sums, at any other point what the point before left
  plus the point's sums — the blocks are written back only after the points with j = 63, so between two write-backs
  each buffer keeps what the body left. Then the pipeline's proof data and the body obligation at every point.
-/
import proofs.«145259_g2000300775167955_pallasbulk_386_8_alg».proof.Proof.B0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The first branch is taken exactly at the points with j = 0. -/
theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
/-- The second branch is taken exactly at the points with j ≠ 0. -/
theorem hcond2 : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- One of the two branches is taken whatever the second coordinate: the output windows are never idle. -/
theorem cond_cover : ∀ n : Fin 64, (!(Scalar.cmpi .ne (Scalar.extui (Scalar.cmpi .eq (BitVec.ofNat 32 n.val) 0#32) : BitVec 32) 0#32 == 1#1)
    && !(Scalar.cmpi .ne (Scalar.extui (Scalar.cmpi .ne (BitVec.ofNat 32 n.val) 0#32) : BitVec 32) 0#32 == 1#1)) = false := by decide +kernel
theorem idle0_4 : ∀ i : cfg0.grid.Coords, cfg0.idle 4 i = false := fun i => cond_cover (i 1)
theorem idle0_5 : ∀ i : cfg0.grid.Coords, cfg0.idle 5 i = false := fun i => cond_cover (i 1)

/-! ## What the output blocks hold after each point -/

/-- The running sums: (sum block, sum-of-squares block) after the body at point `n`. -/
def outsAt0 (c : Dev nD) : (n : ℕ) → n < cfg0.N → Vec F S1x64x1 .f32 × Vec F S1x64x1 .f32
  | 0, hn => (outA_4 (iblk0 V c 0 ⟨0, hn⟩) (iblk0 V c 1 ⟨0, hn⟩) (iblk0 V c 2 ⟨0, hn⟩) (iblk0 V c 3 ⟨0, hn⟩), outA_5 (iblk0 V c 0 ⟨0, hn⟩) (iblk0 V c 1 ⟨0, hn⟩) (iblk0 V c 2 ⟨0, hn⟩) (iblk0 V c 3 ⟨0, hn⟩))
  | n + 1, hn =>
    if (n + 1) % 64 = 0 then
      (outA_4 (iblk0 V c 0 ⟨n + 1, hn⟩) (iblk0 V c 1 ⟨n + 1, hn⟩) (iblk0 V c 2 ⟨n + 1, hn⟩) (iblk0 V c 3 ⟨n + 1, hn⟩), outA_5 (iblk0 V c 0 ⟨n + 1, hn⟩) (iblk0 V c 1 ⟨n + 1, hn⟩) (iblk0 V c 2 ⟨n + 1, hn⟩) (iblk0 V c 3 ⟨n + 1, hn⟩))
    else
      (outB_4 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1,
       outB_5 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a point with j = 0: the point's own sums. -/
theorem outsAt0_A (c : Dev nD) (t : Fin cfg0.N) (h0 : t.val % 64 = 0) :
    outsAt0 V c t.val t.isLt = (outA_4 (iblk0 V c 0 t) (iblk0 V c 1 t) (iblk0 V c 2 t) (iblk0 V c 3 t), outA_5 (iblk0 V c 0 t) (iblk0 V c 1 t) (iblk0 V c 2 t) (iblk0 V c 3 t)) := by
  obtain ⟨n, hn⟩ := t
  cases n with
  | zero => exact rfl
  | succ n => exact (if_pos h0).trans rfl

/-- At a point with j ≠ 0: what the point before left plus the point's sums. -/
theorem outsAt0_B (c : Dev nD) (t : Fin cfg0.N) (h0 : ¬ t.val % 64 = 0) :
    outsAt0 V c t.val t.isLt = (outB_4 (iblk0 V c 0 t) (iblk0 V c 1 t) (iblk0 V c 2 t) (iblk0 V c 3 t) (outsAt0 V c (t.val - 1) (Nat.lt_of_le_of_lt (Nat.sub_le _ _) t.isLt)).1,
      outB_5 (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The pipeline's proof data -/

/-- The arrays as the region finds them; after the body each input's buffer at its block, the two outputs' at the running
    sums; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j ≠ 0 the sum block's buffer holds what the body left at the point before: the point is not the first
    and the block was not written back in between. -/
theorem before0_4_B (c : Dev nD) (t : Fin cfg0.N) (h0 : ¬ t.val % 64 = 0) (d) :
    (dat0 V c).before 4 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    idle0_4 (fun _ _ => rfl)]
  dsimp only [dat0]
/-- The same for the sum-of-squares block. -/
theorem before0_5_B (c : Dev nD) (t : Fin cfg0.N) (h0 : ¬ t.val % 64 = 0) (d) :
    (dat0 V c).before 5 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    idle0_5 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; the point's second coordinate says which case it is in; in
    the accumulating case the output buffers hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 64 = 0
  · rw [outsAt0_A V c t h0]
    iintro ⟨HΦ, Ho, ⟨%d0, H0⟩, ⟨%d1, H1⟩, ⟨%d2, H2⟩, ⟨%d3, H3⟩, ⟨%d4, H4⟩, ⟨%d5, H5⟩⟩
    iapply (sound_kernel0A c Set.univ (grid0.coords t) ((hcond1 t).mpr h0) (fun h => (hcond2 t).mp h h0) _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt0_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0B c Set.univ (grid0.coords t) (fun h => h0 ((hcond1 t).mp h)) ((hcond2 t).mpr h0) _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation at every point: neither output window is idle anywhere, so each is left at what the body stored. -/
theorem body_obligation0 (c : Dev nD) : BodyObligation (dat0 (F := F) V c) (defs₀ (F := F)) Variants.none () Set.univ := fun t => by
  rw [bigSep_W0, bigSep_W0]
  have hi4 : idle0 4 (grid0.coords t) = false := idle0_4 _
  have hi5 : idle0 5 (grid0.coords t) = false := idle0_5 _
  simp only [hi4, hi5]
  exact sound_body0 V c t

end Cert.Kernel.Hand

end
-- ==== Proof.B1Body.lean ====
/-
  The normalising pass, one grid point at a time: point n handles batch element n. The body recomputes the rectified
  second layer from the point's block of x and the augmented parameters, multiplies by the per-channel scale, adds the
  per-channel shift and stores the 1×64×16384 output block whole. Here: each window's block at a point, what the output
  block holds after the body, and the body's run.
-/
import proofs.«145259_g2000300775167955_pallasbulk_386_8_alg».proof.Proof.Gen.Kernel.Launch
import proofs.«145259_g2000300775167955_pallasbulk_386_8_alg».proof.Proof.Gen.Kernel.Skeleton
import proofs.«145259_g2000300775167955_pallasbulk_386_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1 holds its block at every point, fetched there or not: unfetched, its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1 holds its block at every point, fetched there or not: unfetched, its index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1 holds its block at every point, fetched there or not: unfetched, its index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of region 1 holds its block at every point, fetched there or not: unfetched, its index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of region 1 holds its block at every point, fetched there or not: unfetched, its index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of region 1 holds its block at every point, fetched there or not: unfetched, its index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1x4x16384 := Rect.unit (s := S1x4x16384) ![0, 0, 0] S1x4x16384.size inb_S1x4x16384_S1x4x16384_0_0_0
abbrev r1_1 : Rect S40x4 := Rect.unit (s := S40x4) ![0, 0] S40x4.size inb_S40x4_S40x4_0_0
abbrev r1_2 : Rect S40x1 := Rect.unit (s := S40x1) ![0, 0] S40x1.size inb_S40x1_S40x1_0_0
abbrev r1_3 : Rect S64x40 := Rect.unit (s := S64x40) ![0, 0] S64x40.size inb_S64x40_S64x40_0_0
abbrev r1_4 : Rect S64x1 := Rect.unit (s := S64x1) ![0, 0] S64x1.size inb_S64x1_S64x1_0_0
abbrev r1_6 : Rect S1x64x16384 := Rect.unit (s := S1x64x16384) ![0, 0, 0] S1x64x16384.size inb_S1x64x16384_S1x64x16384_0_0_0

/-- The output block after the body: its one store, of the whole block. -/
def out1_6 (x0 : Vec F S1x4x16384 .f32) (x1 : Vec F S40x4 .bf16) (x2 : Vec F S40x1 .f32) (x3 : Vec F S64x40 .bf16) (x4 : Vec F S64x1 .f32) (x5 : Vec F S64x1 .f32) : Vec F S1x64x16384 .f32 :=
  View.canon [⟨r1_6, k1_pay1 (View.ld x0 r1_0) (View.ld x1 r1_1) (View.ld x2 r1_2) (View.ld x3 r1_3) (View.ld x4 r1_4) (View.ld x5 r1_4)⟩]

/-- One store of the whole block covers it. -/
theorem cover1_6 (p0 : Vec F S1x64x16384 .f32) (y : S1x64x16384.Idx) :
    ∃ pc ∈ ([⟨r1_6, p0⟩] : List (View.Piece (Elt F) S1x64x16384 .f32)), y ∈ pc.1.set :=
  View.cover_of_tiled [⟨r1_6, p0⟩] S1x64x16384.size (by rfl) y

set_option maxHeartbeats 1000000 in
/-- From the inputs' buffers at their contents and the output buffer at anything, the body runs to the inputs' as they
    were and the output's at `out1_6` of the inputs'. -/
theorem sound_kernel1 (c : Dev nD) (E : Set ℕ) (i : grid1.Coords)
    (arg1 : Memref sig .tc .vmem S1x4x16384 .f32) (harg1 : arg1.IsWhole) (arg2 : Memref sig .tc .vmem S40x4 .bf16) (harg2 : arg2.IsWhole) (arg3 : Memref sig .tc .vmem S40x1 .f32) (harg3 : arg3.IsWhole) (arg4 : Memref sig .tc .vmem S64x40 .bf16) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x16384 .f32) (harg7 : arg7.IsWhole)
    (x0 : Vec F S1x4x16384 .f32) (x1 : Vec F S40x4 .bf16) (x2 : Vec F S40x1 .f32) (x3 : Vec F S64x40 .bf16) (x4 : Vec F S64x1 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__norm_body i arg1 harg1 arg2 harg2 arg3 harg3 arg4 harg4 arg5 harg5 arg6 harg6 arg7 harg7) K := by
  simp only [cc1__norm_body_eq_skeleton]; unfold cc1__norm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.Kernel.Hand

end
-- ==== Proof.B1Dat.lean ====
/-
  The normalising pass over its whole grid: the pipeline's proof data (each input's buffer at its block, the output's at
  the body's one store) and the body obligation at every point.
-/
import proofs.«145259_g2000300775167955_pallasbulk_386_8_alg».proof.Proof.B1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays as the region finds them; after the body each input's buffer at its block and the output's at `out1_6` of
    the input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The whole run of @main: a stretch of host operations (the augmented parameters), the statistics pass, a stretch of
  host operations (the batch-norm fold), the normalising pass. The buffers' contents at each boundary are a fold from the
  launch memory; each region is a segment over the thread state "every unscoped buffer at the boundary's contents, the
  generator register at some state, nothing owed"; the run ends with every unscoped buffer at the last boundary's contents.
-/
import proofs.«145259_g2000300775167955_pallasbulk_386_8_alg».proof.Proof.B0Dat
import proofs.«145259_g2000300775167955_pallasbulk_386_8_alg».proof.Proof.B1Dat
import proofs.«145259_g2000300775167955_pallasbulk_386_8_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first host stretch (the statistics pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics pass: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the normalising pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the normalising pass. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- The batch `main_arg0` ends as launched: both regions only read it through an input window, no host stretch writes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
/-- `main_arg1` ends as launched: no region stages it and no host stretch writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
/-- `main_arg2` ends as launched: no region stages it and no host stretch writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
/-- `main_arg3` ends as launched: no region stages it and no host stretch writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
/-- `main_arg4` ends as launched: no region stages it and no host stretch writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
/-- `main_arg5` ends as launched: no region stages it and no host stretch writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
/-- `main_arg6` ends as launched: no region stages it and no host stretch writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

end Cert.Kernel.Hand

end
-- ==== Proof.K0Body.lean ====
/-
  The statistics pass, one grid point at a time. The grid is 2 × 64: point (q, j) handles batch element 64·q + j.
  The body computes, from the point's block of x and the augmented parameters, the per-channel sum s and sum of
  squares of the rectified second layer over the 16384 points; at j = 0 it stores them into the two 1×64×1 output
  blocks, at j ≠ 0 it adds them to what the blocks hold. Here: each window's block at a point, what the two output
  blocks hold after the body in each of the two cases, and the body's run in each case.
-/
import proofs.«145259_g2000300775167955_pallasbulk_386_8_alg».proof.Proof.Gen.KernelIdeal.Launch
import proofs.«145259_g2000300775167955_pallasbulk_386_8_alg».proof.Proof.Gen.KernelIdeal.Skeleton
import proofs.«145259_g2000300775167955_pallasbulk_386_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0 holds its block at every point, fetched there or not: unfetched, its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0 holds its block at every point, fetched there or not: unfetched, its index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0 holds its block at every point, fetched there or not: unfetched, its index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of region 0 holds its block at every point, fetched there or not: unfetched, its index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x4x16384 := Rect.unit (s := S1x4x16384) ![0, 0, 0] S1x4x16384.size inb_S1x4x16384_S1x4x16384_0_0_0
abbrev r0_1 : Rect S40x4 := Rect.unit (s := S40x4) ![0, 0] S40x4.size inb_S40x4_S40x4_0_0
abbrev r0_2 : Rect S40x1 := Rect.unit (s := S40x1) ![0, 0] S40x1.size inb_S40x1_S40x1_0_0
abbrev r0_3 : Rect S64x40 := Rect.unit (s := S64x40) ![0, 0] S64x40.size inb_S64x40_S64x40_0_0
abbrev r0_4 : Rect S1x64x1 := Rect.unit (s := S1x64x1) ![0, 0, 0] S1x64x1.size inb_S1x64x1_S1x64x1_0_0_0

/-! ## What the body leaves in the two output blocks -/

/-- The sum block after a point with j = 0: the point's own sums. -/
def outA_4 (x0 : Vec F S1x4x16384 .f32) (x1 : Vec F S40x4 .bf16) (x2 : Vec F S40x1 .f32) (x3 : Vec F S64x40 .bf16) : Vec F S1x64x1 .f32 :=
  View.canon [⟨r0_4, k0_pay4 (View.ld x0 r0_0) (View.ld x1 r0_1) (View.ld x2 r0_2) (View.ld x3 r0_3)⟩]
/-- The sum-of-squares block after a point with j = 0. -/
def outA_5 (x0 : Vec F S1x4x16384 .f32) (x1 : Vec F S40x4 .bf16) (x2 : Vec F S40x1 .f32) (x3 : Vec F S64x40 .bf16) : Vec F S1x64x1 .f32 :=
  View.canon [⟨r0_4, k0_pay5 (View.ld x0 r0_0) (View.ld x1 r0_1) (View.ld x2 r0_2) (View.ld x3 r0_3)⟩]
/-- The sum block after a point with j ≠ 0: what it held (`xo`) plus the point's sums. -/
def outB_4 (x0 : Vec F S1x4x16384 .f32) (x1 : Vec F S40x4 .bf16) (x2 : Vec F S40x1 .f32) (x3 : Vec F S64x40 .bf16) (xo : Vec F S1x64x1 .f32) : Vec F S1x64x1 .f32 :=
  View.canon [⟨r0_4, k0_pay6 (View.ld x0 r0_0) (View.ld x1 r0_1) (View.ld x2 r0_2) (View.ld x3 r0_3) (View.ld xo r0_4)⟩]
/-- The sum-of-squares block after a point with j ≠ 0. -/
def outB_5 (x0 : Vec F S1x4x16384 .f32) (x1 : Vec F S40x4 .bf16) (x2 : Vec F S40x1 .f32) (x3 : Vec F S64x40 .bf16) (xo : Vec F S1x64x1 .f32) : Vec F S1x64x1 .f32 :=
  View.canon [⟨r0_4, k0_pay7 (View.ld x0 r0_0) (View.ld x1 r0_1) (View.ld x2 r0_2) (View.ld x3 r0_3) (View.ld xo r0_4)⟩]

/-- One store of the whole block covers it. -/
theorem cover0_4 (p0 : Vec F S1x64x1 .f32) (y : S1x64x1.Idx) :
    ∃ pc ∈ ([⟨r0_4, p0⟩] : List (View.Piece (Elt F) S1x64x1 .f32)), y ∈ pc.1.set :=
  View.cover_of_tiled [⟨r0_4, p0⟩] S1x64x1.size (by rfl) y

/-! ## The body's run, case by case -/

set_option maxHeartbeats 1000000 in
/-- At a point with j = 0 (the first branch taken, the second not): from the inputs' buffers at their contents and the two
    output buffers at anything, the body runs to the inputs' as they were and the outputs' at the point's own sums. -/
theorem sound_kernel0A (c : Dev nD) (E : Set ℕ) (i : grid0.Coords) (hc1 : k0_cond1 i = 1#1) (hc2 : ¬ k0_cond2 i = 1#1)
    (arg2 : Memref sig .tc .vmem S1x4x16384 .f32) (harg2 : arg2.IsWhole) (arg3 : Memref sig .tc .vmem S40x4 .bf16) (harg3 : arg3.IsWhole) (arg4 : Memref sig .tc .vmem S40x1 .f32) (harg4 : arg4.IsWhole) (arg5 : Memref sig .tc .vmem S64x40 .bf16) (harg5 : arg5.IsWhole) (arg6 : Memref sig .tc .vmem S1x64x1 .f32) (harg6 : arg6.IsWhole) (arg7 : Memref sig .tc .vmem S1x64x1 .f32) (harg7 : arg7.IsWhole)
    (x0 : Vec F S1x4x16384 .f32) (x1 : Vec F S40x4 .bf16) (x2 : Vec F S40x1 .f32) (x3 : Vec F S64x40 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outA_4 x0 x1 x2 x3) ∗ owns (c : Thread nD τ) arg7 fullShare (outA_5 x0 x1 x2 x3)) -∗ K ⟨⟩))
      ⊢ wp frame (wpE (defs₀ (F := F)) Variants.none c none) E (cc0__stats_body i arg2 harg2 arg3 harg3 arg4 harg4 arg5 harg5 arg6 harg6 arg7 harg7) K := by
  simp only [cc0__stats_body_eq_skeleton]; unfold cc0__stats_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

set_option maxHeartbeats 1000000 in
/-- At a point with j ≠ 0 (the second branch taken, the first not): from the inputs' buffers at their contents and the two
    output buffers at `xo4`, `xo5`, the body runs to the inputs' as they were and the outputs' at those plus the point's sums. -/
theorem sound_kernel0B (c : Dev nD) (E : Set ℕ) (i : grid0.Coords) (hc1 : ¬ k0_cond1 i = 1#1) (hc2 : k0_cond2 i = 1#1)
    (arg2 : Memref sig .tc .vmem S1x4x16384 .f32) (harg2 : arg2.IsWhole) (arg3 : Memref sig .tc .vmem S40x4 .bf16) (harg3 : arg3.IsWhole) (arg4 : Memref sig .tc .vmem S40x1 .f32) (harg4 : arg4.IsWhole) (arg5 : Memref sig .tc .vmem S64x40 .bf16) (harg5 : arg5.IsWhole) (arg6 : Memref sig .tc .vmem S1x64x1 .f32) (harg6 : arg6.IsWhole) (arg7 : Memref sig .tc .vmem S1x64x1 .f32) (harg7 : arg7.IsWhole)
    (x0 : Vec F S1x4x16384 .f32) (x1 : Vec F S40x4 .bf16) (x2 : Vec F S40x1 .f32) (x3 : Vec F S64x40 .bf16) (xo4 xo5 : Vec F S1x64x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB_4 x0 x1 x2 x3 xo4) ∗ owns (c : Thread nD τ) arg7 fullShare (outB_5 x0 x1 x2 x3 xo5)) -∗ K ⟨⟩))
      ⊢ wp frame (wpE (defs₀ (F := F)) Variants.none c none) E (cc0__stats_body i arg2 harg2 arg3 harg3 arg4 harg4 arg5 harg5 arg6 harg6 arg7 harg7) K := by
  simp only [cc0__stats_body_eq_skeleton]; unfold cc0__stats_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

end Cert.KernelIdeal.Hand

end
-- ==== Proof.K0Dat.lean ====
/-
  The statistics pass over its whole grid. What the two output blocks hold after each point, by recursion on the
  point: at a point with j = 0 (every 64th point) the point's own sums, at any other point what the point before left
  plus the point's sums — the blocks are written back only after the points with j = 63, so between two write-backs
  each buffer keeps what the body left. Then the pipeline's proof data and the body obligation at every point.
-/
import proofs.«145259_g2000300775167955_pallasbulk_386_8_alg».proof.Proof.K0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The first branch is taken exactly at the points with j = 0. -/
theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
/-- The second branch is taken exactly at the points with j ≠ 0. -/
theorem hcond2 : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- One of the two branches is taken whatever the second coordinate: the output windows are never idle. -/
theorem cond_cover : ∀ n : Fin 64, (!(Scalar.cmpi .ne (Scalar.extui (Scalar.cmpi .eq (BitVec.ofNat 32 n.val) 0#32) : BitVec 32) 0#32 == 1#1)
    && !(Scalar.cmpi .ne (Scalar.extui (Scalar.cmpi .ne (BitVec.ofNat 32 n.val) 0#32) : BitVec 32) 0#32 == 1#1)) = false := by decide +kernel
theorem idle0_4 : ∀ i : cfg0.grid.Coords, cfg0.idle 4 i = false := fun i => cond_cover (i 1)
theorem idle0_5 : ∀ i : cfg0.grid.Coords, cfg0.idle 5 i = false := fun i => cond_cover (i 1)

/-! ## What the output blocks hold after each point -/

/-- The running sums: (sum block, sum-of-squares block) after the body at point `n`. -/
def outsAt0 (c : Dev nD) : (n : ℕ) → n < cfg0.N → Vec F S1x64x1 .f32 × Vec F S1x64x1 .f32
  | 0, hn => (outA_4 (iblk0 V c 0 ⟨0, hn⟩) (iblk0 V c 1 ⟨0, hn⟩) (iblk0 V c 2 ⟨0, hn⟩) (iblk0 V c 3 ⟨0, hn⟩), outA_5 (iblk0 V c 0 ⟨0, hn⟩) (iblk0 V c 1 ⟨0, hn⟩) (iblk0 V c 2 ⟨0, hn⟩) (iblk0 V c 3 ⟨0, hn⟩))
  | n + 1, hn =>
    if (n + 1) % 64 = 0 then
      (outA_4 (iblk0 V c 0 ⟨n + 1, hn⟩) (iblk0 V c 1 ⟨n + 1, hn⟩) (iblk0 V c 2 ⟨n + 1, hn⟩) (iblk0 V c 3 ⟨n + 1, hn⟩), outA_5 (iblk0 V c 0 ⟨n + 1, hn⟩) (iblk0 V c 1 ⟨n + 1, hn⟩) (iblk0 V c 2 ⟨n + 1, hn⟩) (iblk0 V c 3 ⟨n + 1, hn⟩))
    else
      (outB_4 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1,
       outB_5 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a point with j = 0: the point's own sums. -/
theorem outsAt0_A (c : Dev nD) (t : Fin cfg0.N) (h0 : t.val % 64 = 0) :
    outsAt0 V c t.val t.isLt = (outA_4 (iblk0 V c 0 t) (iblk0 V c 1 t) (iblk0 V c 2 t) (iblk0 V c 3 t), outA_5 (iblk0 V c 0 t) (iblk0 V c 1 t) (iblk0 V c 2 t) (iblk0 V c 3 t)) := by
  obtain ⟨n, hn⟩ := t
  cases n with
  | zero => exact rfl
  | succ n => exact (if_pos h0).trans rfl

/-- At a point with j ≠ 0: what the point before left plus the point's sums. -/
theorem outsAt0_B (c : Dev nD) (t : Fin cfg0.N) (h0 : ¬ t.val % 64 = 0) :
    outsAt0 V c t.val t.isLt = (outB_4 (iblk0 V c 0 t) (iblk0 V c 1 t) (iblk0 V c 2 t) (iblk0 V c 3 t) (outsAt0 V c (t.val - 1) (Nat.lt_of_le_of_lt (Nat.sub_le _ _) t.isLt)).1,
      outB_5 (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The pipeline's proof data -/

/-- The arrays as the region finds them; after the body each input's buffer at its block, the two outputs' at the running
    sums; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j ≠ 0 the sum block's buffer holds what the body left at the point before: the point is not the first
    and the block was not written back in between. -/
theorem before0_4_B (c : Dev nD) (t : Fin cfg0.N) (h0 : ¬ t.val % 64 = 0) (d) :
    (dat0 V c).before 4 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    idle0_4 (fun _ _ => rfl)]
  dsimp only [dat0]
/-- The same for the sum-of-squares block. -/
theorem before0_5_B (c : Dev nD) (t : Fin cfg0.N) (h0 : ¬ t.val % 64 = 0) (d) :
    (dat0 V c).before 5 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    idle0_5 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; the point's second coordinate says which case it is in; in
    the accumulating case the output buffers hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 64 = 0
  · rw [outsAt0_A V c t h0]
    iintro ⟨HΦ, Ho, ⟨%d0, H0⟩, ⟨%d1, H1⟩, ⟨%d2, H2⟩, ⟨%d3, H3⟩, ⟨%d4, H4⟩, ⟨%d5, H5⟩⟩
    iapply (sound_kernel0A c Set.univ (grid0.coords t) ((hcond1 t).mpr h0) (fun h => (hcond2 t).mp h h0) _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt0_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0B c Set.univ (grid0.coords t) (fun h => h0 ((hcond1 t).mp h)) ((hcond2 t).mpr h0) _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation at every point: neither output window is idle anywhere, so each is left at what the body stored. -/
theorem body_obligation0 (c : Dev nD) : BodyObligation (dat0 (F := F) V c) (defs₀ (F := F)) Variants.none () Set.univ := fun t => by
  rw [bigSep_W0, bigSep_W0]
  have hi4 : idle0 4 (grid0.coords t) = false := idle0_4 _
  have hi5 : idle0 5 (grid0.coords t) = false := idle0_5 _
  simp only [hi4, hi5]
  exact sound_body0 V c t

end Cert.KernelIdeal.Hand

end
-- ==== Proof.K1Body.lean ====
/-
  The normalising pass, one grid point at a time: point n handles batch element n. The body recomputes the rectified
  second layer from the point's block of x and the augmented parameters, multiplies by the per-channel scale, adds the
  per-channel shift and stores the 1×64×16384 output block whole. Here: each window's block at a point, what the output
  block holds after the body, and the body's run.
-/
import proofs.«145259_g2000300775167955_pallasbulk_386_8_alg».proof.Proof.Gen.KernelIdeal.Launch
import proofs.«145259_g2000300775167955_pallasbulk_386_8_alg».proof.Proof.Gen.KernelIdeal.Skeleton
import proofs.«145259_g2000300775167955_pallasbulk_386_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1 holds its block at every point, fetched there or not: unfetched, its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1 holds its block at every point, fetched there or not: unfetched, its index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1 holds its block at every point, fetched there or not: unfetched, its index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of region 1 holds its block at every point, fetched there or not: unfetched, its index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of region 1 holds its block at every point, fetched there or not: unfetched, its index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of region 1 holds its block at every point, fetched there or not: unfetched, its index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1x4x16384 := Rect.unit (s := S1x4x16384) ![0, 0, 0] S1x4x16384.size inb_S1x4x16384_S1x4x16384_0_0_0
abbrev r1_1 : Rect S40x4 := Rect.unit (s := S40x4) ![0, 0] S40x4.size inb_S40x4_S40x4_0_0
abbrev r1_2 : Rect S40x1 := Rect.unit (s := S40x1) ![0, 0] S40x1.size inb_S40x1_S40x1_0_0
abbrev r1_3 : Rect S64x40 := Rect.unit (s := S64x40) ![0, 0] S64x40.size inb_S64x40_S64x40_0_0
abbrev r1_4 : Rect S64x1 := Rect.unit (s := S64x1) ![0, 0] S64x1.size inb_S64x1_S64x1_0_0
abbrev r1_6 : Rect S1x64x16384 := Rect.unit (s := S1x64x16384) ![0, 0, 0] S1x64x16384.size inb_S1x64x16384_S1x64x16384_0_0_0

/-- The output block after the body: its one store, of the whole block. -/
def out1_6 (x0 : Vec F S1x4x16384 .f32) (x1 : Vec F S40x4 .bf16) (x2 : Vec F S40x1 .f32) (x3 : Vec F S64x40 .bf16) (x4 : Vec F S64x1 .f32) (x5 : Vec F S64x1 .f32) : Vec F S1x64x16384 .f32 :=
  View.canon [⟨r1_6, k1_pay1 (View.ld x0 r1_0) (View.ld x1 r1_1) (View.ld x2 r1_2) (View.ld x3 r1_3) (View.ld x4 r1_4) (View.ld x5 r1_4)⟩]

/-- One store of the whole block covers it. -/
theorem cover1_6 (p0 : Vec F S1x64x16384 .f32) (y : S1x64x16384.Idx) :
    ∃ pc ∈ ([⟨r1_6, p0⟩] : List (View.Piece (Elt F) S1x64x16384 .f32)), y ∈ pc.1.set :=
  View.cover_of_tiled [⟨r1_6, p0⟩] S1x64x16384.size (by rfl) y

set_option maxHeartbeats 1000000 in
/-- From the inputs' buffers at their contents and the output buffer at anything, the body runs to the inputs' as they
    were and the output's at `out1_6` of the inputs'. -/
theorem sound_kernel1 (c : Dev nD) (E : Set ℕ) (i : grid1.Coords)
    (arg1 : Memref sig .tc .vmem S1x4x16384 .f32) (harg1 : arg1.IsWhole) (arg2 : Memref sig .tc .vmem S40x4 .bf16) (harg2 : arg2.IsWhole) (arg3 : Memref sig .tc .vmem S40x1 .f32) (harg3 : arg3.IsWhole) (arg4 : Memref sig .tc .vmem S64x40 .bf16) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x16384 .f32) (harg7 : arg7.IsWhole)
    (x0 : Vec F S1x4x16384 .f32) (x1 : Vec F S40x4 .bf16) (x2 : Vec F S40x1 .f32) (x3 : Vec F S64x40 .bf16) (x4 : Vec F S64x1 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__norm_body i arg1 harg1 arg2 harg2 arg3 harg3 arg4 harg4 arg5 harg5 arg6 harg6 arg7 harg7) K := by
  simp only [cc1__norm_body_eq_skeleton]; unfold cc1__norm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.KernelIdeal.Hand

end
-- ==== Proof.K1Dat.lean ====
/-
  The normalising pass over its whole grid: the pipeline's proof data (each input's buffer at its block, the output's at
  the body's one store) and the body obligation at every point.
-/
import proofs.«145259_g2000300775167955_pallasbulk_386_8_alg».proof.Proof.K1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays as the region finds them; after the body each input's buffer at its block and the output's at `out1_6` of
    the input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The whole run of @main: a stretch of host operations (the augmented parameters), the statistics pass, a stretch of
  host operations (the batch-norm fold), the normalising pass. The buffers' contents at each boundary are a fold from the
  launch memory; each region is a segment over the thread state "every unscoped buffer at the boundary's contents, the
  generator register at some state, nothing owed"; the run ends with every unscoped buffer at the last boundary's contents.
-/
import proofs.«145259_g2000300775167955_pallasbulk_386_8_alg».proof.Proof.K0Dat
import proofs.«145259_g2000300775167955_pallasbulk_386_8_alg».proof.Proof.K1Dat
import proofs.«145259_g2000300775167955_pallasbulk_386_8_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first host stretch (the statistics pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics pass: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the normalising pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the normalising pass. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- The batch `main_arg0` ends as launched: both regions only read it through an input window, no host stretch writes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
/-- `main_arg1` ends as launched: no region stages it and no host stretch writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
/-- `main_arg2` ends as launched: no region stages it and no host stretch writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
/-- `main_arg3` ends as launched: no region stages it and no host stretch writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
/-- `main_arg4` ends as launched: no region stages it and no host stretch writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
/-- `main_arg5` ends as launched: no region stages it and no host stretch writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
/-- `main_arg6` ends as launched: no region stages it and no host stretch writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

end Cert.KernelIdeal.Hand

end
-- ==== Proof.KValBlocks.lean ====
/-
  Each window's block at a grid point, read as entries of the array it stages. The batch x is staged one batch element
  at a time: at point t of either pass the block is x(t, ·, ·). Every other input window stages its whole array.
-/
import proofs.«145259_g2000300775167955_pallasbulk_386_8_alg».proof.Proof.K0Dat
import proofs.«145259_g2000300775167955_pallasbulk_386_8_alg».proof.Proof.K1Dat
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the grids -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

theorem lt0 (t : Fin cfg0.N) : t.val < 128 := lt_of_lt_of_eq t.isLt (show cfg0.N = 128 from N_0)
theorem lt1 (t : Fin cfg1.N) : t.val < 128 := lt_of_lt_of_eq t.isLt (show cfg1.N = 128 from N_1)

/-! ## The statistics pass's windows -/

/-- The block of x at point t is batch element t. -/
theorem iblk0_0_apply (c : Dev nD) (t : Fin cfg0.N) (ch : Fin 4) (l : Fin 16384) :
    (iblk0 V c 0 t : S1x4x16384.Idx → Elt F .f32) (ix3 (0 : Fin 1) ch l) = (V c main_arg0 : S128x4x16384.Idx → Elt F .f32) (ix3 (⟨t.val, lt0 t⟩ : Fin 128) ch l) := by
  have hi := idx0_0 t
  unfold iblk0
  rw [View.read_apply]
  show V c main_arg0 _ = V c main_arg0 _
  congr 1
  funext a
  apply Fin.ext
  match a with
  | ⟨0, _⟩ => show win0_0.index t (0 : Fin 3) * 1 + 1 * 0 = t.val; rw [hi.1]; omega
  | ⟨1, _⟩ => show win0_0.index t (1 : Fin 3) * 4 + 1 * ch.val = ch.val; rw [hi.2.1]; omega
  | ⟨2, _⟩ => show win0_0.index t (2 : Fin 3) * 16384 + 1 * l.val = l.val; rw [hi.2.2]; omega

/-- Window 1 of region 0 is its whole array at every point. -/
theorem iblk0_1_eq (c : Dev nD) (t : Fin cfg0.N) : (iblk0 V c 1 t : S40x4.Idx → Elt F _) = V c main_v3 := by
  have hi : win0_1.index t (0 : Fin 2) = 0 ∧ win0_1.index t (1 : Fin 2) = 0 := idx0_1 t
  funext y
  unfold iblk0
  rw [View.read_apply]
  show V c main_v3 _ = V c main_v3 y
  congr 1
  funext a
  apply Fin.ext
  match a with
  | ⟨0, _⟩ => show win0_1.index t (0 : Fin 2) * 40 + 1 * (y 0).val = (y 0).val; rw [hi.1]; omega
  | ⟨1, _⟩ => show win0_1.index t (1 : Fin 2) * 4 + 1 * (y 1).val = (y 1).val; rw [hi.2]; omega

/-- Window 2 of region 0 is its whole array at every point. -/
theorem iblk0_2_eq (c : Dev nD) (t : Fin cfg0.N) : (iblk0 V c 2 t : S40x1.Idx → Elt F _) = V c main_v10 := by
  have hi : win0_2.index t (0 : Fin 2) = 0 ∧ win0_2.index t (1 : Fin 2) = 0 := idx0_2 t
  funext y
  unfold iblk0
  rw [View.read_apply]
  show V c main_v10 _ = V c main_v10 y
  congr 1
  funext a
  apply Fin.ext
  match a with
  | ⟨0, _⟩ => show win0_2.index t (0 : Fin 2) * 40 + 1 * (y 0).val = (y 0).val; rw [hi.1]; omega
  | ⟨1, _⟩ => show win0_2.index t (1 : Fin 2) * 1 + 1 * (y 1).val = (y 1).val; rw [hi.2]; omega

/-- Window 3 of region 0 is its whole array at every point. -/
theorem iblk0_3_eq (c : Dev nD) (t : Fin cfg0.N) : (iblk0 V c 3 t : S64x40.Idx → Elt F _) = V c main_v17 := by
  have hi : win0_3.index t (0 : Fin 2) = 0 ∧ win0_3.index t (1 : Fin 2) = 0 := idx0_3 t
  funext y
  unfold iblk0
  rw [View.read_apply]
  show V c main_v17 _ = V c main_v17 y
  congr 1
  funext a
  apply Fin.ext
  match a with
  | ⟨0, _⟩ => show win0_3.index t (0 : Fin 2) * 64 + 1 * (y 0).val = (y 0).val; rw [hi.1]; omega
  | ⟨1, _⟩ => show win0_3.index t (1 : Fin 2) * 40 + 1 * (y 1).val = (y 1).val; rw [hi.2]; omega

/-! ## The normalising pass's windows -/

/-- The block of x at point t is batch element t. -/
theorem iblk1_0_apply (c : Dev nD) (t : Fin cfg1.N) (ch : Fin 4) (l : Fin 16384) :
    (iblk1 V c 0 t : S1x4x16384.Idx → Elt F .f32) (ix3 (0 : Fin 1) ch l) = (V c main_arg0 : S128x4x16384.Idx → Elt F .f32) (ix3 (⟨t.val, lt1 t⟩ : Fin 128) ch l) := by
  have hi := idx1_0 t
  unfold iblk1
  rw [View.read_apply]
  show V c main_arg0 _ = V c main_arg0 _
  congr 1
  funext a
  apply Fin.ext
  match a with
  | ⟨0, _⟩ => show win1_0.index t (0 : Fin 3) * 1 + 1 * 0 = t.val; rw [hi.1]; omega
  | ⟨1, _⟩ => show win1_0.index t (1 : Fin 3) * 4 + 1 * ch.val = ch.val; rw [hi.2.1]; omega
  | ⟨2, _⟩ => show win1_0.index t (2 : Fin 3) * 16384 + 1 * l.val = l.val; rw [hi.2.2]; omega

/-- Window 1 of region 1 is its whole array at every point. -/
theorem iblk1_1_eq (c : Dev nD) (t : Fin cfg1.N) : (iblk1 V c 1 t : S40x4.Idx → Elt F _) = V c main_v3 := by
  have hi : win1_1.index t (0 : Fin 2) = 0 ∧ win1_1.index t (1 : Fin 2) = 0 := idx1_1 t
  funext y
  unfold iblk1
  rw [View.read_apply]
  show V c main_v3 _ = V c main_v3 y
  congr 1
  funext a
  apply Fin.ext
  match a with
  | ⟨0, _⟩ => show win1_1.index t (0 : Fin 2) * 40 + 1 * (y 0).val = (y 0).val; rw [hi.1]; omega
  | ⟨1, _⟩ => show win1_1.index t (1 : Fin 2) * 4 + 1 * (y 1).val = (y 1).val; rw [hi.2]; omega

/-- Window 2 of region 1 is its whole array at every point. -/
theorem iblk1_2_eq (c : Dev nD) (t : Fin cfg1.N) : (iblk1 V c 2 t : S40x1.Idx → Elt F _) = V c main_v10 := by
  have hi : win1_2.index t (0 : Fin 2) = 0 ∧ win1_2.index t (1 : Fin 2) = 0 := idx1_2 t
  funext y
  unfold iblk1
  rw [View.read_apply]
  show V c main_v10 _ = V c main_v10 y
  congr 1
  funext a
  apply Fin.ext
  match a with
  | ⟨0, _⟩ => show win1_2.index t (0 : Fin 2) * 40 + 1 * (y 0).val = (y 0).val; rw [hi.1]; omega
  | ⟨1, _⟩ => show win1_2.index t (1 : Fin 2) * 1 + 1 * (y 1).val = (y 1).val; rw [hi.2]; omega

/-- Window 3 of region 1 is its whole array at every point. -/
theorem iblk1_3_eq (c : Dev nD) (t : Fin cfg1.N) : (iblk1 V c 3 t : S64x40.Idx → Elt F _) = V c main_v17 := by
  have hi : win1_3.index t (0 : Fin 2) = 0 ∧ win1_3.index t (1 : Fin 2) = 0 := idx1_3 t
  funext y
  unfold iblk1
  rw [View.read_apply]
  show V c main_v17 _ = V c main_v17 y
  congr 1
  funext a
  apply Fin.ext
  match a with
  | ⟨0, _⟩ => show win1_3.index t (0 : Fin 2) * 64 + 1 * (y 0).val = (y 0).val; rw [hi.1]; omega
  | ⟨1, _⟩ => show win1_3.index t (1 : Fin 2) * 40 + 1 * (y 1).val = (y 1).val; rw [hi.2]; omega

/-- Window 4 of region 1 is its whole array at every point. -/
theorem iblk1_4_eq (c : Dev nD) (t : Fin cfg1.N) : (iblk1 V c 4 t : S64x1.Idx → Elt F _) = V c main_v32 := by
  have hi : win1_4.index t (0 : Fin 2) = 0 ∧ win1_4.index t (1 : Fin 2) = 0 := idx1_4 t
  funext y
  unfold iblk1
  rw [View.read_apply]
  show V c main_v32 _ = V c main_v32 y
  congr 1
  funext a
  apply Fin.ext
  match a with
  | ⟨0, _⟩ => show win1_4.index t (0 : Fin 2) * 64 + 1 * (y 0).val = (y 0).val; rw [hi.1]; omega
  | ⟨1, _⟩ => show win1_4.index t (1 : Fin 2) * 1 + 1 * (y 1).val = (y 1).val; rw [hi.2]; omega

/-- Window 5 of region 1 is its whole array at every point. -/
theorem iblk1_5_eq (c : Dev nD) (t : Fin cfg1.N) : (iblk1 V c 5 t : S64x1.Idx → Elt F _) = V c main_v34 := by
  have hi : win1_5.index t (0 : Fin 2) = 0 ∧ win1_5.index t (1 : Fin 2) = 0 := idx1_5 t
  funext y
  unfold iblk1
  rw [View.read_apply]
  show V c main_v34 _ = V c main_v34 y
  congr 1
  funext a
  apply Fin.ext
  match a with
  | ⟨0, _⟩ => show win1_5.index t (0 : Fin 2) * 64 + 1 * (y 0).val = (y 0).val; rw [hi.1]; omega
  | ⟨1, _⟩ => show win1_5.index t (1 : Fin 2) * 1 + 1 * (y 1).val = (y 1).val; rw [hi.2]; omega

/-! ## The output blocks as payloads: a store of the whole block leaves the payload, a load of a whole buffer its contents -/

theorem outA_4_eq (x0 : Vec F S1x4x16384 .f32) (x1 : Vec F S40x4 .bf16) (x2 : Vec F S40x1 .f32) (x3 : Vec F S64x40 .bf16) :
    outA_4 x0 x1 x2 x3 = k0_pay4 x0 x1 x2 x3 := by
  unfold outA_4
  rw [View.canon_unit_zero hz3]
  simp only [View.ld_unit_zero (S := S1x4x16384) hz3, View.ld_unit_zero (S := S40x4) hz2, View.ld_unit_zero (S := S40x1) hz2, View.ld_unit_zero (S := S64x40) hz2]
theorem outA_5_eq (x0 : Vec F S1x4x16384 .f32) (x1 : Vec F S40x4 .bf16) (x2 : Vec F S40x1 .f32) (x3 : Vec F S64x40 .bf16) :
    outA_5 x0 x1 x2 x3 = k0_pay5 x0 x1 x2 x3 := by
  unfold outA_5
  rw [View.canon_unit_zero hz3]
  simp only [View.ld_unit_zero (S := S1x4x16384) hz3, View.ld_unit_zero (S := S40x4) hz2, View.ld_unit_zero (S := S40x1) hz2, View.ld_unit_zero (S := S64x40) hz2]
theorem outB_4_eq (x0 : Vec F S1x4x16384 .f32) (x1 : Vec F S40x4 .bf16) (x2 : Vec F S40x1 .f32) (x3 : Vec F S64x40 .bf16) (xo : Vec F S1x64x1 .f32) :
    outB_4 x0 x1 x2 x3 xo = k0_pay6 x0 x1 x2 x3 xo := by
  unfold outB_4
  rw [View.canon_unit_zero hz3]
  simp only [View.ld_unit_zero (S := S1x4x16384) hz3, View.ld_unit_zero (S := S40x4) hz2, View.ld_unit_zero (S := S40x1) hz2, View.ld_unit_zero (S := S64x40) hz2, View.ld_unit_zero (S := S1x64x1) hz3]
theorem outB_5_eq (x0 : Vec F S1x4x16384 .f32) (x1 : Vec F S40x4 .bf16) (x2 : Vec F S40x1 .f32) (x3 : Vec F S64x40 .bf16) (xo : Vec F S1x64x1 .f32) :
    outB_5 x0 x1 x2 x3 xo = k0_pay7 x0 x1 x2 x3 xo := by
  unfold outB_5
  rw [View.canon_unit_zero hz3]
  simp only [View.ld_unit_zero (S := S1x4x16384) hz3, View.ld_unit_zero (S := S40x4) hz2, View.ld_unit_zero (S := S40x1) hz2, View.ld_unit_zero (S := S64x40) hz2, View.ld_unit_zero (S := S1x64x1) hz3]
theorem out1_6_eq (x0 : Vec F S1x4x16384 .f32) (x1 : Vec F S40x4 .bf16) (x2 : Vec F S40x1 .f32) (x3 : Vec F S64x40 .bf16) (x4 x5 : Vec F S64x1 .f32) :
    out1_6 x0 x1 x2 x3 x4 x5 = k1_pay1 x0 x1 x2 x3 x4 x5 := by
  unfold out1_6
  rw [View.canon_unit_zero hz3]
  simp only [View.ld_unit_zero (S := S1x4x16384) hz3, View.ld_unit_zero (S := S40x4) hz2, View.ld_unit_zero (S := S40x1) hz2, View.ld_unit_zero (S := S64x40) hz2, View.ld_unit_zero (S := S64x1) hz2]

end Cert.KernelIdeal.Hand

end
-- ==== Proof.Spec.lean ====
/-
  The mathematics both programs compute, as functions on the extended reals, index by index.

  For a batch of 128 point clouds x(n, ·, ·) with 4 channels and 16384 points each:
    h1(n, k, l) = max (Σ_c w0(k, c) · x(n, c, l) + b0(k), 0)            (32 hidden channels)
    h2(n, o, l) = max (Σ_k w1(o, k) · h1(n, k, l) + b1(o), 0)           (64 output channels)
  the per-channel sums over every batch element and every point
    S(o) = Σ_n Σ_l h2(n, o, l),     Q(o) = Σ_n Σ_l h2(n, o, l)²,
  and, given a per-channel scale and shift, the normalised output
    y(n, o, l) = h2(n, o, l) · scale(o) + shift(o).
  Nothing here mentions a program: the shapes are literal.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![128, 4, 16384]⟩
abbrev SW0 : Shape := ⟨2, ![32, 4]⟩
abbrev SB0 : Shape := ⟨2, ![32, 1]⟩
abbrev SW1 : Shape := ⟨2, ![64, 32]⟩
abbrev SC : Shape := ⟨2, ![64, 1]⟩
abbrev SY : Shape := ⟨3, ![128, 64, 16384]⟩

variable (x : SX.Idx → EReal) (w0 : SW0.Idx → EReal) (b0 : SB0.Idx → EReal) (w1 : SW1.Idx → EReal) (b1 : SC.Idx → EReal)

/-- The first layer with its rectifier: hidden channel `k` of batch element `n` at point `l`. -/
def h1 (n : Fin 128) (k : Fin 32) (l : Fin 16384) : EReal :=
  max ((∑ c : Fin 4, w0 (ix2 k c) * x (ix3 n c l)) + b0 (ix2 k (0 : Fin 1))) 0

/-- The second layer with its rectifier: output channel `o` of batch element `n` at point `l`. -/
def h2 (n : Fin 128) (o : Fin 64) (l : Fin 16384) : EReal :=
  max ((∑ k : Fin 32, w1 (ix2 o k) * h1 x w0 b0 n k l) + b1 (ix2 o (0 : Fin 1))) 0

/-- The sum of channel `o` over one batch element's points. -/
def rowSum (n : Fin 128) (o : Fin 64) : EReal := ∑ l : Fin 16384, h2 x w0 b0 w1 b1 n o l

/-- The sum of squares of channel `o` over one batch element's points. -/
def rowSq (n : Fin 128) (o : Fin 64) : EReal := ∑ l : Fin 16384, h2 x w0 b0 w1 b1 n o l * h2 x w0 b0 w1 b1 n o l

/-- The per-channel sum over the whole batch, as a 64×1 column. -/
def statS : SC.Idx → EReal := fun i => ∑ n : Fin 128, rowSum x w0 b0 w1 b1 n (i 0)

/-- The per-channel sum of squares over the whole batch, as a 64×1 column. -/
def statQ : SC.Idx → EReal := fun i => ∑ n : Fin 128, rowSq x w0 b0 w1 b1 n (i 0)

/-- The normalised output for a given per-channel scale and shift (64×1 columns). -/
def Y (scale shift : SC.Idx → EReal) : SY.Idx → EReal :=
  fun i => h2 x w0 b0 w1 b1 (i 0) (i 1) (i 2) * scale (ix2 (i 1) (0 : Fin 1)) + shift (ix2 (i 1) (0 : Fin 1))

end Cert.Spec

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.KPayFirst.lean ====
/-
  The first layer of the block computation on the augmented parameters, read one entry at a time.

  The block works with a 40-row first-layer matrix `a` and bias column `b`: rows 0–31 are the layer's own, row 32
  has zero weights and bias 1, rows 33–39 have zero weights and zero bias. Its hidden value at (k, l) is
      max (Σ_c a(k, c) · x(c, l) + b(k), 0),
  which is the specification's first layer for k < 32, the constant 1 at k = 32 (0 · x = 0 for every extended
  real x, so the sum vanishes without any finiteness), and 0 for k > 32.
-/
import Idealize.ShloMosaic.Lib.ValueIdx
import Idealize.ShloMosaic.Lib.Pipeline.Value
import Idealize.ShloMosaic.Lib.ValueLayout
import Idealize.ShloMosaic.PureOps.Ideal.Laws
import proofs.«145259_g2000300775167955_pallasbulk_386_8_alg».proof.Proof.Gen.KernelIdeal.Skeleton
import proofs.«145259_g2000300775167955_pallasbulk_386_8_alg».proof.Proof.Spec
import proofs.«145259_g2000300775167955_pallasbulk_386_8_alg».proof.Proof.LibRows
import proofs.«145259_g2000300775167955_pallasbulk_386_8_alg».proof.Proof.LibColumns

noncomputable section

open scoped BigOperators

namespace Cert.KernelIdeal.Hand

open Idealize.ShloMosaic Idealize.ShloMosaic.ValueIdx Cert.KernelIdeal Cert.KernelIdeal.Gen Cert.Spec

/-- The hidden block: the first product, the bias column spread along the points, the rectifier. -/
def hidden (x0 : Vec Ideal S1x4x16384 .f32) (a : Vec Ideal S40x4 .bf16) (b : Vec Ideal S40x1 .f32) :
    FVec Ideal S40x16384 .f32 :=
  maximumf
    (addf
      (matmul dot_S40x4_S4x16384_S40x16384_1_0_0_1_n_n none
        (shapeCast S40x4 a shapeCasts_S40x4_S40x4 : FVec Ideal S40x4 .bf16)
        (truncf .bf16 (shapeCast S4x16384 x0 shapeCasts_S1x4x16384_S4x16384 : FVec Ideal S4x16384 .f32) bitsLt_bf16_f32)
        (constant (F := Ideal) S40x16384 .f32 0x00000000#32))
      (broadcastTo S40x16384 (shapeCast S40x1 b shapeCasts_S40x1_S40x1 : FVec Ideal S40x1 .f32) broadcasts_S40x1_S40x16384))
    (broadcast S40x16384 (Scalar.ofBits (F := Ideal) .f32 0x00000000#32))

/-- The first product at (k, l): the sum over the four input channels. -/
theorem first_product_apply (l' : FVec Ideal S40x4 .bf16) (r' : FVec Ideal S4x16384 .bf16) (k : Fin 40) (l : Fin 16384) :
    matmul dot_S40x4_S4x16384_S40x16384_1_0_0_1_n_n none l' r' (constant (F := Ideal) S40x16384 .f32 0x00000000#32) (ix2 k l)
      = ∑ c : Fin 4, l' (ix2 k c) * r' (ix2 c l) :=
  Cert.LibRows.matmul_zero_apply dot_S40x4_S4x16384_S40x16384_1_0_0_1_n_n rfl rfl
    (fun i q => by simp [DotDims.lhsIdx, dot_S40x4_S4x16384_S40x16384_1_0_0_1_n_n]; rfl)
    (fun i q => by simp [DotDims.lhsIdx, dot_S40x4_S4x16384_S40x16384_1_0_0_1_n_n]; rfl)
    (fun i q => by simp [DotDims.rhsIdx, dot_S40x4_S4x16384_S40x16384_1_0_0_1_n_n]; rfl)
    (fun i q => by simp [DotDims.rhsIdx, dot_S40x4_S4x16384_S40x16384_1_0_0_1_n_n]; rfl)
    l' r' k l

/-- The hidden block at (k, l). -/
theorem hidden_apply (x0 : Vec Ideal S1x4x16384 .f32) (a : Vec Ideal S40x4 .bf16) (b : Vec Ideal S40x1 .f32)
    (k : Fin 40) (l : Fin 16384) :
    hidden x0 a b (ix2 k l)
      = max ((∑ c : Fin 4, a (ix2 k c) * x0 (ix3 (0 : Fin 1) c l)) + b (ix2 k (0 : Fin 1))) 0 := by
  unfold hidden
  rw [maximumf_apply, addf_apply, broadcast_apply, first_product_apply, shapeCast_self, shapeCast_self,
    Cert.LibColumns.broadcastTo_a1_ab_apply]
  refine congrArg₂ max (congrArg₂ (· + ·) (Finset.sum_congr rfl fun c _ => ?_) rfl) Ideal.ofBits_zero_f32
  rw [truncf_apply, shapeCast_1ab_ab_apply]

section Rows

variable (x : SX.Idx → EReal) (w0 : SW0.Idx → EReal) (b0 : SB0.Idx → EReal) (n : Fin 128)
  (x0 : Vec Ideal S1x4x16384 .f32) (a : Vec Ideal S40x4 .bf16) (b : Vec Ideal S40x1 .f32)
  (hx : ∀ (c : Fin 4) (l : Fin 16384), x0 (ix3 (0 : Fin 1) c l) = x (ix3 n c l))
  (ha : ∀ (k : Fin 40) (c : Fin 4), a (ix2 k c) = if h : k.val < 32 then w0 (ix2 ⟨k.val, h⟩ c) else 0)
  (hb : ∀ (k : Fin 40), b (ix2 k (0 : Fin 1))
    = if h : k.val < 32 then b0 (ix2 ⟨k.val, h⟩ 0) else if k.val = 32 then 1 else 0)

include hx ha hb

/-- Rows 0–31 of the hidden block are the specification's first layer. -/
theorem hidden_of_lt (k : Fin 40) (h : k.val < 32) (l : Fin 16384) :
    hidden x0 a b (ix2 k l) = h1 x w0 b0 n ⟨k.val, h⟩ l := by
  rw [hidden_apply, hb k, dif_pos h]
  unfold Cert.Spec.h1
  refine congrArg₂ max (congrArg₂ (· + ·) (Finset.sum_congr rfl fun c _ => ?_) rfl) rfl
  rw [ha k c, dif_pos h, hx c l]

omit hx in
/-- Row 32 of the hidden block is the constant 1: its weights are zero and its bias is 1. -/
theorem hidden_of_eq (k : Fin 40) (h : k.val = 32) (l : Fin 16384) : hidden x0 a b (ix2 k l) = 1 := by
  have hs : ∑ c : Fin 4, a (ix2 k c) * x0 (ix3 (0 : Fin 1) c l) = 0 :=
    Finset.sum_eq_zero fun c _ => by rw [ha k c, dif_neg (by omega), zero_mul]
  rw [hidden_apply, hb k, dif_neg (by omega), if_pos h, hs, zero_add]
  exact max_eq_left zero_le_one

omit hx in
/-- Rows 33–39 of the hidden block are zero: their weights and their bias are zero. -/
theorem hidden_of_gt (k : Fin 40) (h : 32 < k.val) (l : Fin 16384) : hidden x0 a b (ix2 k l) = 0 := by
  have hs : ∑ c : Fin 4, a (ix2 k c) * x0 (ix3 (0 : Fin 1) c l) = 0 :=
    Finset.sum_eq_zero fun c _ => by rw [ha k c, dif_neg (by omega), zero_mul]
  rw [hidden_apply, hb k, dif_neg (by omega), if_neg (by omega), hs, zero_add]
  exact max_self 0

end Rows

end Cert.KernelIdeal.Hand

end
-- ==== Proof.KPaySecond.lean ====
/-
  The second layer of the block computation on the augmented parameters, read one entry at a time.

  The block's second matrix `w` has 40 columns: columns 0–31 are the layer's weights, column 32 is its bias, columns
  33–39 are zero. Against the hidden block (rows 0–31 the first layer, row 32 the constant 1, rows 33–39 zero) the
  product at (o, l) is
      Σ_{k<32} w1(o, k) · h1(k, l)  +  b1(o) · 1  +  Σ_{k>32} 0 · 0,
  the specification's second layer before its rectifier: the sum over 40 splits into the first 32 terms, the term
  32 and the last 7, which vanish.
-/
import proofs.«145259_g2000300775167955_pallasbulk_386_8_alg».proof.Proof.KPayFirst

noncomputable section

open scoped BigOperators

namespace Cert.KernelIdeal.Hand

open Idealize.ShloMosaic Idealize.ShloMosaic.ValueIdx Cert.KernelIdeal Cert.KernelIdeal.Gen Cert.Spec

/-- The second product at (o, l): the sum over the forty hidden rows. -/
theorem second_product_apply (l' : FVec Ideal S64x40 .bf16) (r' : FVec Ideal S40x16384 .bf16) (o : Fin 64) (l : Fin 16384) :
    matmul dot_S64x40_S40x16384_S64x16384_1_0_0_1_n_n none l' r' (constant (F := Ideal) S64x16384 .f32 0x00000000#32) (ix2 o l)
      = ∑ k : Fin 40, l' (ix2 o k) * r' (ix2 k l) :=
  Cert.LibRows.matmul_zero_apply dot_S64x40_S40x16384_S64x16384_1_0_0_1_n_n rfl rfl
    (fun i q => by simp [DotDims.lhsIdx, dot_S64x40_S40x16384_S64x16384_1_0_0_1_n_n]; rfl)
    (fun i q => by simp [DotDims.lhsIdx, dot_S64x40_S40x16384_S64x16384_1_0_0_1_n_n]; rfl)
    (fun i q => by simp [DotDims.rhsIdx, dot_S64x40_S40x16384_S64x16384_1_0_0_1_n_n]; rfl)
    (fun i q => by simp [DotDims.rhsIdx, dot_S64x40_S40x16384_S64x16384_1_0_0_1_n_n]; rfl)
    l' r' o l

/-- The activation block is the second product of the hidden block, rectified. -/
theorem pay1_eq (x0 : Vec Ideal S1x4x16384 .f32) (a : Vec Ideal S40x4 .bf16) (b : Vec Ideal S40x1 .f32)
    (w : Vec Ideal S64x40 .bf16) :
    Gen.k0_pay1 x0 a b w
      = maximumf
          (matmul dot_S64x40_S40x16384_S64x16384_1_0_0_1_n_n none
            (shapeCast S64x40 w shapeCasts_S64x40_S64x40 : FVec Ideal S64x40 .bf16)
            (truncf .bf16 (hidden x0 a b) bitsLt_bf16_f32)
            (constant (F := Ideal) S64x16384 .f32 0x00000000#32))
          (broadcast S64x16384 (Scalar.ofBits (F := Ideal) .f32 0x00000000#32)) := rfl

/-- The activation block at (o, l), over the hidden block. -/
theorem pay1_hidden_apply (x0 : Vec Ideal S1x4x16384 .f32) (a : Vec Ideal S40x4 .bf16) (b : Vec Ideal S40x1 .f32)
    (w : Vec Ideal S64x40 .bf16) (o : Fin 64) (l : Fin 16384) :
    Gen.k0_pay1 x0 a b w (ix2 o l) = max (∑ k : Fin 40, w (ix2 o k) * hidden x0 a b (ix2 k l)) 0 := by
  refine (congrFun (pay1_eq x0 a b w) (ix2 o l)).trans ?_
  rw [maximumf_apply, broadcast_apply, second_product_apply, shapeCast_self]
  exact congrArg₂ max (Finset.sum_congr rfl fun k _ => by rw [truncf_apply]) Ideal.ofBits_zero_f32

section Spec

variable (x : SX.Idx → EReal) (w0 : SW0.Idx → EReal) (b0 : SB0.Idx → EReal) (w1 : SW1.Idx → EReal) (b1 : SC.Idx → EReal)
  (n : Fin 128)
  (x0 : Vec Ideal S1x4x16384 .f32) (a : Vec Ideal S40x4 .bf16) (b : Vec Ideal S40x1 .f32) (w : Vec Ideal S64x40 .bf16)
  (hx : ∀ (c : Fin 4) (l : Fin 16384), x0 (ix3 (0 : Fin 1) c l) = x (ix3 n c l))
  (ha : ∀ (k : Fin 40) (c : Fin 4), a (ix2 k c) = if h : k.val < 32 then w0 (ix2 ⟨k.val, h⟩ c) else 0)
  (hb : ∀ (k : Fin 40), b (ix2 k (0 : Fin 1))
    = if h : k.val < 32 then b0 (ix2 ⟨k.val, h⟩ 0) else if k.val = 32 then 1 else 0)
  (hw : ∀ (o : Fin 64) (k : Fin 40), w (ix2 o k)
    = if h : k.val < 32 then w1 (ix2 o ⟨k.val, h⟩) else if k.val = 32 then b1 (ix2 o (0 : Fin 1)) else 0)

include hx ha hb hw

/-- The sum over the forty hidden rows: the second layer's sum over its 32 inputs, plus its bias. -/
theorem second_sum (o : Fin 64) (l : Fin 16384) :
    ∑ k : Fin 40, w (ix2 o k) * hidden x0 a b (ix2 k l)
      = (∑ k : Fin 32, w1 (ix2 o k) * h1 x w0 b0 n k l) + b1 (ix2 o (0 : Fin 1)) := by
  refine (Fin.sum_univ_add (a := 32) (b := 8) fun k : Fin 40 => w (ix2 o k) * hidden x0 a b (ix2 k l)).trans ?_
  refine congrArg₂ (· + ·) (Finset.sum_congr rfl fun i _ => ?_) ?_
  · have hi : (Fin.castAdd 8 i).val < 32 := i.isLt
    rw [hw o (Fin.castAdd 8 i), dif_pos hi, hidden_of_lt x w0 b0 n x0 a b hx ha hb _ hi l]
    rfl
  · rw [Fin.sum_univ_succ]
    have h0 : (Fin.natAdd 32 (0 : Fin 8)).val = 32 := rfl
    have hz : ∑ j : Fin 7, w (ix2 o (Fin.natAdd 32 j.succ)) * hidden x0 a b (ix2 (Fin.natAdd 32 j.succ) l) = 0 :=
      Finset.sum_eq_zero fun j _ => by
        have hj : (Fin.natAdd 32 j.succ).val = 32 + (j.val + 1) := rfl
        rw [hidden_of_gt w0 b0 x0 a b ha hb _ (by omega) l, mul_zero]
    rw [hz, add_zero, hw o (Fin.natAdd 32 (0 : Fin 8)), dif_neg (by omega), if_pos h0,
      hidden_of_eq w0 b0 x0 a b ha hb _ h0 l, mul_one]

/-- The activation block at (o, l) is the specification's second layer. -/
theorem pay1_apply (o : Fin 64) (l : Fin 16384) :
    Gen.k0_pay1 x0 a b w (ix2 o l) = Cert.Spec.h2 x w0 b0 w1 b1 n o l := by
  rw [pay1_hidden_apply, second_sum x w0 b0 w1 b1 n x0 a b w hx ha hb hw o l]
  rfl

end Spec

end Cert.KernelIdeal.Hand

end
-- ==== Proof.KPaySums.lean ====
/-
  The lane sums of the activation block, read one entry at a time.

  Summing the 64 × 16384 activation block along its points leaves, for each output channel o, the sum over the
  points of the second layer's value; summing its elementwise square leaves the sum of squares. Both come back as
  64 × 1 columns, and as 1 × 64 × 1 blocks for the store of the first batch element.
-/
import proofs.«145259_g2000300775167955_pallasbulk_386_8_alg».proof.Proof.KPaySecond

noncomputable section

open scoped BigOperators

namespace Cert.KernelIdeal.Hand

open Idealize.ShloMosaic Idealize.ShloMosaic.ValueIdx Cert.KernelIdeal Cert.KernelIdeal.Gen Cert.Spec

/-- The column of lane sums at (o, ·): the sum of row o of the activation block. -/
theorem pay2_sum_apply (x0 : Vec Ideal S1x4x16384 .f32) (a : Vec Ideal S40x4 .bf16) (b : Vec Ideal S40x1 .f32)
    (w : Vec Ideal S64x40 .bf16) (o : Fin 64) (u : Fin 1) :
    Gen.k0_pay2 x0 a b w (ix2 o u) = ∑ l : Fin 16384, Gen.k0_pay1 x0 a b w (ix2 o l) := by
  unfold Gen.k0_pay2
  refine (Cert.LibColumns.shapeCast_a_a1_apply _ _ o u).trans ?_
  exact Cert.LibRows.sum_last2_apply _ _ _ _ _ o

/-- The column of lane sums of squares at (o, ·): the sum of the squares of row o of the activation block. -/
theorem pay3_sum_apply (x0 : Vec Ideal S1x4x16384 .f32) (a : Vec Ideal S40x4 .bf16) (b : Vec Ideal S40x1 .f32)
    (w : Vec Ideal S64x40 .bf16) (o : Fin 64) (u : Fin 1) :
    Gen.k0_pay3 x0 a b w (ix2 o u)
      = ∑ l : Fin 16384, Gen.k0_pay1 x0 a b w (ix2 o l) * Gen.k0_pay1 x0 a b w (ix2 o l) := by
  unfold Gen.k0_pay3
  refine (Cert.LibColumns.shapeCast_a_a1_apply _ _ o u).trans ?_
  exact Cert.LibRows.sum_last2_apply _ _ _ _ _ o

section Spec

variable (x : SX.Idx → EReal) (w0 : SW0.Idx → EReal) (b0 : SB0.Idx → EReal) (w1 : SW1.Idx → EReal) (b1 : SC.Idx → EReal)
  (n : Fin 128)
  (x0 : Vec Ideal S1x4x16384 .f32) (a : Vec Ideal S40x4 .bf16) (b : Vec Ideal S40x1 .f32) (w : Vec Ideal S64x40 .bf16)
  (hx : ∀ (c : Fin 4) (l : Fin 16384), x0 (ix3 (0 : Fin 1) c l) = x (ix3 n c l))
  (ha : ∀ (k : Fin 40) (c : Fin 4), a (ix2 k c) = if h : k.val < 32 then w0 (ix2 ⟨k.val, h⟩ c) else 0)
  (hb : ∀ (k : Fin 40), b (ix2 k (0 : Fin 1))
    = if h : k.val < 32 then b0 (ix2 ⟨k.val, h⟩ 0) else if k.val = 32 then 1 else 0)
  (hw : ∀ (o : Fin 64) (k : Fin 40), w (ix2 o k)
    = if h : k.val < 32 then w1 (ix2 o ⟨k.val, h⟩) else if k.val = 32 then b1 (ix2 o (0 : Fin 1)) else 0)

include hx ha hb hw

/-- The column of lane sums is the specification's per-element channel sum. -/
theorem pay2_apply (o : Fin 64) :
    Gen.k0_pay2 x0 a b w (ix2 o (0 : Fin 1)) = Cert.Spec.rowSum x w0 b0 w1 b1 n o := by
  rw [pay2_sum_apply]
  exact Finset.sum_congr rfl fun l _ => pay1_apply x w0 b0 w1 b1 n x0 a b w hx ha hb hw o l

/-- The column of lane sums of squares is the specification's per-element channel sum of squares. -/
theorem pay3_apply (o : Fin 64) :
    Gen.k0_pay3 x0 a b w (ix2 o (0 : Fin 1)) = Cert.Spec.rowSq x w0 b0 w1 b1 n o := by
  rw [pay3_sum_apply]
  exact Finset.sum_congr rfl fun l _ => by rw [pay1_apply x w0 b0 w1 b1 n x0 a b w hx ha hb hw o l]

/-- The stored block of lane sums. -/
theorem pay4_apply (o : Fin 64) :
    Gen.k0_pay4 x0 a b w (ix3 (0 : Fin 1) o (0 : Fin 1)) = Cert.Spec.rowSum x w0 b0 w1 b1 n o := by
  unfold Gen.k0_pay4
  refine (shapeCast_ab_1ab_apply _ _ (0 : Fin 1) o (0 : Fin 1)).trans ?_
  exact pay2_apply x w0 b0 w1 b1 n x0 a b w hx ha hb hw o

/-- The stored block of lane sums of squares. -/
theorem pay5_apply (o : Fin 64) :
    Gen.k0_pay5 x0 a b w (ix3 (0 : Fin 1) o (0 : Fin 1)) = Cert.Spec.rowSq x w0 b0 w1 b1 n o := by
  unfold Gen.k0_pay5
  refine (shapeCast_ab_1ab_apply _ _ (0 : Fin 1) o (0 : Fin 1)).trans ?_
  exact pay3_apply x w0 b0 w1 b1 n x0 a b w hx ha hb hw o

end Spec

end Cert.KernelIdeal.Hand

end
-- ==== Proof.KPayAccum.lean ====
/-
  The accumulating forms: for a batch element after the first, the block read back from the accumulator has the
  lane sums (or the lane sums of squares) added to it, entry by entry.
-/
import proofs.«145259_g2000300775167955_pallasbulk_386_8_alg».proof.Proof.KPaySums

noncomputable section

open scoped BigOperators

namespace Cert.KernelIdeal.Hand

open Idealize.ShloMosaic Idealize.ShloMosaic.ValueIdx Cert.KernelIdeal Cert.KernelIdeal.Gen Cert.Spec

variable (x : SX.Idx → EReal) (w0 : SW0.Idx → EReal) (b0 : SB0.Idx → EReal) (w1 : SW1.Idx → EReal) (b1 : SC.Idx → EReal)
  (n : Fin 128)
  (x0 : Vec Ideal S1x4x16384 .f32) (a : Vec Ideal S40x4 .bf16) (b : Vec Ideal S40x1 .f32) (w : Vec Ideal S64x40 .bf16)
  (hx : ∀ (c : Fin 4) (l : Fin 16384), x0 (ix3 (0 : Fin 1) c l) = x (ix3 n c l))
  (ha : ∀ (k : Fin 40) (c : Fin 4), a (ix2 k c) = if h : k.val < 32 then w0 (ix2 ⟨k.val, h⟩ c) else 0)
  (hb : ∀ (k : Fin 40), b (ix2 k (0 : Fin 1))
    = if h : k.val < 32 then b0 (ix2 ⟨k.val, h⟩ 0) else if k.val = 32 then 1 else 0)
  (hw : ∀ (o : Fin 64) (k : Fin 40), w (ix2 o k)
    = if h : k.val < 32 then w1 (ix2 o ⟨k.val, h⟩) else if k.val = 32 then b1 (ix2 o (0 : Fin 1)) else 0)

include hx ha hb hw

/-- The accumulator's block plus the lane sums. -/
theorem pay6_apply (v : Vec Ideal S1x64x1 .f32) (o : Fin 64) :
    Gen.k0_pay6 x0 a b w v (ix3 (0 : Fin 1) o (0 : Fin 1))
      = v (ix3 (0 : Fin 1) o (0 : Fin 1)) + Cert.Spec.rowSum x w0 b0 w1 b1 n o := by
  unfold Gen.k0_pay6
  refine (shapeCast_ab_1ab_apply _ _ (0 : Fin 1) o (0 : Fin 1)).trans ?_
  rw [addf_apply, pay2_apply x w0 b0 w1 b1 n x0 a b w hx ha hb hw o]
  exact congrArg (· + _) (shapeCast_1ab_ab_apply _ _ o (0 : Fin 1))

/-- The accumulator's block plus the lane sums of squares. -/
theorem pay7_apply (v : Vec Ideal S1x64x1 .f32) (o : Fin 64) :
    Gen.k0_pay7 x0 a b w v (ix3 (0 : Fin 1) o (0 : Fin 1))
      = v (ix3 (0 : Fin 1) o (0 : Fin 1)) + Cert.Spec.rowSq x w0 b0 w1 b1 n o := by
  unfold Gen.k0_pay7
  refine (shapeCast_ab_1ab_apply _ _ (0 : Fin 1) o (0 : Fin 1)).trans ?_
  rw [addf_apply, pay3_apply x w0 b0 w1 b1 n x0 a b w hx ha hb hw o]
  exact congrArg (· + _) (shapeCast_1ab_ab_apply _ _ o (0 : Fin 1))

end Cert.KernelIdeal.Hand

end
-- ==== Proof.LibScatterSet.lean ====
/-
  A scatter whose body returns the update ("set"), read at one index of its result.

  The scatter is a left fold over the update's indices in row-major order: each step overwrites the result at the
  operand index its update index lands at, and does nothing when that index falls outside the operand. Reading the fold
  at a fixed operand index i': a step whose update index does not land at i' leaves the value there alone, a step whose
  update index lands at i' replaces it by the update's element. So when no update index lands at i' the result holds the
  operand's element, and when exactly one update index j lands at i' the result holds the update's element at j — the
  steps after j's do not touch i'. Nothing here depends on the shapes or on the element type.
-/
import Idealize.ShloMosaic.PureOps

namespace Cert.LibScatterSet

open Idealize.ShloMosaic

variable {s si u : Shape} {α : Type} {w : Nat}

/-- One step of the fold: the update's element at update index `j` written over `r` at the operand index `j` lands
    at, or `r` unchanged when `j` lands outside the operand. -/
def put (d : ScatterDims s si u) (idx : IVec si w) (upd : u.Idx → α) (r : s.Idx → α) (j : u.Idx) : s.Idx → α :=
  match d.resultIdx? j idx with
  | some i => fun i' => if i' = i then upd j else r i'
  | none => r

/-- A step whose update index lands at `i'` leaves the update's element there. -/
theorem put_of_eq (d : ScatterDims s si u) (idx : IVec si w) (upd : u.Idx → α) (r : s.Idx → α) {j : u.Idx} {i' : s.Idx}
    (h : d.resultIdx? j idx = some i') : put d idx upd r j i' = upd j := by
  unfold put
  rw [h]
  exact if_pos rfl

/-- A step whose update index does not land at `i'` leaves what was there. -/
theorem put_of_ne (d : ScatterDims s si u) (idx : IVec si w) (upd : u.Idx → α) (r : s.Idx → α) {j : u.Idx} {i' : s.Idx}
    (h : d.resultIdx? j idx ≠ some i') : put d idx upd r j i' = r i' := by
  unfold put
  cases hres : d.resultIdx? j idx with
  | none => rfl
  | some i =>
    have hne : i' ≠ i := fun e => h (by rw [hres, e])
    exact if_neg hne

/-- The scatter whose body returns the update is the fold of `put` over the update's indices in row-major order. -/
theorem scatter_eq_foldl (d : ScatterDims s si u) (x : s.Idx → α) (idx : IVec si w) (upd : u.Idx → α) :
    Host.scatter d (fun _ b => b) x idx upd = ((List.finRange u.numel).map u.rowMajor.symm).foldl (put d idx upd) x := by
  rw [List.foldl_map]
  rfl

/-- Steps none of whose update indices lands at `i'` leave what was there. -/
theorem foldl_put_miss (d : ScatterDims s si u) (idx : IVec si w) (upd : u.Idx → α) (l : List u.Idx) (x : s.Idx → α)
    (i' : s.Idx) (h : ∀ j ∈ l, d.resultIdx? j idx ≠ some i') : l.foldl (put d idx upd) x i' = x i' := by
  induction l generalizing x with
  | nil => rfl
  | cons a l ih =>
    rw [List.foldl_cons, ih _ (fun j hj => h j (List.mem_cons_of_mem _ hj)), put_of_ne d idx upd x (h a List.mem_cons_self)]

/-- Steps among which `j` occurs, lands at `i'`, and is the only update index that does, leave the update's element
    at `j`: the steps before it are overwritten, the steps after it do not touch `i'`. -/
theorem foldl_put_hit (d : ScatterDims s si u) (idx : IVec si w) (upd : u.Idx → α) (l : List u.Idx) (x : s.Idx → α)
    {j : u.Idx} {i' : s.Idx} (hj : d.resultIdx? j idx = some i')
    (H : ∀ j' ∈ l, d.resultIdx? j' idx = some i' → j' = j) (hjl : j ∈ l) :
    l.foldl (put d idx upd) x i' = upd j := by
  induction l generalizing x with
  | nil => exact absurd hjl List.not_mem_nil
  | cons a l ih =>
    rw [List.foldl_cons]
    by_cases hjl' : j ∈ l
    · exact ih _ (fun j' hj' => H j' (List.mem_cons_of_mem _ hj')) hjl'
    · have ha : a = j := by
        rcases List.mem_cons.mp hjl with e | e
        · exact e.symm
        · exact absurd e hjl'
      subst ha
      rw [foldl_put_miss d idx upd l _ i' (fun j' hj' e => hjl' (H j' (List.mem_cons_of_mem _ hj') e ▸ hj')),
        put_of_eq d idx upd x hj]

/-- THE SCATTER READ WHERE ONE UPDATE LANDS: if update index `j` lands at operand index `i'` and no other update index
    does, the result at `i'` is the update's element at `j`. -/
theorem scatter_set_hit (d : ScatterDims s si u) (x : s.Idx → α) (idx : IVec si w) (upd : u.Idx → α) {j : u.Idx} {i' : s.Idx}
    (hj : d.resultIdx? j idx = some i') (huniq : ∀ j', d.resultIdx? j' idx = some i' → j' = j) :
    Host.scatter d (fun _ b => b) x idx upd i' = upd j := by
  rw [scatter_eq_foldl]
  exact foldl_put_hit d idx upd _ x hj (fun j' _ e => huniq j' e)
    (List.mem_map.mpr ⟨u.rowMajor j, List.mem_finRange _, u.rowMajor.symm_apply_apply j⟩)

/-- The same under injectivity of the landing map on the update indices that land inside the operand. -/
theorem scatter_set_hit_of_injective (d : ScatterDims s si u) (x : s.Idx → α) (idx : IVec si w) (upd : u.Idx → α)
    (hinj : ∀ (j j' : u.Idx) (i : s.Idx), d.resultIdx? j idx = some i → d.resultIdx? j' idx = some i → j' = j)
    {j : u.Idx} {i' : s.Idx} (hj : d.resultIdx? j idx = some i') :
    Host.scatter d (fun _ b => b) x idx upd i' = upd j :=
  scatter_set_hit d x idx upd hj (fun j' e => hinj j j' i' hj e)

/-- THE SCATTER READ WHERE NO UPDATE LANDS: if no update index lands at operand index `i'`, the result at `i'` is the
    operand's element. -/
theorem scatter_set_miss (d : ScatterDims s si u) (x : s.Idx → α) (idx : IVec si w) (upd : u.Idx → α) {i' : s.Idx}
    (hmiss : ∀ j, d.resultIdx? j idx ≠ some i') :
    Host.scatter d (fun _ b => b) x idx upd i' = x i' := by
  rw [scatter_eq_foldl]
  exact foldl_put_miss d idx upd _ x i' (fun j _ => hmiss j)

end Cert.LibScatterSet
-- ==== Proof.KPrefixLand.lean ====
/-
  Where a host scatter's update index lands, as an equation on coordinates.

  The scatter's landing map sends an update index j to the operand index whose coordinate on every axis is the
  start (read off the scatter indices, 0 on an axis the scatter does not name) plus j's window coordinate there,
  provided that lies inside the operand. So "j lands at i" is the statement that on every axis start plus window
  coordinate equals i's coordinate; being inside the operand is then automatic, since i is an operand index.
-/
import Idealize.ShloMosaic.PureOps

noncomputable section

namespace Cert.KernelIdeal.Hand

open Idealize.ShloMosaic

/-- Update index `j` lands at operand index `i` exactly when, on every axis, the start plus `j`'s window
    coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have := Option.some.inj h
      subst this
      have := hh a
      simp only []
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a
    apply Fin.ext
    have := h a
    simp only []
    omega

end Cert.KernelIdeal.Hand

end
-- ==== Proof.KPrefixW0.lean ====
import proofs.«145259_g2000300775167955_pallasbulk_386_8_alg».proof.Proof.Gen.KernelIdeal.Launch
import proofs.«145259_g2000300775167955_pallasbulk_386_8_alg».proof.Proof.LibScatterSet
import proofs.«145259_g2000300775167955_pallasbulk_386_8_alg».proof.Proof.KPrefixLand
import Idealize.ShloMosaic.Lib.StableHlo.Run
import Idealize.ShloMosaic.Lib.ValueIdx
import Idealize.ShloMosaic.PureOps.Ideal.Laws

noncomputable section

namespace Cert.KernelIdeal.Hand

open Idealize.ShloMosaic Idealize.ShloMosaic.StableHlo Idealize.ShloMosaic.ValueIdx Cert.KernelIdeal Cert.LibScatterSet

/-- The 32×4 block written at row start 0 of a 40×4 operand: update index `j` lands at `i` exactly when their
    coordinates agree. -/
theorem land_rows4 (idx : IVec S1 32) (h0 : idx (ix1 0) = 0#32) (j : S32x4.Idx) (i : S40x4.Idx) :
    scatter_S40x4_S1_S32x4_01_n_0_0.resultIdx? j idx = some i ↔ (j 0).val = (i 0).val ∧ (j 1).val = (i 1).val := by
  rw [resultIdx?_eq_some_iff]
  have s0 : scatter_S40x4_S1_S32x4_01_n_0_0.start j idx 0 = 0 := by
    unfold ScatterDims.start
    rw [dif_pos (by decide)]
    have e : scatter_S40x4_S1_S32x4_01_n_0_0.siIdx j ⟨List.idxOf (0 : Fin S40x4.rank) scatter_S40x4_S1_S32x4_01_n_0_0.scatterDimsToOperandDims, List.idxOf_lt_length_iff.2 (by decide)⟩ = ix1 0 := by
      funext a; match a with | ⟨0, _⟩ => rfl
    rw [e, h0]; rfl
  have s1 : scatter_S40x4_S1_S32x4_01_n_0_0.start j idx 1 = 0 := rfl
  have w0 : scatter_S40x4_S1_S32x4_01_n_0_0.window j 0 = (j 0).val := rfl
  have w1 : scatter_S40x4_S1_S32x4_01_n_0_0.window j 1 = (j 1).val := rfl
  constructor
  · intro h
    have a0 := h 0
    have a1 := h 1
    rw [s0, w0] at a0
    rw [s1, w1] at a1
    omega
  · intro h a
    match a with
    | ⟨0, _⟩ => show scatter_S40x4_S1_S32x4_01_n_0_0.start j idx 0 + (scatter_S40x4_S1_S32x4_01_n_0_0.window j 0 : Int) = ((i 0).val : Int); rw [s0, w0]; omega
    | ⟨1, _⟩ => show scatter_S40x4_S1_S32x4_01_n_0_0.start j idx 1 + (scatter_S40x4_S1_S32x4_01_n_0_0.window j 1 : Int) = ((i 1).val : Int); rw [s1, w1]; omega

/-- The augmented first-layer weights: rows 0–31 are the weights, rows 32–39 are zero. -/
theorem w0a_apply (V : Valuation τ sig (Elt Ideal)) (k : Fin 40) (c : Fin 4) :
    (StableHlo.after (Gen.hostOps0 (F := Ideal)) V (Proc.devRef .tc main_v3) : S40x4.Idx → EReal) (ix2 k c)
      = if h : k.val < 32 then (V (Proc.devRef .tc main_arg1) : S32x4.Idx → EReal) (ix2 ⟨k.val, h⟩ c) else (0 : EReal) := by
  have e : (StableHlo.after (Gen.hostOps0 (F := Ideal)) V (Proc.devRef .tc main_v3) : S40x4.Idx → EReal)
      = truncf (F := Ideal) .bf16 (Host.scatter scatter_S40x4_S1_S32x4_01_n_0_0 (fun _ b => b)
          (broadcastInDim S40x4 ![] Gen.bcast_S_S40x4 (constant (F := Ideal) S_ .f32 0x00000000#32))
          (broadcastInDim S1 ![] Gen.bcast_S_S1 (constantI S_ 32 0#32))
          (V (Proc.devRef .tc main_arg1) : S32x4.Idx → EReal)) Gen.bitsLt_bf16_f32 := by
    dsimp only [Gen.hostOps0]; after_results
  rw [e, truncf_apply]
  have hidx : (broadcastInDim S1 ![] Gen.bcast_S_S1 (constantI S_ 32 0#32) : IVec S1 32) (ix1 0) = 0#32 := rfl
  by_cases h : k.val < 32
  · rw [dif_pos h]
    refine scatter_set_hit _ _ _ _ (j := ix2 ⟨k.val, h⟩ c) ((land_rows4 _ hidx _ _).2 ⟨rfl, rfl⟩) ?_
    intro j' hj'
    have := (land_rows4 _ hidx _ _).1 hj'
    rw [eq_ix2 j']
    congr 1
    · exact Fin.ext this.1
    · exact Fin.ext this.2
  · rw [dif_neg h, scatter_set_miss]
    · exact Ideal.ofBits_zero_f32
    · intro j hj
      have := (land_rows4 _ hidx _ _).1 hj
      have hlt : (j 0).val < 32 := (j 0).isLt
      have : (j 0).val = k.val := this.1
      omega

end Cert.KernelIdeal.Hand
end
-- ==== Proof.KPrefixB0.lean ====
import proofs.«145259_g2000300775167955_pallasbulk_386_8_alg».proof.Proof.Gen.KernelIdeal.Launch
import proofs.«145259_g2000300775167955_pallasbulk_386_8_alg».proof.Proof.LibScatterSet
import proofs.«145259_g2000300775167955_pallasbulk_386_8_alg».proof.Proof.KPrefixLand
import Idealize.ShloMosaic.Lib.StableHlo.Run
import Idealize.ShloMosaic.Lib.ValueIdx
import Idealize.ShloMosaic.PureOps.Ideal.Laws

noncomputable section

namespace Cert.KernelIdeal.Hand

open Idealize.ShloMosaic Idealize.ShloMosaic.StableHlo Idealize.ShloMosaic.ValueIdx Cert.KernelIdeal Cert.LibScatterSet

/-- The 32×1 block written at row start 0 of a 40×1 operand: update index `j` lands at `i` exactly when their
    coordinates agree. -/
theorem land_rows1 (idx : IVec S1 32) (h0 : idx (ix1 0) = 0#32) (j : S32x1.Idx) (i : S40x1.Idx) :
    scatter_S40x1_S1_S32x1_01_n_0_0.resultIdx? j idx = some i ↔ (j 0).val = (i 0).val ∧ (j 1).val = (i 1).val := by
  rw [resultIdx?_eq_some_iff]
  have s0 : scatter_S40x1_S1_S32x1_01_n_0_0.start j idx 0 = 0 := by
    unfold ScatterDims.start
    rw [dif_pos (by decide)]
    have e : scatter_S40x1_S1_S32x1_01_n_0_0.siIdx j ⟨List.idxOf (0 : Fin S40x1.rank) scatter_S40x1_S1_S32x1_01_n_0_0.scatterDimsToOperandDims, List.idxOf_lt_length_iff.2 (by decide)⟩ = ix1 0 := by
      funext a; match a with | ⟨0, _⟩ => rfl
    rw [e, h0]; rfl
  have s1 : scatter_S40x1_S1_S32x1_01_n_0_0.start j idx 1 = 0 := rfl
  have w0 : scatter_S40x1_S1_S32x1_01_n_0_0.window j 0 = (j 0).val := rfl
  have w1 : scatter_S40x1_S1_S32x1_01_n_0_0.window j 1 = (j 1).val := rfl
  constructor
  · intro h
    have a0 := h 0
    have a1 := h 1
    rw [s0, w0] at a0
    rw [s1, w1] at a1
    omega
  · intro h a
    match a with
    | ⟨0, _⟩ => show scatter_S40x1_S1_S32x1_01_n_0_0.start j idx 0 + (scatter_S40x1_S1_S32x1_01_n_0_0.window j 0 : Int) = ((i 0).val : Int); rw [s0, w0]; omega
    | ⟨1, _⟩ => show scatter_S40x1_S1_S32x1_01_n_0_0.start j idx 1 + (scatter_S40x1_S1_S32x1_01_n_0_0.window j 1 : Int) = ((i 1).val : Int); rw [s1, w1]; omega

/-- One scalar written at the index pair read off the scatter indices: it lands at `i` exactly when `i`'s
    coordinates are that pair. -/
theorem land_point (idx : IVec S2 32) (r c : Nat) (h0 : (idx (ix1 0)).toInt = (r : Int)) (h1 : (idx (ix1 1)).toInt = (c : Int))
    (j : S_.Idx) (i : S40x1.Idx) :
    scatter_S40x1_S2_S__n_01_01_0.resultIdx? j idx = some i ↔ r = (i 0).val ∧ c = (i 1).val := by
  rw [resultIdx?_eq_some_iff]
  have s0 : scatter_S40x1_S2_S__n_01_01_0.start j idx 0 = r := by
    unfold ScatterDims.start
    rw [dif_pos (by decide)]
    have e : scatter_S40x1_S2_S__n_01_01_0.siIdx j ⟨List.idxOf (0 : Fin S40x1.rank) scatter_S40x1_S2_S__n_01_01_0.scatterDimsToOperandDims, List.idxOf_lt_length_iff.2 (by decide)⟩ = ix1 0 := by
      funext a; match a with | ⟨0, _⟩ => rfl
    rw [e, h0]
  have s1 : scatter_S40x1_S2_S__n_01_01_0.start j idx 1 = c := by
    unfold ScatterDims.start
    rw [dif_pos (by decide)]
    have e : scatter_S40x1_S2_S__n_01_01_0.siIdx j ⟨List.idxOf (1 : Fin S40x1.rank) scatter_S40x1_S2_S__n_01_01_0.scatterDimsToOperandDims, List.idxOf_lt_length_iff.2 (by decide)⟩ = ix1 1 := by
      funext a; match a with | ⟨0, _⟩ => rfl
    rw [e, h1]
  have w0 : scatter_S40x1_S2_S__n_01_01_0.window j 0 = 0 := rfl
  have w1 : scatter_S40x1_S2_S__n_01_01_0.window j 1 = 0 := rfl
  constructor
  · intro h
    have a0 := h 0
    have a1 := h 1
    rw [s0, w0] at a0
    rw [s1, w1] at a1
    omega
  · intro h a
    match a with
    | ⟨0, _⟩ => show scatter_S40x1_S2_S__n_01_01_0.start j idx 0 + (scatter_S40x1_S2_S__n_01_01_0.window j 0 : Int) = ((i 0).val : Int); rw [s0, w0]; omega
    | ⟨1, _⟩ => show scatter_S40x1_S2_S__n_01_01_0.start j idx 1 + (scatter_S40x1_S2_S__n_01_01_0.window j 1 : Int) = ((i 1).val : Int); rw [s1, w1]; omega

/-- The word 0x3F800000 is the real number one. -/
theorem ofBits_one_f32 : Ideal.ofBits .f32 0x3F800000#32 = 1 := by
  simp [Ideal.ofBits, Ideal.ieee, -EReal.coe_mul]; norm_num

/-- The augmented first-layer bias: rows 0–31 are the bias, row 32 is one, rows 33–39 are zero. -/
theorem b0a_apply (V : Valuation τ sig (Elt Ideal)) (k : Fin 40) :
    (StableHlo.after (Gen.hostOps0 (F := Ideal)) V (Proc.devRef .tc main_v10) : S40x1.Idx → EReal) (ix2 k (0 : Fin 1))
      = if h : k.val < 32 then (V (Proc.devRef .tc main_arg2) : S32x1.Idx → EReal) (ix2 ⟨k.val, h⟩ (0 : Fin 1))
        else if k.val = 32 then (1 : EReal) else (0 : EReal) := by
  have e : (StableHlo.after (Gen.hostOps0 (F := Ideal)) V (Proc.devRef .tc main_v10) : S40x1.Idx → EReal)
      = Host.scatter scatter_S40x1_S2_S__n_01_01_0 (fun _ b => b)
          (Host.scatter scatter_S40x1_S1_S32x1_01_n_0_0 (fun _ b => b)
            (broadcastInDim S40x1 ![] Gen.bcast_S_S40x1 (constant (F := Ideal) S_ .f32 0x00000000#32))
            (broadcastInDim S1 ![] Gen.bcast_S_S1 (constantI S_ 32 0#32))
            (V (Proc.devRef .tc main_arg2) : S32x1.Idx → EReal))
          (concatenate S2 0 [⟨S1, broadcastInDim S1 ![] Gen.bcast_S_S1 (constantI S_ 32 32#32)⟩,
            ⟨S1, broadcastInDim S1 ![] Gen.bcast_S_S1 (constantI S_ 32 0#32)⟩] Gen.concatenates_S1_S1_S2_d0)
          (constant (F := Ideal) S_ .f32 0x3F800000#32) := by
    dsimp only [Gen.hostOps0]; after_results
  rw [e]
  have hidx : (broadcastInDim S1 ![] Gen.bcast_S_S1 (constantI S_ 32 0#32) : IVec S1 32) (ix1 0) = 0#32 := rfl
  have hp0 : ((concatenate S2 0 [⟨S1, broadcastInDim S1 ![] Gen.bcast_S_S1 (constantI S_ 32 32#32)⟩,
            ⟨S1, broadcastInDim S1 ![] Gen.bcast_S_S1 (constantI S_ 32 0#32)⟩] Gen.concatenates_S1_S1_S2_d0 : IVec S2 32) (ix1 0)).toInt = ((32 : Nat) : Int) := by
    rfl
  have hp1 : ((concatenate S2 0 [⟨S1, broadcastInDim S1 ![] Gen.bcast_S_S1 (constantI S_ 32 32#32)⟩,
            ⟨S1, broadcastInDim S1 ![] Gen.bcast_S_S1 (constantI S_ 32 0#32)⟩] Gen.concatenates_S1_S1_S2_d0 : IVec S2 32) (ix1 1)).toInt = ((0 : Nat) : Int) := by
    rfl
  by_cases h32 : k.val = 32
  · have hk : ¬ k.val < 32 := by omega
    rw [dif_neg hk, if_pos h32]
    refine (scatter_set_hit _ _ _ _ (j := ix0) ((land_point _ 32 0 hp0 hp1 _ _).2 ⟨h32.symm, rfl⟩) ?_).trans ofBits_one_f32
    intro j' _
    exact eq_ix0 j'
  · rw [scatter_set_miss]
    · by_cases h : k.val < 32
      · rw [dif_pos h]
        refine scatter_set_hit _ _ _ _ (j := ix2 ⟨k.val, h⟩ (0 : Fin 1)) ((land_rows1 _ hidx _ _).2 ⟨rfl, rfl⟩) ?_
        intro j' hj'
        have := (land_rows1 _ hidx _ _).1 hj'
        rw [eq_ix2 j']
        congr 1
        · exact Fin.ext this.1
        · exact Fin.ext this.2
      · rw [dif_neg h, if_neg h32, scatter_set_miss]
        · exact Ideal.ofBits_zero_f32
        · intro j hj
          have := (land_rows1 _ hidx _ _).1 hj
          have hlt : (j 0).val < 32 := (j 0).isLt
          have : (j 0).val = k.val := this.1
          omega
    · intro j hj
      have := (land_point _ 32 0 hp0 hp1 _ _).1 hj
      have : 32 = k.val := this.1
      omega

end Cert.KernelIdeal.Hand
end
-- ==== Proof.KPrefixW1.lean ====
import proofs.«145259_g2000300775167955_pallasbulk_386_8_alg».proof.Proof.Gen.KernelIdeal.Launch
import proofs.«145259_g2000300775167955_pallasbulk_386_8_alg».proof.Proof.LibScatterSet
import proofs.«145259_g2000300775167955_pallasbulk_386_8_alg».proof.Proof.KPrefixLand
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.StableHlo Idealize.ShloMosaic.ValueIdx Cert.KernelIdeal Cert.LibScatterSet

/-- The 64×32 block written at column start 0 of a 64×40 operand: update index `j` lands at `i` exactly when their
    coordinates agree. -/
theorem land_cols (idx : IVec S1 32) (h0 : idx (ix1 0) = 0#32) (j : S64x32.Idx) (i : S64x40.Idx) :
    scatter_S64x40_S1_S64x32_01_n_1_0.resultIdx? j idx = some i ↔ (j 0).val = (i 0).val ∧ (j 1).val = (i 1).val := by
  rw [resultIdx?_eq_some_iff]
  have s0 : scatter_S64x40_S1_S64x32_01_n_1_0.start j idx 0 = 0 := rfl
  have s1 : scatter_S64x40_S1_S64x32_01_n_1_0.start j idx 1 = 0 := by
    unfold ScatterDims.start
    rw [dif_pos (by decide)]
    have e : scatter_S64x40_S1_S64x32_01_n_1_0.siIdx j ⟨List.idxOf (1 : Fin S64x40.rank) scatter_S64x40_S1_S64x32_01_n_1_0.scatterDimsToOperandDims, List.idxOf_lt_length_iff.2 (by decide)⟩ = ix1 0 := by
      funext a; match a with | ⟨0, _⟩ => rfl
    rw [e, h0]; rfl
  have w0 : scatter_S64x40_S1_S64x32_01_n_1_0.window j 0 = (j 0).val := rfl
  have w1 : scatter_S64x40_S1_S64x32_01_n_1_0.window j 1 = (j 1).val := rfl
  constructor
  · intro h
    have a0 := h 0
    have a1 := h 1
    rw [s0, w0] at a0
    rw [s1, w1] at a1
    omega
  · intro h a
    match a with
    | ⟨0, _⟩ => show scatter_S64x40_S1_S64x32_01_n_1_0.start j idx 0 + (scatter_S64x40_S1_S64x32_01_n_1_0.window j 0 : Int) = ((i 0).val : Int); rw [s0, w0]; omega
    | ⟨1, _⟩ => show scatter_S64x40_S1_S64x32_01_n_1_0.start j idx 1 + (scatter_S64x40_S1_S64x32_01_n_1_0.window j 1 : Int) = ((i 1).val : Int); rw [s1, w1]; omega

/-- A 64-vector written as one column, at the column read off the scatter indices, of a 64×40 operand: update index
    `j` lands at `i` exactly when `i`'s row is `j` and `i`'s column is that column. -/
theorem land_col (idx : IVec S1 32) (c : Nat) (h0 : (idx (ix1 0)).toInt = (c : Int)) (j : S64.Idx) (i : S64x40.Idx) :
    scatter_S64x40_S1_S64_0_1_1_0.resultIdx? j idx = some i ↔ (j 0).val = (i 0).val ∧ c = (i 1).val := by
  rw [resultIdx?_eq_some_iff]
  have s0 : scatter_S64x40_S1_S64_0_1_1_0.start j idx 0 = 0 := rfl
  have s1 : scatter_S64x40_S1_S64_0_1_1_0.start j idx 1 = c := by
    unfold ScatterDims.start
    rw [dif_pos (by decide)]
    have e : scatter_S64x40_S1_S64_0_1_1_0.siIdx j ⟨List.idxOf (1 : Fin S64x40.rank) scatter_S64x40_S1_S64_0_1_1_0.scatterDimsToOperandDims, List.idxOf_lt_length_iff.2 (by decide)⟩ = ix1 0 := by
      funext a; match a with | ⟨0, _⟩ => rfl
    rw [e, h0]
  have w0 : scatter_S64x40_S1_S64_0_1_1_0.window j 0 = (j 0).val := rfl
  have w1 : scatter_S64x40_S1_S64_0_1_1_0.window j 1 = 0 := rfl
  constructor
  · intro h
    have a0 := h 0
    have a1 := h 1
    rw [s0, w0] at a0
    rw [s1, w1] at a1
    omega
  · intro h a
    match a with
    | ⟨0, _⟩ => show scatter_S64x40_S1_S64_0_1_1_0.start j idx 0 + (scatter_S64x40_S1_S64_0_1_1_0.window j 0 : Int) = ((i 0).val : Int); rw [s0, w0]; omega
    | ⟨1, _⟩ => show scatter_S64x40_S1_S64_0_1_1_0.start j idx 1 + (scatter_S64x40_S1_S64_0_1_1_0.window j 1 : Int) = ((i 1).val : Int); rw [s1, w1]; omega

/-- The augmented second-layer weights: columns 0–31 are the weights, column 32 is the second-layer bias,
    columns 33–39 are zero. -/
theorem w1a_apply (V : Valuation τ sig (Elt Ideal)) (o : Fin 64) (k : Fin 40) :
    (StableHlo.after (Gen.hostOps0 (F := Ideal)) V (Proc.devRef .tc main_v17) : S64x40.Idx → EReal) (ix2 o k)
      = if h : k.val < 32 then (V (Proc.devRef .tc main_arg3) : S64x32.Idx → EReal) (ix2 o ⟨k.val, h⟩)
        else if k.val = 32 then (V (Proc.devRef .tc main_arg4) : S64x1.Idx → EReal) (ix2 o (0 : Fin 1)) else (0 : EReal) := by
  have e : (StableHlo.after (Gen.hostOps0 (F := Ideal)) V (Proc.devRef .tc main_v17) : S64x40.Idx → EReal)
      = truncf (F := Ideal) .bf16 (Host.scatter scatter_S64x40_S1_S64_0_1_1_0 (fun _ b => b)
          (Host.scatter scatter_S64x40_S1_S64x32_01_n_1_0 (fun _ b => b)
            (broadcastInDim S64x40 ![] Gen.bcast_S_S64x40 (constant (F := Ideal) S_ .f32 0x00000000#32))
            (broadcastInDim S1 ![] Gen.bcast_S_S1 (constantI S_ 32 0#32))
            (V (Proc.devRef .tc main_arg3) : S64x32.Idx → EReal))
          (broadcastInDim S1 ![] Gen.bcast_S_S1 (constantI S_ 32 32#32))
          (shapeCast S64 (V (Proc.devRef .tc main_arg4) : S64x1.Idx → EReal) Gen.shapeCasts_S64x1_S64)) Gen.bitsLt_bf16_f32 := by
    dsimp only [Gen.hostOps0]; after_results; try rfl
  rw [e, truncf_apply]
  have hidx : (broadcastInDim S1 ![] Gen.bcast_S_S1 (constantI S_ 32 0#32) : IVec S1 32) (ix1 0) = 0#32 := rfl
  have hc : ((broadcastInDim S1 ![] Gen.bcast_S_S1 (constantI S_ 32 32#32) : IVec S1 32) (ix1 0)).toInt = ((32 : Nat) : Int) := rfl
  by_cases h32 : k.val = 32
  · have hk : ¬ k.val < 32 := by omega
    rw [dif_neg hk, if_pos h32]
    refine (scatter_set_hit _ _ _ _ (j := ix1 o) ((land_col _ 32 hc _ _).2 ⟨rfl, h32.symm⟩) ?_).trans ?_
    · intro j' hj'
      have := (land_col _ 32 hc _ _).1 hj'
      rw [eq_ix1 j']
      congr 1
      exact Fin.ext this.1
    · refine Idealize.ShloMosaic.shapeCast_apply _ _ _ _ ?_
      have e2 := Shape.rowMajor_val_two (d := ![64, 1]) (ix2 o (0 : Fin 1))
      have e1 := Shape.rowMajor_val_one (d := ![64]) (ix1 o)
      have e2' : ((⟨2, ![64, 1]⟩ : Shape).rowMajor (ix2 o (0 : Fin 1))).val = o.val := by
        rw [e2]
        show o.val * 1 + 0 = o.val
        omega
      exact e2'.trans e1.symm
  · rw [scatter_set_miss]
    · by_cases h : k.val < 32
      · rw [dif_pos h]
        refine scatter_set_hit _ _ _ _ (j := ix2 o ⟨k.val, h⟩) ((land_cols _ hidx _ _).2 ⟨rfl, rfl⟩) ?_
        intro j' hj'
        have := (land_cols _ hidx _ _).1 hj'
        rw [eq_ix2 j']
        congr 1
        · exact Fin.ext this.1
        · exact Fin.ext this.2
      · rw [dif_neg h, if_neg h32, scatter_set_miss]
        · exact Ideal.ofBits_zero_f32
        · intro j hj
          have := (land_cols _ hidx _ _).1 hj
          have hlt : (j 1).val < 32 := (j 1).isLt
          have : (j 1).val = k.val := this.2
          omega
    · intro j hj
      have := (land_col _ 32 hc _ _).1 hj
      have : 32 = k.val := this.2
      omega

end Cert.KernelIdeal.Hand
end
-- ==== Proof.KAcc.lean ====
/-
  A running sum that restarts every 64 steps. If `a t = f t` whenever 64 divides `t` and `a t = a (t − 1) + f t`
  otherwise, then `a t` is the sum of `f` over the steps from the last multiple of 64 up to `t`; so after the two
  stretches of 64 steps the two finished sums add up to the sum of `f` over all 128 steps.
-/
import Mathlib

open scoped BigOperators

namespace Cert.Acc

variable {M : Type*} [AddCommMonoid M]

theorem acc_inv (N : ℕ) (f a : ℕ → M)
    (h0 : ∀ t, t < N → t % 64 = 0 → a t = f t) (hs : ∀ t, t < N → ¬ t % 64 = 0 → a t = a (t - 1) + f t) :
    ∀ t, t < N → a t = ∑ j ∈ Finset.range (t % 64 + 1), f (64 * (t / 64) + j) := by
  intro t
  induction t with
  | zero =>
    intro ht
    rw [h0 0 ht rfl]
    simp
  | succ n ih =>
    intro ht
    by_cases hm : (n + 1) % 64 = 0
    · rw [h0 _ ht hm, hm, Finset.sum_range_one]
      congr 1
      omega
    · rw [hs _ ht hm, Nat.add_sub_cancel, ih (by omega)]
      have h1 : (n + 1) % 64 = n % 64 + 1 := by omega
      have h2 : (n + 1) / 64 = n / 64 := by omega
      rw [h1, h2, Finset.sum_range_succ _ (n % 64 + 1)]
      congr 2
      omega

/-- The two finished stretches add up to the whole. -/
theorem two_halves (f : ℕ → M) :
    (∑ j ∈ Finset.range 64, f (64 * 0 + j)) + (∑ j ∈ Finset.range 64, f (64 * 1 + j)) = ∑ n ∈ Finset.range 128, f n := by
  rw [show (128 : ℕ) = 64 + 64 from rfl, Finset.sum_range_add]
  simp

end Cert.Acc
-- ==== Proof.KVal0.lean ====
/-
  What the statistics pass leaves in its two output arrays, at the ideal values. Point t of the grid handles batch
  element t; its own sums are the per-channel sum and sum of squares of the rectified second layer over that batch
  element's points, in the specification's form, because the augmented parameters make the second matrix product add
  the bias by itself. The running blocks restart at every 64th point, so the block written back after point 64q + 63
  is the sum over batch elements 64q … 64q + 63, and the two rows of each output array are those two half-batch sums.
-/
import proofs.«145259_g2000300775167955_pallasbulk_386_8_alg».proof.Proof.KRun
import proofs.«145259_g2000300775167955_pallasbulk_386_8_alg».proof.Proof.KValBlocks
import proofs.«145259_g2000300775167955_pallasbulk_386_8_alg».proof.Proof.KPayAccum
import proofs.«145259_g2000300775167955_pallasbulk_386_8_alg».proof.Proof.KPrefixW0
import proofs.«145259_g2000300775167955_pallasbulk_386_8_alg».proof.Proof.KPrefixB0
import proofs.«145259_g2000300775167955_pallasbulk_386_8_alg».proof.Proof.KPrefixW1
import proofs.«145259_g2000300775167955_pallasbulk_386_8_alg».proof.Proof.KAcc

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The arguments, as the specification's arrays -/

abbrev ax : Cert.Spec.SX.Idx → EReal := m ((c : Thread nD τ).loc main_arg0)
abbrev aw0 : Cert.Spec.SW0.Idx → EReal := m ((c : Thread nD τ).loc main_arg1)
abbrev ab0 : Cert.Spec.SB0.Idx → EReal := m ((c : Thread nD τ).loc main_arg2)
abbrev aw1 : Cert.Spec.SW1.Idx → EReal := m ((c : Thread nD τ).loc main_arg3)
abbrev ab1 : Cert.Spec.SC.Idx → EReal := m ((c : Thread nD τ).loc main_arg4)
abbrev agamma : Cert.Spec.SC.Idx → EReal := m ((c : Thread nD τ).loc main_arg5)
abbrev abeta : Cert.Spec.SC.Idx → EReal := m ((c : Thread nD τ).loc main_arg6)

/-- The batch is untouched by the first host stretch. -/
theorem V1_main_arg0 : V1 m ρ c main_arg0 = m ((c : Thread nD τ).loc main_arg0) :=
  (StableHlo.after_of_writes_sub hostOps0 _ hostOps0_writes (r := main_arg0) (by decide)).trans rfl

/-! ## The statistics pass's input blocks at a point, in the form the payload lemmas take -/

theorem hx0 (t : Fin cfg0.N) : ∀ (ch : Fin 4) (l : Fin 16384),
    (iblk0 (V1 m ρ) c 0 t : S1x4x16384.Idx → EReal) (ix3 (0 : Fin 1) ch l) = ax m c (ix3 (⟨t.val, lt0 t⟩ : Fin 128) ch l) := fun ch l => by
  rw [iblk0_0_apply (V1 m ρ) c t ch l, V1_main_arg0]
theorem ha0 (t : Fin cfg0.N) : ∀ (k : Fin 40) (ch : Fin 4),
    (iblk0 (V1 m ρ) c 1 t : S40x4.Idx → EReal) (ix2 k ch) = if h : k.val < 32 then aw0 m c (ix2 ⟨k.val, h⟩ ch) else 0 := fun k ch => by
  rw [iblk0_1_eq (V1 m ρ) c t]; exact w0a_apply (W0 m ρ c) k ch
theorem hb0 (t : Fin cfg0.N) : ∀ (k : Fin 40),
    (iblk0 (V1 m ρ) c 2 t : S40x1.Idx → EReal) (ix2 k (0 : Fin 1)) = if h : k.val < 32 then ab0 m c (ix2 ⟨k.val, h⟩ 0) else if k.val = 32 then 1 else 0 := fun k => by
  rw [iblk0_2_eq (V1 m ρ) c t]; exact b0a_apply (W0 m ρ c) k
theorem hw0 (t : Fin cfg0.N) : ∀ (o : Fin 64) (k : Fin 40),
    (iblk0 (V1 m ρ) c 3 t : S64x40.Idx → EReal) (ix2 o k) = if h : k.val < 32 then aw1 m c (ix2 o ⟨k.val, h⟩) else if k.val = 32 then ab1 m c (ix2 o (0 : Fin 1)) else 0 := fun o k => by
  rw [iblk0_3_eq (V1 m ρ) c t]; exact w1a_apply (W0 m ρ c) o k

/-- An index of a 1×64×1 block is determined by its middle coordinate. -/
theorem ix3_mid (y : S1x64x1.Idx) : y = ix3 (0 : Fin 1) (y 1) (0 : Fin 1) := by
  funext a
  match a with
  | ⟨0, _⟩ => exact Fin.ext (by show (y 0).val = 0; have h : (y 0).val < 1 := (y 0).isLt; omega)
  | ⟨1, _⟩ => rfl
  | ⟨2, _⟩ => exact Fin.ext (by show (y 2).val = 0; have h : (y 2).val < 1 := (y 2).isLt; omega)

/-- The output windows' index maps over the grid: the block is row t / 64. -/
theorem idx0_4 : ∀ t : Fin cfg0.N, win0_4.index t (0 : Fin 3) = t.val / 64 ∧ win0_4.index t (1 : Fin 3) = 0 ∧ win0_4.index t (2 : Fin 3) = 0 :=
  (by decide +kernel : ∀ t : Fin grid0.N, win0_4.index t (0 : Fin 3) = t.val / 64 ∧ win0_4.index t (1 : Fin 3) = 0 ∧ win0_4.index t (2 : Fin 3) = 0)
theorem idx0_5 : ∀ t : Fin cfg0.N, win0_5.index t (0 : Fin 3) = t.val / 64 ∧ win0_5.index t (1 : Fin 3) = 0 ∧ win0_5.index t (2 : Fin 3) = 0 :=
  (by decide +kernel : ∀ t : Fin grid0.N, win0_5.index t (0 : Fin 3) = t.val / 64 ∧ win0_5.index t (1 : Fin 3) = 0 ∧ win0_5.index t (2 : Fin 3) = 0)

/-! ## The sum block -/

/-- The sum of channel `o` over batch element `k`'s points (zero past the batch). -/
def fS (o : Fin 64) (k : ℕ) : EReal :=
  if h : k < 128 then Cert.Spec.rowSum (ax m c) (aw0 m c) (ab0 m c) (aw1 m c) (ab1 m c) ⟨k, h⟩ o else 0

/-- Channel `o` of the running block after point `t` (zero past the grid). -/
def afS (o : Fin 64) (t : ℕ) : EReal :=
  if h : t < cfg0.N then (outsAt0 (V1 m ρ) c t h).1 (ix3 (0 : Fin 1) o (0 : Fin 1)) else 0

/-- After point t the running block holds the sum over the points since the last multiple of 64. -/
theorem afS_inv (o : Fin 64) : ∀ t, t < 128 → afS m ρ c o t = ∑ j ∈ Finset.range (t % 64 + 1), fS m c o (64 * (t / 64) + j) := by
  refine Cert.Acc.acc_inv 128 (fS m c o) (afS m ρ c o) (fun t ht hm => ?_) (fun t ht hm => ?_)
  · have ht' : t < cfg0.N := by rw [show cfg0.N = 128 from N_0]; exact ht
    unfold afS fS
    rw [dif_pos ht', dif_pos ht, outsAt0_A (V1 m ρ) c ⟨t, ht'⟩ hm]
    dsimp only
    rw [outA_4_eq]
    exact pay4_apply (ax m c) (aw0 m c) (ab0 m c) (aw1 m c) (ab1 m c) ⟨t, ht⟩ _ _ _ _ (hx0 m ρ c ⟨t, ht'⟩) (ha0 m ρ c ⟨t, ht'⟩) (hb0 m ρ c ⟨t, ht'⟩) (hw0 m ρ c ⟨t, ht'⟩) o
  · have ht' : t < cfg0.N := by rw [show cfg0.N = 128 from N_0]; exact ht
    have ht1 : t - 1 < cfg0.N := Nat.lt_of_le_of_lt (Nat.sub_le _ _) ht'
    unfold afS fS
    rw [dif_pos ht', dif_pos ht, dif_pos ht1, outsAt0_B (V1 m ρ) c ⟨t, ht'⟩ hm]
    dsimp only
    rw [outB_4_eq]
    exact pay6_apply (ax m c) (aw0 m c) (ab0 m c) (aw1 m c) (ab1 m c) ⟨t, ht⟩ _ _ _ _ (hx0 m ρ c ⟨t, ht'⟩) (ha0 m ρ c ⟨t, ht'⟩) (hb0 m ρ c ⟨t, ht'⟩) (hw0 m ρ c ⟨t, ht'⟩) _ o

/-- What the array of the two finished blocks holds: row q is the sum over batch elements 64q … 64q + 63. -/
def G4 : S2x64x1.Idx → EReal := fun i => ∑ j ∈ Finset.range 64, fS m c (i 1) (64 * (i 0).val + j)

theorem mem_blk4 (t : Fin cfg0.N) (i : S2x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v18_0).slice (win0_4.rect t)).set ↔ _
  rw [View.set_slice_whole, Rect.mem_set_unit]
  exact Iff.rfl

/-- What a write-back point writes is its row of `G4`. -/
theorem flushed4_eq (t : Fin cfg0.N) (hf : (cfg0.win 4).flush t = true) :
    (dat0 (V1 m ρ) c).flushed 4 t = ((cfg0.win 4).blk t).view.read (Elt Ideal) (G4 m c) := by
  have h63 : t.val % 64 = 63 := (flush0_4 t).mp hf
  have hidx := idx0_4 t
  show (cfg0.win 4).cut (grid0.coords t) ((dat0 (V1 m ρ) c).after 4 t) = _
  rw [after0_4]
  funext y
  rw [View.read_apply]
  obtain ⟨o, rfl⟩ : ∃ o : Fin 64, y = ix3 (0 : Fin 1) o (0 : Fin 1) := ⟨y 1, ix3_mid y⟩
  show (outsAt0 (V1 m ρ) c t.val t.isLt).1 (ix3 (0 : Fin 1) o (0 : Fin 1)) = G4 m c (((cfg0.win 4).blk t).view.emb (ix3 (0 : Fin 1) o (0 : Fin 1)))
  have hinv := afS_inv m ρ c o t.val (lt0 t)
  unfold afS at hinv
  rw [dif_pos t.isLt] at hinv
  rw [hinv, h63]
  unfold G4
  have e1 : (((cfg0.win 4).blk t).view.emb (ix3 (0 : Fin 1) o (0 : Fin 1))) 1 = o :=
    Fin.ext (show win0_4.index t (1 : Fin 3) * 64 + 1 * o.val = o.val by rw [hidx.2.1]; omega)
  have e0 : ((((cfg0.win 4).blk t).view.emb (ix3 (0 : Fin 1) o (0 : Fin 1))) 0).val = t.val / 64 :=
    show win0_4.index t (0 : Fin 3) * 1 + 1 * 0 = t.val / 64 by rw [hidx.1]; omega
  rw [e1, e0]

/-- Every row of the array is some write-back point's block: row q is written after point 64q + 63. -/
theorem cover4 (i : S2x64x1.Idx) : ∃ t : Fin cfg0.N, (cfg0.win 4).flush t = true ∧ i ∈ ((cfg0.win 4).blk t).view.set := by
  have hi0 : (i 0).val < 2 := (i 0).isLt
  have hi1 : (i 1).val < 64 := (i 1).isLt
  have hi2 : (i 2).val < 1 := (i 2).isLt
  have hlt : 64 * (i 0).val + 63 < cfg0.N := by rw [show cfg0.N = 128 from N_0]; omega
  refine ⟨⟨64 * (i 0).val + 63, hlt⟩, (flush0_4 _).mpr (by show (64 * (i 0).val + 63) % 64 = 63; omega), ?_⟩
  rw [mem_blk4]
  have hidx := idx0_4 ⟨64 * (i 0).val + 63, hlt⟩
  intro a
  match a with
  | ⟨0, _⟩ => show win0_4.index _ (0 : Fin 3) * 1 ≤ (i 0).val ∧ (i 0).val < win0_4.index _ (0 : Fin 3) * 1 + 1; rw [hidx.1]; show (64 * (i 0).val + 63) / 64 * 1 ≤ _ ∧ _ < (64 * (i 0).val + 63) / 64 * 1 + 1; omega
  | ⟨1, _⟩ => show win0_4.index _ (1 : Fin 3) * 64 ≤ (i 1).val ∧ (i 1).val < win0_4.index _ (1 : Fin 3) * 64 + 64; rw [hidx.2.1]; omega
  | ⟨2, _⟩ => show win0_4.index _ (2 : Fin 3) * 1 ≤ (i 2).val ∧ (i 2).val < win0_4.index _ (2 : Fin 3) * 1 + 1; rw [hidx.2.2]; omega

/-- The array after the statistics pass. -/
theorem final4 : (dat0 (V1 m ρ) c).arrAt 4 cfg0.N = G4 m c :=
  (dat0 (V1 m ρ) c).arrAt_eq_of_cover 4 (G4 m c) (flushed4_eq m ρ c) cover4

/-! ## The sum-of-squares block -/

/-- The sum of squares of channel `o` over batch element `k`'s points (zero past the batch). -/
def fQ (o : Fin 64) (k : ℕ) : EReal :=
  if h : k < 128 then Cert.Spec.rowSq (ax m c) (aw0 m c) (ab0 m c) (aw1 m c) (ab1 m c) ⟨k, h⟩ o else 0

/-- Channel `o` of the running block after point `t` (zero past the grid). -/
def afQ (o : Fin 64) (t : ℕ) : EReal :=
  if h : t < cfg0.N then (outsAt0 (V1 m ρ) c t h).2 (ix3 (0 : Fin 1) o (0 : Fin 1)) else 0

/-- After point t the running block holds the sum over the points since the last multiple of 64. -/
theorem afQ_inv (o : Fin 64) : ∀ t, t < 128 → afQ m ρ c o t = ∑ j ∈ Finset.range (t % 64 + 1), fQ m c o (64 * (t / 64) + j) := by
  refine Cert.Acc.acc_inv 128 (fQ m c o) (afQ m ρ c o) (fun t ht hm => ?_) (fun t ht hm => ?_)
  · have ht' : t < cfg0.N := by rw [show cfg0.N = 128 from N_0]; exact ht
    unfold afQ fQ
    rw [dif_pos ht', dif_pos ht, outsAt0_A (V1 m ρ) c ⟨t, ht'⟩ hm]
    dsimp only
    rw [outA_5_eq]
    exact pay5_apply (ax m c) (aw0 m c) (ab0 m c) (aw1 m c) (ab1 m c) ⟨t, ht⟩ _ _ _ _ (hx0 m ρ c ⟨t, ht'⟩) (ha0 m ρ c ⟨t, ht'⟩) (hb0 m ρ c ⟨t, ht'⟩) (hw0 m ρ c ⟨t, ht'⟩) o
  · have ht' : t < cfg0.N := by rw [show cfg0.N = 128 from N_0]; exact ht
    have ht1 : t - 1 < cfg0.N := Nat.lt_of_le_of_lt (Nat.sub_le _ _) ht'
    unfold afQ fQ
    rw [dif_pos ht', dif_pos ht, dif_pos ht1, outsAt0_B (V1 m ρ) c ⟨t, ht'⟩ hm]
    dsimp only
    rw [outB_5_eq]
    exact pay7_apply (ax m c) (aw0 m c) (ab0 m c) (aw1 m c) (ab1 m c) ⟨t, ht⟩ _ _ _ _ (hx0 m ρ c ⟨t, ht'⟩) (ha0 m ρ c ⟨t, ht'⟩) (hb0 m ρ c ⟨t, ht'⟩) (hw0 m ρ c ⟨t, ht'⟩) _ o

/-- What the array of the two finished blocks holds: row q is the sum over batch elements 64q … 64q + 63. -/
def G5 : S2x64x1.Idx → EReal := fun i => ∑ j ∈ Finset.range 64, fQ m c (i 1) (64 * (i 0).val + j)

theorem mem_blk5 (t : Fin cfg0.N) (i : S2x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v18_1).slice (win0_5.rect t)).set ↔ _
  rw [View.set_slice_whole, Rect.mem_set_unit]
  exact Iff.rfl

/-- What a write-back point writes is its row of `G5`. -/
theorem flushed5_eq (t : Fin cfg0.N) (hf : (cfg0.win 5).flush t = true) :
    (dat0 (V1 m ρ) c).flushed 5 t = ((cfg0.win 5).blk t).view.read (Elt Ideal) (G5 m c) := by
  have h63 : t.val % 64 = 63 := (flush0_5 t).mp hf
  have hidx := idx0_5 t
  show (cfg0.win 5).cut (grid0.coords t) ((dat0 (V1 m ρ) c).after 5 t) = _
  rw [after0_5]
  funext y
  rw [View.read_apply]
  obtain ⟨o, rfl⟩ : ∃ o : Fin 64, y = ix3 (0 : Fin 1) o (0 : Fin 1) := ⟨y 1, ix3_mid y⟩
  show (outsAt0 (V1 m ρ) c t.val t.isLt).2 (ix3 (0 : Fin 1) o (0 : Fin 1)) = G5 m c (((cfg0.win 5).blk t).view.emb (ix3 (0 : Fin 1) o (0 : Fin 1)))
  have hinv := afQ_inv m ρ c o t.val (lt0 t)
  unfold afQ at hinv
  rw [dif_pos t.isLt] at hinv
  rw [hinv, h63]
  unfold G5
  have e1 : (((cfg0.win 5).blk t).view.emb (ix3 (0 : Fin 1) o (0 : Fin 1))) 1 = o :=
    Fin.ext (show win0_5.index t (1 : Fin 3) * 64 + 1 * o.val = o.val by rw [hidx.2.1]; omega)
  have e0 : ((((cfg0.win 5).blk t).view.emb (ix3 (0 : Fin 1) o (0 : Fin 1))) 0).val = t.val / 64 :=
    show win0_5.index t (0 : Fin 3) * 1 + 1 * 0 = t.val / 64 by rw [hidx.1]; omega
  rw [e1, e0]

/-- Every row of the array is some write-back point's block: row q is written after point 64q + 63. -/
theorem cover5 (i : S2x64x1.Idx) : ∃ t : Fin cfg0.N, (cfg0.win 5).flush t = true ∧ i ∈ ((cfg0.win 5).blk t).view.set := by
  have hi0 : (i 0).val < 2 := (i 0).isLt
  have hi1 : (i 1).val < 64 := (i 1).isLt
  have hi2 : (i 2).val < 1 := (i 2).isLt
  have hlt : 64 * (i 0).val + 63 < cfg0.N := by rw [show cfg0.N = 128 from N_0]; omega
  refine ⟨⟨64 * (i 0).val + 63, hlt⟩, (flush0_5 _).mpr (by show (64 * (i 0).val + 63) % 64 = 63; omega), ?_⟩
  rw [mem_blk5]
  have hidx := idx0_5 ⟨64 * (i 0).val + 63, hlt⟩
  intro a
  match a with
  | ⟨0, _⟩ => show win0_5.index _ (0 : Fin 3) * 1 ≤ (i 0).val ∧ (i 0).val < win0_5.index _ (0 : Fin 3) * 1 + 1; rw [hidx.1]; show (64 * (i 0).val + 63) / 64 * 1 ≤ _ ∧ _ < (64 * (i 0).val + 63) / 64 * 1 + 1; omega
  | ⟨1, _⟩ => show win0_5.index _ (1 : Fin 3) * 64 ≤ (i 1).val ∧ (i 1).val < win0_5.index _ (1 : Fin 3) * 64 + 64; rw [hidx.2.1]; omega
  | ⟨2, _⟩ => show win0_5.index _ (2 : Fin 3) * 1 ≤ (i 2).val ∧ (i 2).val < win0_5.index _ (2 : Fin 3) * 1 + 1; rw [hidx.2.2]; omega

/-- The array after the statistics pass. -/
theorem final5 : (dat0 (V1 m ρ) c).arrAt 5 cfg0.N = G5 m c :=
  (dat0 (V1 m ρ) c).arrAt_eq_of_cover 5 (G5 m c) (flushed5_eq m ρ c) cover5

end Cert.KernelIdeal.Hand

end
-- ==== Proof.Tail.lean ====
/-
  The batch-norm fold, from the per-channel sum `S` and sum of squares `Q` (64×1 columns) to the per-channel
  scale and shift: with m = 128 · 16384 the number of samples per channel,
    mean = S / m,   var = max (Q / m − mean · mean, 0),
    scale = gamma · rsqrt (var + ε),   shift = beta − mean · scale,
  written with the host operations both programs use for it, read on the extended reals. Both programs apply
  exactly these operations to their sums, so the fold is kept closed: only its arguments are compared.
  (`hb` is the side condition of spreading a scalar over a 64×1 column; any proof of it gives the same function.)
-/
import Idealize.ShloMosaic.PureOps.Ideal
import proofs.«145259_g2000300775167955_pallasbulk_386_8_alg».proof.Proof.Spec

noncomputable section

namespace Cert.Tail

open Idealize.ShloMosaic Cert.Spec

abbrev SS : Shape := ⟨0, ![]⟩

variable (hb : SS.BroadcastsInDim SC (![] : Fin 0 → Fin SC.rank))

/-- A scalar constant spread over a 64×1 column. -/
def col (b : BitVec 32) : FVec Ideal SC .f32 :=
  broadcastInDim SC ![] hb (constant (F := Ideal) SS .f32 b)

/-- The per-channel mean: the sum over the number of samples (the word 0x4A000000 is 2097152 = 128 · 16384). -/
def meanOf (S : FVec Ideal SC .f32) : FVec Ideal SC .f32 :=
  Host.divf (F := Ideal) S (col hb 0x4A000000#32)

/-- The per-channel scale: gamma · rsqrt (max (Q / m − mean², 0) + ε). -/
def scaleOf (S Q gamma : FVec Ideal SC .f32) : FVec Ideal SC .f32 :=
  mulf (F := Ideal) gamma (Host.rsqrt (F := Ideal) (addf (F := Ideal) (maximumf (F := Ideal) (subf (F := Ideal) (Host.divf (F := Ideal) Q (col hb 0x4A000000#32))
    (mulf (F := Ideal) (meanOf hb S) (meanOf hb S))) (col hb 0x00000000#32)) (col hb 0x3727C5AC#32)))

/-- The per-channel shift: beta − mean · scale. -/
def shiftOf (S Q gamma beta : FVec Ideal SC .f32) : FVec Ideal SC .f32 :=
  subf (F := Ideal) beta (mulf (F := Ideal) (meanOf hb S) (scaleOf hb S Q gamma))

end Cert.Tail

end
-- ==== Proof.KVal1.lean ====
/-
  The host stretch between the two passes, at the ideal values: the two rows of each statistics array are added (the
  two half-batch sums make the whole-batch sum, in the specification's form), and the batch-norm fold turns the sums
  into the per-channel scale and shift. The fold itself is never opened: it is the same closed function on both sides.
-/
import proofs.«145259_g2000300775167955_pallasbulk_386_8_alg».proof.Proof.KVal0
import proofs.«145259_g2000300775167955_pallasbulk_386_8_alg».proof.Proof.Tail
import Idealize.ShloMosaic.PureOps.Ideal.Laws
import Idealize.ShloMosaic.Lib.StableHlo.Run

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-- The specification's whole-batch sums of the arguments. -/
abbrev aS : Cert.Spec.SC.Idx → EReal := Cert.Spec.statS (ax m c) (aw0 m c) (ab0 m c) (aw1 m c) (ab1 m c)
abbrev aQ : Cert.Spec.SC.Idx → EReal := Cert.Spec.statQ (ax m c) (aw0 m c) (ab0 m c) (aw1 m c) (ab1 m c)

/-- An index of a 64×1 column is determined by its first coordinate. -/
theorem ix2_col (i : S64x1.Idx) : i = ix2 (i 0) (0 : Fin 1) := by
  funext a
  match a with
  | ⟨0, _⟩ => rfl
  | ⟨1, _⟩ => exact Fin.ext (by show (i 1).val = 0; have h : (i 1).val < 1 := (i 1).isLt; omega)

theorem W2_v18_0 : (W2 m ρ c (Proc.devRef .tc main_v18_0) : S2x64x1.Idx → EReal) = G4 m c :=
  (W2_arr m ρ c 4).trans (final4 m ρ c)
theorem W2_v18_1 : (W2 m ρ c (Proc.devRef .tc main_v18_1) : S2x64x1.Idx → EReal) = G5 m c :=
  (W2_arr m ρ c 5).trans (final5 m ρ c)

/-- Adding the two rows of the sum array gives the whole-batch sum. -/
theorem reduce_G4 : Host.reduceAdd (F := Ideal) (G4 m c) (constant (F := Ideal) S_ .f32 0x00000000#32) reducesTo_S2x64x1_S64x1_d0 h_S_ = aS m c := by
  funext i
  obtain ⟨o, rfl⟩ : ∃ o : Fin 64, i = ix2 o (0 : Fin 1) := ⟨i 0, ix2_col i⟩
  unfold Host.reduceAdd
  rw [Ideal.hostReduceAdd_def, Ideal.hostReduceAdd_single reducesTo_S2x64x1_S64x1_d0 (by decide : S2x64x1.Reduces [0] S64x1)]
  show Ideal.ofBits .f32 0x00000000#32 + ∑ k : Fin 2, G4 m c _ = _
  rw [Ideal.ofBits_zero_f32, zero_add, Fin.sum_univ_two]
  show (∑ j ∈ Finset.range 64, fS m c o (64 * 0 + j)) + (∑ j ∈ Finset.range 64, fS m c o (64 * 1 + j)) = _
  rw [Cert.Acc.two_halves (fS m c o), Finset.sum_range]
  show (∑ n : Fin 128, fS m c o n.val) = ∑ n : Fin 128, Cert.Spec.rowSum (ax m c) (aw0 m c) (ab0 m c) (aw1 m c) (ab1 m c) n o
  refine Finset.sum_congr rfl fun n _ => ?_
  unfold fS
  rw [dif_pos n.isLt]
/-- The same for the sums of squares. -/
theorem reduce_G5 : Host.reduceAdd (F := Ideal) (G5 m c) (constant (F := Ideal) S_ .f32 0x00000000#32) reducesTo_S2x64x1_S64x1_d0 h_S_ = aQ m c := by
  funext i
  obtain ⟨o, rfl⟩ : ∃ o : Fin 64, i = ix2 o (0 : Fin 1) := ⟨i 0, ix2_col i⟩
  unfold Host.reduceAdd
  rw [Ideal.hostReduceAdd_def, Ideal.hostReduceAdd_single reducesTo_S2x64x1_S64x1_d0 (by decide : S2x64x1.Reduces [0] S64x1)]
  show Ideal.ofBits .f32 0x00000000#32 + ∑ k : Fin 2, G5 m c _ = _
  rw [Ideal.ofBits_zero_f32, zero_add, Fin.sum_univ_two]
  show (∑ j ∈ Finset.range 64, fQ m c o (64 * 0 + j)) + (∑ j ∈ Finset.range 64, fQ m c o (64 * 1 + j)) = _
  rw [Cert.Acc.two_halves (fQ m c o), Finset.sum_range]
  show (∑ n : Fin 128, fQ m c o n.val) = ∑ n : Fin 128, Cert.Spec.rowSq (ax m c) (aw0 m c) (ab0 m c) (aw1 m c) (ab1 m c) n o
  refine Finset.sum_congr rfl fun n _ => ?_
  unfold fQ
  rw [dif_pos n.isLt]

/-- gamma and beta reach the second host stretch as launched. -/
theorem W2_main_arg5 : W2 m ρ c (Proc.devRef .tc main_arg5) = m ((c : Thread nD τ).loc main_arg5) :=
  (W2_of_ne m ρ c main_arg5 (by decide)).trans ((StableHlo.after_of_writes_sub hostOps0 _ hostOps0_writes (r := main_arg5) (by decide)).trans rfl)
theorem W2_main_arg6 : W2 m ρ c (Proc.devRef .tc main_arg6) = m ((c : Thread nD τ).loc main_arg6) :=
  (W2_of_ne m ρ c main_arg6 (by decide)).trans ((StableHlo.after_of_writes_sub hostOps0 _ hostOps0_writes (r := main_arg6) (by decide)).trans rfl)

/-- The second host stretch from any contents `X`: the scale is the fold of the two arrays' row sums and gamma. -/
theorem fold_v32 (X : Valuation τ sig (Elt Ideal)) :
    (StableHlo.after (hostOps1 (F := Ideal)) X (Proc.devRef .tc main_v32) : S64x1.Idx → EReal)
      = Cert.Tail.scaleOf bcast_S_S64x1
          (Host.reduceAdd (F := Ideal) (X (Proc.devRef .tc main_v18_0)) (constant (F := Ideal) S_ .f32 0x00000000#32) reducesTo_S2x64x1_S64x1_d0 h_S_)
          (Host.reduceAdd (F := Ideal) (X (Proc.devRef .tc main_v18_1)) (constant (F := Ideal) S_ .f32 0x00000000#32) reducesTo_S2x64x1_S64x1_d0 h_S_)
          (X (Proc.devRef .tc main_arg5)) := by
  dsimp only [hostOps1]; after_results_simp; rfl
/-- The same for the shift, with beta. -/
theorem fold_v34 (X : Valuation τ sig (Elt Ideal)) :
    (StableHlo.after (hostOps1 (F := Ideal)) X (Proc.devRef .tc main_v34) : S64x1.Idx → EReal)
      = Cert.Tail.shiftOf bcast_S_S64x1
          (Host.reduceAdd (F := Ideal) (X (Proc.devRef .tc main_v18_0)) (constant (F := Ideal) S_ .f32 0x00000000#32) reducesTo_S2x64x1_S64x1_d0 h_S_)
          (Host.reduceAdd (F := Ideal) (X (Proc.devRef .tc main_v18_1)) (constant (F := Ideal) S_ .f32 0x00000000#32) reducesTo_S2x64x1_S64x1_d0 h_S_)
          (X (Proc.devRef .tc main_arg5)) (X (Proc.devRef .tc main_arg6)) := by
  dsimp only [hostOps1]; after_results_simp; rfl

/-- The scale the normalising pass is entered with. -/
theorem W3_v32 : (W3 m ρ c (Proc.devRef .tc main_v32) : S64x1.Idx → EReal) = Cert.Tail.scaleOf bcast_S_S64x1 (aS m c) (aQ m c) (agamma m c) := by
  rw [show (W3 m ρ c (Proc.devRef .tc main_v32) : S64x1.Idx → EReal) = _ from fold_v32 (W2 m ρ c), W2_v18_0, W2_v18_1, reduce_G4, reduce_G5, W2_main_arg5]
/-- The shift the normalising pass is entered with. -/
theorem W3_v34 : (W3 m ρ c (Proc.devRef .tc main_v34) : S64x1.Idx → EReal) = Cert.Tail.shiftOf bcast_S_S64x1 (aS m c) (aQ m c) (agamma m c) (abeta m c) := by
  rw [show (W3 m ρ c (Proc.devRef .tc main_v34) : S64x1.Idx → EReal) = _ from fold_v34 (W2 m ρ c), W2_v18_0, W2_v18_1, reduce_G4, reduce_G5, W2_main_arg5, W2_main_arg6]

end Cert.KernelIdeal.Hand

end
-- ==== Proof.KPayNorm.lean ====
/-
  The normalising block: the activation block times the per-channel scale column plus the per-channel shift
  column, each column spread along the points, read one entry at a time.
-/
import proofs.«145259_g2000300775167955_pallasbulk_386_8_alg».proof.Proof.KPaySecond

noncomputable section

open scoped BigOperators

namespace Cert.KernelIdeal.Hand

open Idealize.ShloMosaic Idealize.ShloMosaic.ValueIdx Cert.KernelIdeal Cert.KernelIdeal.Gen Cert.Spec

/-- The normalising block is the activation block scaled and shifted, with a leading unit axis. -/
theorem pay_norm_eq (x0 : Vec Ideal S1x4x16384 .f32) (a : Vec Ideal S40x4 .bf16) (b : Vec Ideal S40x1 .f32)
    (w : Vec Ideal S64x40 .bf16) (sc sh : Vec Ideal S64x1 .f32) :
    Gen.k1_pay1 x0 a b w sc sh
      = shapeCast S1x64x16384
          (addf
            (mulf (Gen.k0_pay1 x0 a b w)
              (broadcastTo S64x16384 (shapeCast S64x1 sc shapeCasts_S64x1_S64x1 : FVec Ideal S64x1 .f32)
                broadcasts_S64x1_S64x16384))
            (broadcastTo S64x16384 (shapeCast S64x1 sh shapeCasts_S64x1_S64x1 : FVec Ideal S64x1 .f32)
              broadcasts_S64x1_S64x16384) : FVec Ideal S64x16384 .f32)
          shapeCasts_S64x16384_S1x64x16384 := rfl

variable (x : SX.Idx → EReal) (w0 : SW0.Idx → EReal) (b0 : SB0.Idx → EReal) (w1 : SW1.Idx → EReal) (b1 : SC.Idx → EReal)
  (n : Fin 128)
  (x0 : Vec Ideal S1x4x16384 .f32) (a : Vec Ideal S40x4 .bf16) (b : Vec Ideal S40x1 .f32) (w : Vec Ideal S64x40 .bf16)
  (hx : ∀ (c : Fin 4) (l : Fin 16384), x0 (ix3 (0 : Fin 1) c l) = x (ix3 n c l))
  (ha : ∀ (k : Fin 40) (c : Fin 4), a (ix2 k c) = if h : k.val < 32 then w0 (ix2 ⟨k.val, h⟩ c) else 0)
  (hb : ∀ (k : Fin 40), b (ix2 k (0 : Fin 1))
    = if h : k.val < 32 then b0 (ix2 ⟨k.val, h⟩ 0) else if k.val = 32 then 1 else 0)
  (hw : ∀ (o : Fin 64) (k : Fin 40), w (ix2 o k)
    = if h : k.val < 32 then w1 (ix2 o ⟨k.val, h⟩) else if k.val = 32 then b1 (ix2 o (0 : Fin 1)) else 0)

include hx ha hb hw

/-- The normalising block at (·, o, l): the second layer's value times the scale of channel o plus its shift. -/
theorem pay_norm_apply (sc sh : Vec Ideal S64x1 .f32) (o : Fin 64) (l : Fin 16384) :
    Gen.k1_pay1 x0 a b w sc sh (ix3 (0 : Fin 1) o l)
      = Cert.Spec.h2 x w0 b0 w1 b1 n o l * sc (ix2 o (0 : Fin 1)) + sh (ix2 o (0 : Fin 1)) := by
  refine (congrFun (pay_norm_eq x0 a b w sc sh) (ix3 (0 : Fin 1) o l)).trans ?_
  refine (shapeCast_ab_1ab_apply _ _ (0 : Fin 1) o l).trans ?_
  rw [addf_apply, mulf_apply, Cert.LibColumns.broadcastTo_a1_ab_apply, Cert.LibColumns.broadcastTo_a1_ab_apply,
    shapeCast_self, shapeCast_self, pay1_apply x w0 b0 w1 b1 n x0 a b w hx ha hb hw o l]

end Cert.KernelIdeal.Hand

end
-- ==== Proof.KVal2.lean ====
/-
  What the normalising pass leaves in the result array, at the ideal values: point n recomputes the rectified second
  layer of batch element n (in the specification's form, by the augmented parameters), multiplies by the scale and adds
  the shift it was entered with, and writes block n of the result; the blocks tile the result. With the scale and shift
  of the host fold this is the specification's output.
-/
import proofs.«145259_g2000300775167955_pallasbulk_386_8_alg».proof.Proof.KVal1
import proofs.«145259_g2000300775167955_pallasbulk_386_8_alg».proof.Proof.KPayNorm

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The normalising pass's entry contents of what it reads -/

theorem W2_main_arg0 : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_main_arg0 m ρ c)))
theorem V3_main_arg0 : V3 m ρ c main_arg0 = m ((c : Thread nD τ).loc main_arg0) :=
  (StableHlo.after_of_writes_sub hostOps1 _ hostOps1_writes (r := main_arg0) (by decide)).trans (W2_main_arg0 m ρ c)
/-- The augmented parameters are what the first host stretch made: neither the statistics pass nor the second host stretch
    writes them. -/
theorem V3_main_v3 : V3 m ρ c main_v3 = V1 m ρ c main_v3 :=
  (StableHlo.after_of_writes_sub hostOps1 _ hostOps1_writes (r := main_v3) (by decide)).trans
    ((W2_arr m ρ c 1).trans (((dat0 (V1 m ρ) c).arrAt_in 1 rfl _).trans (A_eq0 (V1 m ρ) c 1)))
theorem V3_main_v10 : V3 m ρ c main_v10 = V1 m ρ c main_v10 :=
  (StableHlo.after_of_writes_sub hostOps1 _ hostOps1_writes (r := main_v10) (by decide)).trans
    ((W2_arr m ρ c 2).trans (((dat0 (V1 m ρ) c).arrAt_in 2 rfl _).trans (A_eq0 (V1 m ρ) c 2)))
theorem V3_main_v17 : V3 m ρ c main_v17 = V1 m ρ c main_v17 :=
  (StableHlo.after_of_writes_sub hostOps1 _ hostOps1_writes (r := main_v17) (by decide)).trans
    ((W2_arr m ρ c 3).trans (((dat0 (V1 m ρ) c).arrAt_in 3 rfl _).trans (A_eq0 (V1 m ρ) c 3)))

/-! ## The input blocks at a point, in the form the payload lemma takes -/

theorem hx1 (t : Fin cfg1.N) : ∀ (ch : Fin 4) (l : Fin 16384),
    (iblk1 (V3 m ρ) c 0 t : S1x4x16384.Idx → EReal) (ix3 (0 : Fin 1) ch l) = ax m c (ix3 (⟨t.val, lt1 t⟩ : Fin 128) ch l) := fun ch l => by
  rw [iblk1_0_apply (V3 m ρ) c t ch l, V3_main_arg0]
theorem ha1 (t : Fin cfg1.N) : ∀ (k : Fin 40) (ch : Fin 4),
    (iblk1 (V3 m ρ) c 1 t : S40x4.Idx → EReal) (ix2 k ch) = if h : k.val < 32 then aw0 m c (ix2 ⟨k.val, h⟩ ch) else 0 := fun k ch => by
  rw [iblk1_1_eq (V3 m ρ) c t, V3_main_v3]; exact w0a_apply (W0 m ρ c) k ch
theorem hb1 (t : Fin cfg1.N) : ∀ (k : Fin 40),
    (iblk1 (V3 m ρ) c 2 t : S40x1.Idx → EReal) (ix2 k (0 : Fin 1)) = if h : k.val < 32 then ab0 m c (ix2 ⟨k.val, h⟩ 0) else if k.val = 32 then 1 else 0 := fun k => by
  rw [iblk1_2_eq (V3 m ρ) c t, V3_main_v10]; exact b0a_apply (W0 m ρ c) k
theorem hw1 (t : Fin cfg1.N) : ∀ (o : Fin 64) (k : Fin 40),
    (iblk1 (V3 m ρ) c 3 t : S64x40.Idx → EReal) (ix2 o k) = if h : k.val < 32 then aw1 m c (ix2 o ⟨k.val, h⟩) else if k.val = 32 then ab1 m c (ix2 o (0 : Fin 1)) else 0 := fun o k => by
  rw [iblk1_3_eq (V3 m ρ) c t, V3_main_v17]; exact w1a_apply (W0 m ρ c) o k

/-! ## The result array -/

/-- The result for the scale and shift the pass was entered with. -/
abbrev G6 : S128x64x16384.Idx → EReal :=
  Cert.Spec.Y (ax m c) (aw0 m c) (ab0 m c) (aw1 m c) (ab1 m c) (V3 m ρ c main_v32) (V3 m ρ c main_v34)

theorem idx1_6 : ∀ t : Fin cfg1.N, win1_6.index t (0 : Fin 3) = t.val ∧ win1_6.index t (1 : Fin 3) = 0 ∧ win1_6.index t (2 : Fin 3) = 0 :=
  (by decide +kernel : ∀ t : Fin grid1.N, win1_6.index t (0 : Fin 3) = t.val ∧ win1_6.index t (1 : Fin 3) = 0 ∧ win1_6.index t (2 : Fin 3) = 0)

theorem mem_blk6 (t : Fin cfg1.N) (i : S128x64x16384.Idx) :
    i ∈ ((cfg1.win 6).blk t).view.set ↔ ∀ a : Fin 3, win1_6.index t a * S1x64x16384.size a ≤ (i a).val ∧ (i a).val < win1_6.index t a * S1x64x16384.size a + S1x64x16384.size a := by
  show i ∈ ((View.whole main_v35).slice (win1_6.rect t)).set ↔ _
  rw [View.set_slice_whole, Rect.mem_set_unit]
  exact Iff.rfl

/-- What point t writes back is block t of the result. -/
theorem flushed6_eq (t : Fin cfg1.N) :
    (dat1 (V3 m ρ) c).flushed 6 t = ((cfg1.win 6).blk t).view.read (Elt Ideal) (G6 m ρ c) := by
  have hidx := idx1_6 t
  show (cfg1.win 6).cut (grid1.coords t) ((dat1 (V3 m ρ) c).after 6 t) = _
  rw [after1_6, out1_6_eq]
  funext y
  rw [View.read_apply]
  obtain ⟨o, l, rfl⟩ : ∃ (o : Fin 64) (l : Fin 16384), y = ix3 (0 : Fin 1) o l := ⟨y 1, y 2, by
    funext a
    match a with
    | ⟨0, _⟩ => exact Fin.ext (by show (y 0).val = 0; have h : (y 0).val < 1 := (y 0).isLt; omega)
    | ⟨1, _⟩ => rfl
    | ⟨2, _⟩ => rfl⟩
  show k1_pay1 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix3 (0 : Fin 1) o l)
    = G6 m ρ c (((cfg1.win 6).blk t).view.emb (ix3 (0 : Fin 1) o l))
  rw [pay_norm_apply (ax m c) (aw0 m c) (ab0 m c) (aw1 m c) (ab1 m c) ⟨t.val, lt1 t⟩ _ _ _ _ (hx1 m ρ c t) (ha1 m ρ c t) (hb1 m ρ c t) (hw1 m ρ c t) _ _ o l,
    iblk1_4_eq (V3 m ρ) c t, iblk1_5_eq (V3 m ρ) c t]
  have e0 : (((cfg1.win 6).blk t).view.emb (ix3 (0 : Fin 1) o l)) 0 = (⟨t.val, lt1 t⟩ : Fin 128) :=
    Fin.ext (show win1_6.index t (0 : Fin 3) * 1 + 1 * 0 = t.val by rw [hidx.1]; omega)
  have e1 : (((cfg1.win 6).blk t).view.emb (ix3 (0 : Fin 1) o l)) 1 = o :=
    Fin.ext (show win1_6.index t (1 : Fin 3) * 64 + 1 * o.val = o.val by rw [hidx.2.1]; omega)
  have e2 : (((cfg1.win 6).blk t).view.emb (ix3 (0 : Fin 1) o l)) 2 = l :=
    Fin.ext (show win1_6.index t (2 : Fin 3) * 16384 + 1 * l.val = l.val by rw [hidx.2.2]; omega)
  unfold G6 Cert.Spec.Y
  rw [e0, e1, e2]

/-- Every entry of the result is in its batch element's block. -/
theorem cover6 (i : S128x64x16384.Idx) : ∃ t : Fin cfg1.N, (cfg1.win 6).flush t = true ∧ i ∈ ((cfg1.win 6).blk t).view.set := by
  have hi0 : (i 0).val < 128 := (i 0).isLt
  have hi1 : (i 1).val < 64 := (i 1).isLt
  have hi2 : (i 2).val < 16384 := (i 2).isLt
  have hlt : (i 0).val < cfg1.N := by rw [show cfg1.N = 128 from N_1]; exact hi0
  refine ⟨⟨(i 0).val, hlt⟩, flush1_6 _, ?_⟩
  rw [mem_blk6]
  have hidx := idx1_6 ⟨(i 0).val, hlt⟩
  intro a
  match a with
  | ⟨0, _⟩ => show win1_6.index _ (0 : Fin 3) * 1 ≤ (i 0).val ∧ (i 0).val < win1_6.index _ (0 : Fin 3) * 1 + 1; rw [hidx.1]; show (i 0).val * 1 ≤ _ ∧ _ < (i 0).val * 1 + 1; omega
  | ⟨1, _⟩ => show win1_6.index _ (1 : Fin 3) * 64 ≤ (i 1).val ∧ (i 1).val < win1_6.index _ (1 : Fin 3) * 64 + 64; rw [hidx.2.1]; omega
  | ⟨2, _⟩ => show win1_6.index _ (2 : Fin 3) * 16384 ≤ (i 2).val ∧ (i 2).val < win1_6.index _ (2 : Fin 3) * 16384 + 16384; rw [hidx.2.2]; omega

theorem final6 : (dat1 (V3 m ρ) c).arrAt 6 cfg1.N = G6 m ρ c :=
  (dat1 (V3 m ρ) c).arrAt_eq_of_cover 6 (G6 m ρ c) (fun t _ => flushed6_eq m ρ c t) cover6

/-- THE KERNEL'S RESULT: after the run the result array holds the specification's output for the scale and shift of the
    batch-norm fold of the specification's whole-batch sums. -/
theorem kernel_value : (W4 m ρ c (Proc.devRef .tc main_v35) : S128x64x16384.Idx → EReal)
    = Cert.Spec.Y (ax m c) (aw0 m c) (ab0 m c) (aw1 m c) (ab1 m c)
        (Cert.Tail.scaleOf bcast_S_S64x1 (aS m c) (aQ m c) (agamma m c))
        (Cert.Tail.shiftOf bcast_S_S64x1 (aS m c) (aQ m c) (agamma m c) (abeta m c)) := by
  rw [← W3_v32 m ρ c, ← W3_v34 m ρ c]
  exact (W4_arr m ρ c 6).trans (final6 m ρ c)

end Cert.KernelIdeal.Hand

end
-- ==== Proof.KClaim.lean ====
/-
  The kernel's run at the ideal values with its result named: the result array ends at the specification's output for the
  batch-norm fold of the specification's whole-batch sums, and every argument array ends as launched.
-/
import proofs.«145259_g2000300775167955_pallasbulk_386_8_alg».proof.Proof.KVal2

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v35) = Cert.Spec.Y (ax m c) (aw0 m c) (ab0 m c) (aw1 m c) (ab1 m c)
        (Cert.Tail.scaleOf bcast_S_S64x1 (aS m c) (aQ m c) (agamma m c))
        (Cert.Tail.shiftOf bcast_S_S64x1 (aS m c) (aQ m c) (agamma m c) (abeta m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_v35 (by decide))).trans (kernel_value m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all (F := Ideal) m ρ)

end Cert.KernelIdeal.Hand

end
-- ==== Proof.RefRun.lean ====
/-
  The reference program's run with its result named.

  The run of the whole program (two kernel regions around a stretch of host operations) ends with every
  buffer that outlives the regions holding the contents the fold of the segments assigns to it. Here that
  final fact is read at the result buffer as well as at the seven arguments: the result holds the last
  boundary's contents at it, and each argument holds what it held at launch.
-/
import proofs.«145259_g2000300775167955_pallasbulk_386_8_alg».proof.Proof.Gen.ReferenceIdeal.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the launch memory `m` terminates without fault, and in
    every final state the result buffer holds the last boundary's contents at it and each argument array is
    as launched. -/
theorem run_named : θ_run defs (onTc (τ := τ) (main (F := F))) ⟨m, fun _ => 0, ρ⟩ (fun r => ∀ c : Dev nD,
      r.2.mem ((c.tc : Thread nD τ).loc main_v17) = Gen.W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.ReferenceIdeal.Hand

end
-- ==== Proof.RefPay.lean ====
/-
  The two kernel bodies' arithmetic, read entry by entry on the extended reals.

  Both bodies work on one batch element's block x0 : [1, 4, 16384] and the whole weight arrays. They compute
    g1(k, l) = max (Σ_c w0(k, c) · x0(0, c, l) + b0(k, 0), 0),
    g2(o, l) = max (Σ_k w1(o, k) · g1(k, l) + b1(o, 0), 0);
  the first body stores the row sums Σ_l g2(o, l) and Σ_l g2(o, l)², the second stores g2(o, l) · scale(o) + shift(o).
  A matrix product into a zero accumulator is the plain sum of products over the one contracted axis; a column
  spread along the rows reads its one entry; the casts that add or drop unit axes keep the row-major position.
-/
import Idealize.ShloMosaic.Lib.ValueIdx
import Idealize.ShloMosaic.Lib.Pipeline.Value
import Idealize.ShloMosaic.Lib.ValueLayout
import Idealize.ShloMosaic.PureOps.Ideal.Laws
import proofs.«145259_g2000300775167955_pallasbulk_386_8_alg».proof.Proof.Gen.ReferenceIdeal.Skeleton

noncomputable section

open scoped BigOperators

namespace Cert.ReferenceIdeal.Hand

open Idealize.ShloMosaic Idealize.ShloMosaic.ValueIdx
open Cert.ReferenceIdeal Cert.ReferenceIdeal.Gen

/-! ## One batch element's two layers -/

/-- The first layer with its rectifier on one batch element's block. -/
def g1 (x0 : S1x4x16384.Idx → EReal) (w0 : S32x4.Idx → EReal) (b0 : S32x1.Idx → EReal) (k : Fin 32) (l : Fin 16384) : EReal :=
  max ((∑ c : Fin 4, w0 (ix2 k c) * x0 (ix3 (0 : Fin 1) c l)) + b0 (ix2 k (0 : Fin 1))) 0

/-- The second layer with its rectifier on one batch element's block. -/
def g2 (x0 : S1x4x16384.Idx → EReal) (w0 : S32x4.Idx → EReal) (b0 : S32x1.Idx → EReal) (w1 : S64x32.Idx → EReal)
    (b1 : S64x1.Idx → EReal) (o : Fin 64) (l : Fin 16384) : EReal :=
  max ((∑ k : Fin 32, w1 (ix2 o k) * g1 x0 w0 b0 k l) + b1 (ix2 o (0 : Fin 1))) 0

/-! ## The operations that are not entrywise, read at an index -/

/-- The first matrix product into a zero accumulator: entry (p, q) is the sum over the 4 contracted coordinates. -/
theorem mm1 (a : FVec Ideal S32x4 .f32) (b : FVec Ideal S4x16384 .f32) (p : Fin 32) (q : Fin 16384) :
    FloatOps.matmul (F := Ideal) dot_S32x4_S4x16384_S32x16384_1_0_0_1_n_n none a b (constant (F := Ideal) S32x16384 .f32 0x00000000#32) (ix2 p q)
      = ∑ k : Fin 4, a (ix2 p k) * b (ix2 k q) := by
  rw [Ideal.matmul_constant_zero_apply, ← Equiv.sum_comp (contrEquiv1 dot_S32x4_S4x16384_S32x16384_1_0_0_1_n_n 4 rfl rfl).symm]
  refine Finset.sum_congr rfl fun k _ => ?_
  congr 2
  · funext ax
    match ax with
    | ⟨0, _⟩ => rfl
    | ⟨1, _⟩ => exact Fin.ext ((dot_S32x4_S4x16384_S32x16384_1_0_0_1_n_n.lhsIdx_val_of_single rfl _ _).trans (contrEquiv1_symm_val dot_S32x4_S4x16384_S32x16384_1_0_0_1_n_n 4 rfl rfl k))
  · funext ax
    match ax with
    | ⟨0, _⟩ => exact Fin.ext ((dot_S32x4_S4x16384_S32x16384_1_0_0_1_n_n.rhsIdx_val_of_single rfl _ _).trans (contrEquiv1_symm_val dot_S32x4_S4x16384_S32x16384_1_0_0_1_n_n 4 rfl rfl k))
    | ⟨1, _⟩ => rfl

/-- The second matrix product into a zero accumulator: entry (p, q) is the sum over the 32 contracted coordinates. -/
theorem mm2 (a : FVec Ideal S64x32 .f32) (b : FVec Ideal S32x16384 .f32) (p : Fin 64) (q : Fin 16384) :
    FloatOps.matmul (F := Ideal) dot_S64x32_S32x16384_S64x16384_1_0_0_1_n_n none a b (constant (F := Ideal) S64x16384 .f32 0x00000000#32) (ix2 p q)
      = ∑ k : Fin 32, a (ix2 p k) * b (ix2 k q) := by
  rw [Ideal.matmul_constant_zero_apply, ← Equiv.sum_comp (contrEquiv1 dot_S64x32_S32x16384_S64x16384_1_0_0_1_n_n 32 rfl rfl).symm]
  refine Finset.sum_congr rfl fun k _ => ?_
  congr 2
  · funext ax
    match ax with
    | ⟨0, _⟩ => rfl
    | ⟨1, _⟩ => exact Fin.ext ((dot_S64x32_S32x16384_S64x16384_1_0_0_1_n_n.lhsIdx_val_of_single rfl _ _).trans (contrEquiv1_symm_val dot_S64x32_S32x16384_S64x16384_1_0_0_1_n_n 32 rfl rfl k))
  · funext ax
    match ax with
    | ⟨0, _⟩ => exact Fin.ext ((dot_S64x32_S32x16384_S64x16384_1_0_0_1_n_n.rhsIdx_val_of_single rfl _ _).trans (contrEquiv1_symm_val dot_S64x32_S32x16384_S64x16384_1_0_0_1_n_n 32 rfl rfl k))
    | ⟨1, _⟩ => rfl

/-- A column [a, 1] spread to [a, b] reads, at (p, c), the column's entry p. -/
theorem bc_col {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Dropping the leading unit axis of a [1, a, b] block: entry (p, q) is the block's (0, p, q). -/
theorem sc_drop3 {a b : ℕ} (v : (⟨3, ![1, a, b]⟩ : Shape).Idx → EReal) (h : (⟨3, ![1, a, b]⟩ : Shape).ShapeCasts ⟨2, ![a, b]⟩)
    (p : Fin a) (q : Fin b) : shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show ((0 : ℕ) * a + p.val) * b + q.val = p.val * b + q.val
  rw [Nat.zero_mul, Nat.zero_add]

/-- Adding a leading unit axis to an [a, b] array: entry (0, p, q) is the array's (p, q). -/
theorem sc_add3 {a b : ℕ} (v : (⟨2, ![a, b]⟩ : Shape).Idx → EReal) (h : (⟨2, ![a, b]⟩ : Shape).ShapeCasts ⟨3, ![1, a, b]⟩)
    (p : Fin a) (q : Fin b) : shapeCast ⟨3, ![1, a, b]⟩ v h (ix3 (0 : Fin 1) p q) = v (ix2 p q) := by
  refine shapeCast_apply v h (ix3 (0 : Fin 1) p q) (ix2 p q) ?_
  rw [Shape.rowMajor_val_three, Shape.rowMajor_val_two]
  show p.val * b + q.val = ((0 : ℕ) * a + p.val) * b + q.val
  rw [Nat.zero_mul, Nat.zero_add]

/-- A vector [a] viewed as a column [a, 1]: entry (p, 0) is the vector's p. -/
theorem sc_col {a : ℕ} (v : (⟨1, ![a]⟩ : Shape).Idx → EReal) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column [a, 1] viewed as [1, 1, a, 1]: entry (0, 0, p, 0) is the column's (p, 0). -/
theorem sc_col4 {a : ℕ} (v : (⟨2, ![a, 1]⟩ : Shape).Idx → EReal) (h : (⟨2, ![a, 1]⟩ : Shape).ShapeCasts ⟨4, ![1, 1, a, 1]⟩)
    (p : Fin a) : shapeCast ⟨4, ![1, 1, a, 1]⟩ v h (ix4 (0 : Fin 1) (0 : Fin 1) p (0 : Fin 1)) = v (ix2 p (0 : Fin 1)) := by
  refine shapeCast_apply v h (ix4 (0 : Fin 1) (0 : Fin 1) p (0 : Fin 1)) (ix2 p (0 : Fin 1)) ?_
  rw [Shape.rowMajor_val_four, Shape.rowMajor_val_two]
  show p.val * 1 + 0 = ((0 * 1 + 0) * a + p.val) * 1 + 0
  simp only [Nat.zero_mul, Nat.zero_add, Nat.add_zero, Nat.mul_one]

/-- The sum along the rows of a [64, 16384] array from the zero word: entry o is the sum of row o. -/
theorem rowsum_apply (src : FVec Ideal S64x16384 .f32) (h : S64x16384.Reduces [1] S64) (hφ : FKind.Formats FTy.f32)
    (hacc : (0x00000000#32 : BitVec FTy.f32.bits) = FKind.add.neutral FTy.f32 hφ) (o : Fin 64) :
    multiReduction (F := Ideal) .add [1] S64 src 0x00000000#32 h hφ hacc (ix1 o) = ∑ l : Fin 16384, src (ix2 o l) :=
  (Ideal.multiReduction_add_single src 0x00000000#32 h hφ hacc (ix1 o)).trans
    (Finset.sum_congr rfl fun l _ => congrArg src (funext fun ax => by
      match ax with
      | ⟨0, _⟩ => rfl
      | ⟨1, _⟩ => rfl))

/-! ## The payloads -/

variable (x0 : Vec Ideal S1x4x16384 .f32) (w0 : Vec Ideal S32x4 .f32) (b0 : Vec Ideal S32x1 .f32)
  (w1 : Vec Ideal S64x32 .f32) (b1 : Vec Ideal S64x1 .f32)

/-- A layer: a product into the zero accumulator, the bias column spread along the rows, the rectifier. -/
def layer {sa sb so sc : Shape} (D : DotDims sa sb so) (w : FVec Ideal sa .f32) (h : FVec Ideal sb .f32) (b : FVec Ideal sc .f32)
    (hbc : sc.Broadcasts so) : FVec Ideal so .f32 :=
  maximumf (F := Ideal) (addf (F := Ideal) (matmul (F := Ideal) D none w h (constant (F := Ideal) so .f32 0x00000000#32)) (broadcastTo so b hbc))
    (broadcast so (Scalar.ofBits (F := Ideal) .f32 0x00000000#32))

theorem layer_apply {sa sb so sc : Shape} (D : DotDims sa sb so) (w : FVec Ideal sa .f32) (h : FVec Ideal sb .f32) (b : FVec Ideal sc .f32)
    (hbc : sc.Broadcasts so) (j : so.Idx) :
    layer D w h b hbc j = max (FloatOps.matmul (F := Ideal) D none w h (constant (F := Ideal) so .f32 0x00000000#32) j + broadcastTo so b hbc j) 0 := by
  show max _ (Ideal.ofBits .f32 0x00000000#32) = _
  rw [Ideal.ofBits_zero_f32]
  rfl

/-- The rectified second layer of the stats body is the two layers composed. -/
theorem k0_pay1_eq : k0_pay1 (F := Ideal) x0 w0 b0 w1 b1
    = layer dot_S64x32_S32x16384_S64x16384_1_0_0_1_n_n w1 (layer dot_S32x4_S4x16384_S32x16384_1_0_0_1_n_n w0 (shapeCast S4x16384 x0 shapeCasts_S1x4x16384_S4x16384) b0 broadcasts_S32x1_S32x16384)
        b1 broadcasts_S64x1_S64x16384 := rfl

/-- Entry (o, l) of the rectified second layer. -/
theorem pay1_apply (o : Fin 64) (l : Fin 16384) : k0_pay1 (F := Ideal) x0 w0 b0 w1 b1 (ix2 o l) = g2 x0 w0 b0 w1 b1 o l := by
  rw [k0_pay1_eq, layer_apply, mm2, bc_col]
  unfold g2
  refine congrArg (fun s => max (s + b1 (ix2 o (0 : Fin 1))) 0) (Finset.sum_congr rfl fun k _ => congrArg (w1 (ix2 o k) * ·) ?_)
  rw [layer_apply, mm1, bc_col]
  unfold g1
  refine congrArg (fun s => max (s + b0 (ix2 k (0 : Fin 1))) 0) (Finset.sum_congr rfl fun c _ => congrArg (w0 (ix2 k c) * ·) ?_)
  exact sc_drop3 x0 _ c l

/-- The first stored block of the stats body: entry (0, 0, o, 0) is the sum of channel o over the points. -/
theorem pay2_apply (o : Fin 64) :
    k0_pay2 (F := Ideal) x0 w0 b0 w1 b1 (ix4 (0 : Fin 1) (0 : Fin 1) o (0 : Fin 1)) = ∑ l : Fin 16384, g2 x0 w0 b0 w1 b1 o l := by
  unfold k0_pay2
  refine (sc_col4 _ _ o).trans ((sc_col _ _ o).trans ((rowsum_apply _ _ _ _ o).trans ?_))
  exact Finset.sum_congr rfl fun l _ => pay1_apply x0 w0 b0 w1 b1 o l

/-- The second stored block of the stats body: entry (0, 0, o, 0) is the sum of squares of channel o over the points. -/
theorem pay3_apply (o : Fin 64) :
    k0_pay3 (F := Ideal) x0 w0 b0 w1 b1 (ix4 (0 : Fin 1) (0 : Fin 1) o (0 : Fin 1))
      = ∑ l : Fin 16384, g2 x0 w0 b0 w1 b1 o l * g2 x0 w0 b0 w1 b1 o l := by
  unfold k0_pay3
  refine (sc_col4 _ _ o).trans ((sc_col _ _ o).trans ((rowsum_apply _ _ _ _ o).trans ?_))
  refine Finset.sum_congr rfl fun l _ => ?_
  show k0_pay1 (F := Ideal) x0 w0 b0 w1 b1 (ix2 o l) * k0_pay1 (F := Ideal) x0 w0 b0 w1 b1 (ix2 o l) = _
  rw [pay1_apply]

/-- The normalising body's stored block is the rectified second layer times the scale column plus the shift column. -/
theorem k1_pay1_eq (sc sh : Vec Ideal S64x1 .f32) : k1_pay1 (F := Ideal) x0 w0 b0 w1 b1 sc sh
    = shapeCast S1x64x16384 (addf (F := Ideal) (mulf (F := Ideal) (k0_pay1 (F := Ideal) x0 w0 b0 w1 b1)
          (broadcastTo S64x16384 (shapeCast S64x1 sc shapeCasts_S64x1_S64x1) broadcasts_S64x1_S64x16384))
        (broadcastTo S64x16384 (shapeCast S64x1 sh shapeCasts_S64x1_S64x1) broadcasts_S64x1_S64x16384)) shapeCasts_S64x16384_S1x64x16384 := rfl

/-- Entry (0, o, l) of the normalising body's stored block. -/
theorem pay_norm_apply (sc sh : Vec Ideal S64x1 .f32) (o : Fin 64) (l : Fin 16384) :
    k1_pay1 (F := Ideal) x0 w0 b0 w1 b1 sc sh (ix3 (0 : Fin 1) o l)
      = g2 x0 w0 b0 w1 b1 o l * sc (ix2 o (0 : Fin 1)) + sh (ix2 o (0 : Fin 1)) := by
  rw [k1_pay1_eq, sc_add3]
  show k0_pay1 (F := Ideal) x0 w0 b0 w1 b1 (ix2 o l) * broadcastTo S64x16384 (shapeCast S64x1 sc shapeCasts_S64x1_S64x1) broadcasts_S64x1_S64x16384 (ix2 o l)
      + broadcastTo S64x16384 (shapeCast S64x1 sh shapeCasts_S64x1_S64x1) broadcasts_S64x1_S64x16384 (ix2 o l) = _
  rw [pay1_apply, bc_col, bc_col, shapeCast_self, shapeCast_self]

end Cert.ReferenceIdeal.Hand

end
-- ==== Proof.RefOut.lean ====
/-
  What the reference's normalising pass leaves in the result array, at the ideal values: point n recomputes the
  rectified second layer of batch element n, multiplies by the scale and adds the shift it was entered with, and writes
  block n of the result; the blocks tile the result.
-/
import proofs.«145259_g2000300775167955_pallasbulk_386_8_alg».proof.Proof.Gen.ReferenceIdeal.Frame
import proofs.«145259_g2000300775167955_pallasbulk_386_8_alg».proof.Proof.RefPay
import proofs.«145259_g2000300775167955_pallasbulk_386_8_alg».proof.Proof.Spec
import Idealize.ShloMosaic.Lib.Pipeline.Value
import Idealize.ShloMosaic.Lib.ValueIdx

set_option maxRecDepth 16384

noncomputable section

open scoped BigOperators

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

section Blocks
variable {F : FTy → Type} [FloatOps F]
variable (V : (c : Dev nD) → (b : Ref sig .tc) → Buf (Elt F) ((c : Thread nD τ).loc b))

theorem ohz2 : (![0, 0] : Fin 2 → Nat) = fun _ => 0 := funext fun a => by fin_cases a <;> rfl
theorem ohz3 : (![0, 0, 0] : Fin 3 → Nat) = fun _ => 0 := funext fun a => by fin_cases a <;> rfl

theorem olt1 (t : Fin cfg1.N) : t.val < 128 := lt_of_lt_of_eq t.isLt (show cfg1.N = 128 from N_1)

theorem oidx1_0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)
theorem oidx1_7 : ∀ t : Fin cfg1.N, win1_7.index t (0 : Fin 3) = t.val ∧ win1_7.index t (1 : Fin 3) = 0 ∧ win1_7.index t (2 : Fin 3) = 0 :=
  (by decide +kernel : ∀ t : Fin grid1.N, win1_7.index t (0 : Fin 3) = t.val ∧ win1_7.index t (1 : Fin 3) = 0 ∧ win1_7.index t (2 : Fin 3) = 0)
theorem oidx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem oidx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem oidx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem oidx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem oidx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem oidx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- The block of x at point t is batch element t. -/
theorem oblk1_0_apply (c : Dev nD) (t : Fin cfg1.N) (ch : Fin 4) (l : Fin 16384) :
    (iblk1 V c 0 t : S1x4x16384.Idx → Elt F .f32) (ix3 (0 : Fin 1) ch l) = (V c main_arg0 : S128x4x16384.Idx → Elt F .f32) (ix3 (⟨t.val, olt1 t⟩ : Fin 128) ch l) := by
  have hi := oidx1_0 t
  unfold iblk1
  rw [View.read_apply]
  show V c main_arg0 _ = V c main_arg0 _
  congr 1
  funext a
  apply Fin.ext
  match a with
  | ⟨0, _⟩ => show win1_0.index t (0 : Fin 3) * 1 + 1 * 0 = t.val; rw [hi.1]; omega
  | ⟨1, _⟩ => show win1_0.index t (1 : Fin 3) * 4 + 1 * ch.val = ch.val; rw [hi.2.1]; omega
  | ⟨2, _⟩ => show win1_0.index t (2 : Fin 3) * 16384 + 1 * l.val = l.val; rw [hi.2.2]; omega

/-- Window 1 of the normalising pass is its whole array at every point. -/
theorem oblk1_1_eq (c : Dev nD) (t : Fin cfg1.N) : (iblk1 V c 1 t : S64x1.Idx → Elt F _) = V c main_v14 := by
  have hi : win1_1.index t (0 : Fin 2) = 0 ∧ win1_1.index t (1 : Fin 2) = 0 := oidx1_1 t
  funext y
  unfold iblk1
  rw [View.read_apply]
  show V c main_v14 _ = V c main_v14 y
  congr 1
  funext a
  apply Fin.ext
  match a with
  | ⟨0, _⟩ => show win1_1.index t (0 : Fin 2) * 64 + 1 * (y 0).val = (y 0).val; rw [hi.1]; omega
  | ⟨1, _⟩ => show win1_1.index t (1 : Fin 2) * 1 + 1 * (y 1).val = (y 1).val; rw [hi.2]; omega

/-- Window 2 of the normalising pass is its whole array at every point. -/
theorem oblk1_2_eq (c : Dev nD) (t : Fin cfg1.N) : (iblk1 V c 2 t : S64x1.Idx → Elt F _) = V c main_v16 := by
  have hi : win1_2.index t (0 : Fin 2) = 0 ∧ win1_2.index t (1 : Fin 2) = 0 := oidx1_2 t
  funext y
  unfold iblk1
  rw [View.read_apply]
  show V c main_v16 _ = V c main_v16 y
  congr 1
  funext a
  apply Fin.ext
  match a with
  | ⟨0, _⟩ => show win1_2.index t (0 : Fin 2) * 64 + 1 * (y 0).val = (y 0).val; rw [hi.1]; omega
  | ⟨1, _⟩ => show win1_2.index t (1 : Fin 2) * 1 + 1 * (y 1).val = (y 1).val; rw [hi.2]; omega

/-- Window 3 of the normalising pass is its whole array at every point. -/
theorem oblk1_3_eq (c : Dev nD) (t : Fin cfg1.N) : (iblk1 V c 3 t : S32x4.Idx → Elt F _) = V c main_arg1 := by
  have hi : win1_3.index t (0 : Fin 2) = 0 ∧ win1_3.index t (1 : Fin 2) = 0 := oidx1_3 t
  funext y
  unfold iblk1
  rw [View.read_apply]
  show V c main_arg1 _ = V c main_arg1 y
  congr 1
  funext a
  apply Fin.ext
  match a with
  | ⟨0, _⟩ => show win1_3.index t (0 : Fin 2) * 32 + 1 * (y 0).val = (y 0).val; rw [hi.1]; omega
  | ⟨1, _⟩ => show win1_3.index t (1 : Fin 2) * 4 + 1 * (y 1).val = (y 1).val; rw [hi.2]; omega

/-- Window 4 of the normalising pass is its whole array at every point. -/
theorem oblk1_4_eq (c : Dev nD) (t : Fin cfg1.N) : (iblk1 V c 4 t : S32x1.Idx → Elt F _) = V c main_arg2 := by
  have hi : win1_4.index t (0 : Fin 2) = 0 ∧ win1_4.index t (1 : Fin 2) = 0 := oidx1_4 t
  funext y
  unfold iblk1
  rw [View.read_apply]
  show V c main_arg2 _ = V c main_arg2 y
  congr 1
  funext a
  apply Fin.ext
  match a with
  | ⟨0, _⟩ => show win1_4.index t (0 : Fin 2) * 32 + 1 * (y 0).val = (y 0).val; rw [hi.1]; omega
  | ⟨1, _⟩ => show win1_4.index t (1 : Fin 2) * 1 + 1 * (y 1).val = (y 1).val; rw [hi.2]; omega

/-- Window 5 of the normalising pass is its whole array at every point. -/
theorem oblk1_5_eq (c : Dev nD) (t : Fin cfg1.N) : (iblk1 V c 5 t : S64x32.Idx → Elt F _) = V c main_arg3 := by
  have hi : win1_5.index t (0 : Fin 2) = 0 ∧ win1_5.index t (1 : Fin 2) = 0 := oidx1_5 t
  funext y
  unfold iblk1
  rw [View.read_apply]
  show V c main_arg3 _ = V c main_arg3 y
  congr 1
  funext a
  apply Fin.ext
  match a with
  | ⟨0, _⟩ => show win1_5.index t (0 : Fin 2) * 64 + 1 * (y 0).val = (y 0).val; rw [hi.1]; omega
  | ⟨1, _⟩ => show win1_5.index t (1 : Fin 2) * 32 + 1 * (y 1).val = (y 1).val; rw [hi.2]; omega

/-- Window 6 of the normalising pass is its whole array at every point. -/
theorem oblk1_6_eq (c : Dev nD) (t : Fin cfg1.N) : (iblk1 V c 6 t : S64x1.Idx → Elt F _) = V c main_arg4 := by
  have hi : win1_6.index t (0 : Fin 2) = 0 ∧ win1_6.index t (1 : Fin 2) = 0 := oidx1_6 t
  funext y
  unfold iblk1
  rw [View.read_apply]
  show V c main_arg4 _ = V c main_arg4 y
  congr 1
  funext a
  apply Fin.ext
  match a with
  | ⟨0, _⟩ => show win1_6.index t (0 : Fin 2) * 64 + 1 * (y 0).val = (y 0).val; rw [hi.1]; omega
  | ⟨1, _⟩ => show win1_6.index t (1 : Fin 2) * 1 + 1 * (y 1).val = (y 1).val; rw [hi.2]; omega

/-- The output block is the stored payload: a store of the whole block, loads of whole buffers. -/
theorem out1_7_eq (x0 : Vec F S1x4x16384 .f32) (x1 x2 : Vec F S64x1 .f32) (x3 : Vec F S32x4 .f32) (x4 : Vec F S32x1 .f32) (x5 : Vec F S64x32 .f32) (x6 : Vec F S64x1 .f32) :
    out1_7 x0 x1 x2 x3 x4 x5 x6 = k1_pay1 x0 x3 x4 x5 x6 x1 x2 := by
  unfold out1_7
  rw [View.canon_unit_zero ohz3]
  simp only [View.ld_unit_zero (S := S1x4x16384) ohz3, View.ld_unit_zero (S := S32x4) ohz2, View.ld_unit_zero (S := S32x1) ohz2, View.ld_unit_zero (S := S64x32) ohz2, View.ld_unit_zero (S := S64x1) ohz2]

end Blocks

/-- On a block that is batch element n of x, the block's two layers are the specification's at n. -/
theorem g2_of_batch (x : Cert.Spec.SX.Idx → EReal) (w0 : Cert.Spec.SW0.Idx → EReal) (b0 : Cert.Spec.SB0.Idx → EReal) (w1 : Cert.Spec.SW1.Idx → EReal)
    (b1 : Cert.Spec.SC.Idx → EReal) (n : Fin 128) (x0 : S1x4x16384.Idx → EReal)
    (hx : ∀ (ch : Fin 4) (l : Fin 16384), x0 (ix3 (0 : Fin 1) ch l) = x (ix3 n ch l)) (o : Fin 64) (l : Fin 16384) :
    g2 x0 w0 b0 w1 b1 o l = Cert.Spec.h2 x w0 b0 w1 b1 n o l := by
  unfold g2 g1 Cert.Spec.h2 Cert.Spec.h1
  simp only [hx]

variable (m : (ℓ : Loc nD τ sig) → Buf (Elt Ideal) ℓ) (ρ : Dev nD → PrngReg) (c : Dev nD)

/-! ## The arguments, as the specification's arrays, and as the normalising pass finds them -/

abbrev rx : Cert.Spec.SX.Idx → EReal := m ((c : Thread nD τ).loc main_arg0)
abbrev rw0 : Cert.Spec.SW0.Idx → EReal := m ((c : Thread nD τ).loc main_arg1)
abbrev rb0 : Cert.Spec.SB0.Idx → EReal := m ((c : Thread nD τ).loc main_arg2)
abbrev rw1 : Cert.Spec.SW1.Idx → EReal := m ((c : Thread nD τ).loc main_arg3)
abbrev rb1 : Cert.Spec.SC.Idx → EReal := m ((c : Thread nD τ).loc main_arg4)

theorem V2_main_arg0 : Gen.V2 m ρ c main_arg0 = m ((c : Thread nD τ).loc main_arg0) :=
  calc Gen.W2 m ρ c (Proc.devRef .tc main_arg0)
    _ = Gen.W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg0) := (Gen.W1_arr m ρ c 0).trans (((Gen.dat0 (Gen.V0 m ρ) c).arrAt_in 0 rfl _).trans (Gen.A_eq0 (Gen.V0 m ρ) c 0))
    _ = m ((c : Thread nD τ).loc main_arg0) := rfl
theorem V2_main_arg1 : Gen.V2 m ρ c main_arg1 = m ((c : Thread nD τ).loc main_arg1) :=
  calc Gen.W2 m ρ c (Proc.devRef .tc main_arg1)
    _ = Gen.W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg1) := (Gen.W1_arr m ρ c 1).trans (((Gen.dat0 (Gen.V0 m ρ) c).arrAt_in 1 rfl _).trans (Gen.A_eq0 (Gen.V0 m ρ) c 1))
    _ = m ((c : Thread nD τ).loc main_arg1) := rfl
theorem V2_main_arg2 : Gen.V2 m ρ c main_arg2 = m ((c : Thread nD τ).loc main_arg2) :=
  calc Gen.W2 m ρ c (Proc.devRef .tc main_arg2)
    _ = Gen.W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg2) := (Gen.W1_arr m ρ c 2).trans (((Gen.dat0 (Gen.V0 m ρ) c).arrAt_in 2 rfl _).trans (Gen.A_eq0 (Gen.V0 m ρ) c 2))
    _ = m ((c : Thread nD τ).loc main_arg2) := rfl
theorem V2_main_arg3 : Gen.V2 m ρ c main_arg3 = m ((c : Thread nD τ).loc main_arg3) :=
  calc Gen.W2 m ρ c (Proc.devRef .tc main_arg3)
    _ = Gen.W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg3) := (Gen.W1_arr m ρ c 3).trans (((Gen.dat0 (Gen.V0 m ρ) c).arrAt_in 3 rfl _).trans (Gen.A_eq0 (Gen.V0 m ρ) c 3))
    _ = m ((c : Thread nD τ).loc main_arg3) := rfl
theorem V2_main_arg4 : Gen.V2 m ρ c main_arg4 = m ((c : Thread nD τ).loc main_arg4) :=
  calc Gen.W2 m ρ c (Proc.devRef .tc main_arg4)
    _ = Gen.W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg4) := (Gen.W1_arr m ρ c 4).trans (((Gen.dat0 (Gen.V0 m ρ) c).arrAt_in 4 rfl _).trans (Gen.A_eq0 (Gen.V0 m ρ) c 4))
    _ = m ((c : Thread nD τ).loc main_arg4) := rfl

/-! ## The result array -/

/-- The result for the scale and shift the pass was entered with. -/
abbrev G7 : S128x64x16384.Idx → EReal :=
  Cert.Spec.Y (rx m c) (rw0 m c) (rb0 m c) (rw1 m c) (rb1 m c) (Gen.V2 m ρ c main_v14) (Gen.V2 m ρ c main_v16)

theorem mem_blk7 (t : Fin cfg1.N) (i : S128x64x16384.Idx) :
    i ∈ ((cfg1.win 7).blk t).view.set ↔ ∀ a : Fin 3, win1_7.index t a * S1x64x16384.size a ≤ (i a).val ∧ (i a).val < win1_7.index t a * S1x64x16384.size a + S1x64x16384.size a := by
  show i ∈ ((View.whole main_v17).slice (win1_7.rect t)).set ↔ _
  rw [View.set_slice_whole, Rect.mem_set_unit]
  exact Iff.rfl

/-- What point t writes back is block t of the result. -/
theorem flushed7_eq (t : Fin cfg1.N) :
    (Gen.dat1 (Gen.V2 m ρ) c).flushed 7 t = ((cfg1.win 7).blk t).view.read (Elt Ideal) (G7 m ρ c) := by
  have hidx := oidx1_7 t
  show (cfg1.win 7).cut (grid1.coords t) ((Gen.dat1 (Gen.V2 m ρ) c).after 7 t) = _
  rw [Gen.after1_7, out1_7_eq]
  funext y
  rw [View.read_apply]
  obtain ⟨o, l, rfl⟩ : ∃ (o : Fin 64) (l : Fin 16384), y = ix3 (0 : Fin 1) o l := ⟨y 1, y 2, by
    funext a
    match a with
    | ⟨0, _⟩ => exact Fin.ext (by show (y 0).val = 0; have h : (y 0).val < 1 := (y 0).isLt; omega)
    | ⟨1, _⟩ => rfl
    | ⟨2, _⟩ => rfl⟩
  show k1_pay1 (iblk1 (Gen.V2 m ρ) c 0 t) (iblk1 (Gen.V2 m ρ) c 3 t) (iblk1 (Gen.V2 m ρ) c 4 t) (iblk1 (Gen.V2 m ρ) c 5 t) (iblk1 (Gen.V2 m ρ) c 6 t) (iblk1 (Gen.V2 m ρ) c 1 t) (iblk1 (Gen.V2 m ρ) c 2 t) (ix3 (0 : Fin 1) o l)
    = G7 m ρ c (((cfg1.win 7).blk t).view.emb (ix3 (0 : Fin 1) o l))
  rw [pay_norm_apply, oblk1_1_eq (Gen.V2 m ρ) c t, oblk1_2_eq (Gen.V2 m ρ) c t, oblk1_3_eq (Gen.V2 m ρ) c t, oblk1_4_eq (Gen.V2 m ρ) c t, oblk1_5_eq (Gen.V2 m ρ) c t, oblk1_6_eq (Gen.V2 m ρ) c t,
    V2_main_arg1, V2_main_arg2, V2_main_arg3, V2_main_arg4,
    g2_of_batch (rx m c) (rw0 m c) (rb0 m c) (rw1 m c) (rb1 m c) ⟨t.val, olt1 t⟩ _ (fun ch l => by rw [oblk1_0_apply (Gen.V2 m ρ) c t ch l, V2_main_arg0]) o l]
  have e0 : (((cfg1.win 7).blk t).view.emb (ix3 (0 : Fin 1) o l)) 0 = (⟨t.val, olt1 t⟩ : Fin 128) :=
    Fin.ext (show win1_7.index t (0 : Fin 3) * 1 + 1 * 0 = t.val by rw [hidx.1]; omega)
  have e1 : (((cfg1.win 7).blk t).view.emb (ix3 (0 : Fin 1) o l)) 1 = o :=
    Fin.ext (show win1_7.index t (1 : Fin 3) * 64 + 1 * o.val = o.val by rw [hidx.2.1]; omega)
  have e2 : (((cfg1.win 7).blk t).view.emb (ix3 (0 : Fin 1) o l)) 2 = l :=
    Fin.ext (show win1_7.index t (2 : Fin 3) * 16384 + 1 * l.val = l.val by rw [hidx.2.2]; omega)
  unfold G7 Cert.Spec.Y
  rw [e0, e1, e2]

/-- Every entry of the result is in its batch element's block. -/
theorem cover7 (i : S128x64x16384.Idx) : ∃ t : Fin cfg1.N, (cfg1.win 7).flush t = true ∧ i ∈ ((cfg1.win 7).blk t).view.set := by
  have hi0 : (i 0).val < 128 := (i 0).isLt
  have hi1 : (i 1).val < 64 := (i 1).isLt
  have hi2 : (i 2).val < 16384 := (i 2).isLt
  have hlt : (i 0).val < cfg1.N := by rw [show cfg1.N = 128 from N_1]; exact hi0
  refine ⟨⟨(i 0).val, hlt⟩, flush1_7 _, ?_⟩
  rw [mem_blk7]
  have hidx := oidx1_7 ⟨(i 0).val, hlt⟩
  intro a
  match a with
  | ⟨0, _⟩ => show win1_7.index _ (0 : Fin 3) * 1 ≤ (i 0).val ∧ (i 0).val < win1_7.index _ (0 : Fin 3) * 1 + 1; rw [hidx.1]; show (i 0).val * 1 ≤ _ ∧ _ < (i 0).val * 1 + 1; omega
  | ⟨1, _⟩ => show win1_7.index _ (1 : Fin 3) * 64 ≤ (i 1).val ∧ (i 1).val < win1_7.index _ (1 : Fin 3) * 64 + 64; rw [hidx.2.1]; omega
  | ⟨2, _⟩ => show win1_7.index _ (2 : Fin 3) * 16384 ≤ (i 2).val ∧ (i 2).val < win1_7.index _ (2 : Fin 3) * 16384 + 16384; rw [hidx.2.2]; omega

theorem final7 : (Gen.dat1 (Gen.V2 m ρ) c).arrAt 7 cfg1.N = G7 m ρ c :=
  (Gen.dat1 (Gen.V2 m ρ) c).arrAt_eq_of_cover 7 (G7 m ρ c) (fun t _ => flushed7_eq m ρ c t) cover7

/-- The result array after the run, for the scale and shift the normalising pass was entered with. -/
theorem W3_v17 : (Gen.W3 m ρ c (Proc.devRef .tc main_v17) : S128x64x16384.Idx → EReal) = G7 m ρ c :=
  (Gen.W3_arr m ρ c 7).trans (final7 m ρ c)

end Cert.ReferenceIdeal.Hand

end
-- ==== Proof.RefHostSum.lean ====
/-
  The host's sum of a [128, 1, 64, 1] array over its two leading axes, read at an index.

  An entry (n, a, o, d) of the array reduces to entry (o, d) of the [64, 1] result; the unit axes leave one
  choice for a and d, so the entries that reduce to (o, 0) are exactly (n, 0, o, 0) for the 128 values of n,
  and the host's sum there is the initial value plus the sum over n.
-/
import Idealize.ShloMosaic.Lib.ValueIdx
import Idealize.ShloMosaic.Lib.IdealHost
import Idealize.ShloMosaic.PureOps.Ideal.Laws

noncomputable section

open scoped BigOperators

namespace Cert.ReferenceIdeal.Hand

open Idealize.ShloMosaic Idealize.ShloMosaic.ValueIdx

theorem hostSum2 (x : (⟨4, ![128, 1, 64, 1]⟩ : Shape).Idx → EReal)
    (h : (⟨4, ![128, 1, 64, 1]⟩ : Shape).ReducesTo [0, 1] ⟨2, ![64, 1]⟩) (init : EReal) (o : Fin 64) :
    Ideal.hostReduceAdd h x init (ix2 o (0 : Fin 1)) = init + ∑ n : Fin 128, x (ix4 n (0 : Fin 1) o (0 : Fin 1)) := by
  unfold Ideal.hostReduceAdd
  refine congrArg (init + ·) (Eq.symm ?_)
  refine Finset.sum_bij (fun n _ => ix4 n (0 : Fin 1) o (0 : Fin 1)) ?_ ?_ ?_ ?_
  · intro n _
    refine Finset.mem_filter.mpr ⟨Finset.mem_univ _, funext fun b => Fin.ext ?_⟩
    match b with
    | ⟨0, _⟩ => rfl
    | ⟨1, _⟩ => rfl
  · intro n _ n' _ hnn
    exact congrFun hnn 0
  · intro i hi
    obtain ⟨a, b, o', d, rfl⟩ : ∃ (a : Fin 128) (b : Fin 1) (o' : Fin 64) (d : Fin 1), i = ix4 a b o' d :=
      ⟨i 0, i 1, i 2, i 3, eq_ix4 i⟩
    have hd := (Finset.mem_filter.mp hi).2
    have ho : o' = o := Fin.ext (congrArg Fin.val (congrFun hd 0))
    obtain rfl : b = 0 := Subsingleton.elim _ _
    obtain rfl : d = 0 := Subsingleton.elim _ _
    subst ho
    exact ⟨a, Finset.mem_univ _, rfl⟩
  · intro n _
    rfl

end Cert.ReferenceIdeal.Hand

end
-- ==== Proof.RefFold.lean ====
/-
  The host operations between the two kernel regions, read off any buffer contents.

  From the two [128, 1, 64, 1] arrays of per-batch-element sums the host forms the per-channel sums S and Q
  (each array summed over its two leading axes, from zero) and applies the batch-norm fold to them with the
  arguments gamma and beta. Whatever the buffers hold before the stretch, the scale buffer ends holding the
  fold's scale of those two sums and gamma, the shift buffer its shift of them, gamma and beta.
-/
import Idealize.ShloMosaic.Lib.StableHlo.Run
import proofs.«145259_g2000300775167955_pallasbulk_386_8_alg».proof.Proof.Gen.ReferenceIdeal.Launch
import proofs.«145259_g2000300775167955_pallasbulk_386_8_alg».proof.Proof.Tail

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen

set_option maxHeartbeats 1000000 in
/-- After the host stretch the scale buffer holds the fold's scale of the two summed arrays and gamma. -/
theorem fold_v14 (X : Valuation τ sig (Elt Ideal)) :
    (StableHlo.after (hostOps1 (F := Ideal)) X (Proc.devRef .tc main_v14) : S64x1.Idx → EReal)
      = Cert.Tail.scaleOf bcast_S_S64x1
          (Host.reduceAdd (F := Ideal) (X (Proc.devRef .tc main_v0_0)) (constant (F := Ideal) S_ .f32 0x00000000#32) reducesTo_S128x1x64x1_S64x1_d0_1 h_S_)
          (Host.reduceAdd (F := Ideal) (X (Proc.devRef .tc main_v0_1)) (constant (F := Ideal) S_ .f32 0x00000000#32) reducesTo_S128x1x64x1_S64x1_d0_1 h_S_)
          (X (Proc.devRef .tc main_arg5)) := by
  dsimp only [hostOps1]
  after_results_simp
  rfl

set_option maxHeartbeats 1000000 in
/-- After the host stretch the shift buffer holds the fold's shift of the two summed arrays, gamma and beta. -/
theorem fold_v16 (X : Valuation τ sig (Elt Ideal)) :
    (StableHlo.after (hostOps1 (F := Ideal)) X (Proc.devRef .tc main_v16) : S64x1.Idx → EReal)
      = Cert.Tail.shiftOf bcast_S_S64x1
          (Host.reduceAdd (F := Ideal) (X (Proc.devRef .tc main_v0_0)) (constant (F := Ideal) S_ .f32 0x00000000#32) reducesTo_S128x1x64x1_S64x1_d0_1 h_S_)
          (Host.reduceAdd (F := Ideal) (X (Proc.devRef .tc main_v0_1)) (constant (F := Ideal) S_ .f32 0x00000000#32) reducesTo_S128x1x64x1_S64x1_d0_1 h_S_)
          (X (Proc.devRef .tc main_arg5)) (X (Proc.devRef .tc main_arg6)) := by
  dsimp only [hostOps1]
  after_results_simp
  rfl

end Cert.ReferenceIdeal.Hand

end
-- ==== Proof.RefStats.lean ====
/-
  The statistics kernel's two result arrays, entry by entry, and the per-channel scale and shift the host
  operations fold them into.

  Grid point t of the first region works on batch element t: its input block is x(t, ·, ·), the weights are
  staged whole, and it writes row t of each of the two [128, 1, 64, 1] arrays: the sums over the points of
  h2(t, o, ·) and of its square. The 128 points' rows tile the arrays, so each array is one function of the
  arguments. The host then sums the rows over the batch and applies the batch-norm fold.
-/
import Idealize.ShloMosaic.Lib.ValueIdx
import Idealize.ShloMosaic.Lib.Pipeline.Value
import Idealize.ShloMosaic.Lib.IdealHost
import proofs.«145259_g2000300775167955_pallasbulk_386_8_alg».proof.Proof.Gen.ReferenceIdeal.Frame
import proofs.«145259_g2000300775167955_pallasbulk_386_8_alg».proof.Proof.RefPay
import proofs.«145259_g2000300775167955_pallasbulk_386_8_alg».proof.Proof.RefHostSum
import proofs.«145259_g2000300775167955_pallasbulk_386_8_alg».proof.Proof.RefFold
import proofs.«145259_g2000300775167955_pallasbulk_386_8_alg».proof.Proof.Spec
import proofs.«145259_g2000300775167955_pallasbulk_386_8_alg».proof.Proof.Tail

set_option maxRecDepth 16384

noncomputable section

open scoped BigOperators

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-! ## The index maps of the first region, decided over its grid -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem idx0_6 : ∀ t : Fin cfg0.N, win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)

/-! ## The input blocks -/

/-- The first window's block at point t is batch element t of x: entry (0, c, l) is x(t, c, l). -/
theorem blk0_0 (c : Dev nD) (t : Fin cfg0.N) (y : S1x4x16384.Idx) (k : Spec.SX.Idx)
    (hk0 : (k 0).val = t.val) (hk1 : (k 1).val = (y 1).val) (hk2 : (k 2).val = (y 2).val) :
    (iblk0 (V0 m ρ) c 0 t : Vec Ideal S1x4x16384 .f32) y = (m ((c.tc : Thread nD τ).loc main_arg0) : Spec.SX.Idx → EReal) k := by
  obtain ⟨e0, e1, e2⟩ := idx0_0 t
  unfold iblk0
  rw [View.read_apply]
  refine congrArg (m ((c.tc : Thread nD τ).loc main_arg0) : Spec.SX.Idx → EReal) (funext fun a => Fin.ext ?_)
  have h0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 4 + 1 * (y 1).val = (k 1).val; rw [e1, hk1]; omega
  | ⟨2, _⟩ => show win0_0.index t (2 : Fin 3) * 16384 + 1 * (y 2).val = (k 2).val; rw [e2, hk2]; omega

/-- Window 1 of region 0 stages its whole array: its block at any point is the array. -/
theorem blk0_1 (c : Dev nD) (t : Fin cfg0.N) (A : S32x4.Idx → EReal) (hA : (V0 m ρ c main_arg1 : S32x4.Idx → EReal) = A) :
    (iblk0 (V0 m ρ) c 1 t : Vec Ideal S32x4 .f32) = A := by
  obtain ⟨e0, e1⟩ := idx0_1 t
  funext y
  unfold iblk0
  rw [View.read_apply, ← hA]
  refine congrArg (V0 m ρ c main_arg1 : S32x4.Idx → EReal) (funext fun a => Fin.ext ?_)
  match a with
  | ⟨0, _⟩ => show win0_1.index t (0 : Fin 2) * 32 + 1 * (y 0).val = (y 0).val; rw [e0]; omega
  | ⟨1, _⟩ => show win0_1.index t (1 : Fin 2) * 4 + 1 * (y 1).val = (y 1).val; rw [e1]; omega

/-- Window 2 of region 0 stages its whole array: its block at any point is the array. -/
theorem blk0_2 (c : Dev nD) (t : Fin cfg0.N) (A : S32x1.Idx → EReal) (hA : (V0 m ρ c main_arg2 : S32x1.Idx → EReal) = A) :
    (iblk0 (V0 m ρ) c 2 t : Vec Ideal S32x1 .f32) = A := by
  obtain ⟨e0, e1⟩ := idx0_2 t
  funext y
  unfold iblk0
  rw [View.read_apply, ← hA]
  refine congrArg (V0 m ρ c main_arg2 : S32x1.Idx → EReal) (funext fun a => Fin.ext ?_)
  match a with
  | ⟨0, _⟩ => show win0_2.index t (0 : Fin 2) * 32 + 1 * (y 0).val = (y 0).val; rw [e0]; omega
  | ⟨1, _⟩ => show win0_2.index t (1 : Fin 2) * 1 + 1 * (y 1).val = (y 1).val; rw [e1]; omega

/-- Window 3 of region 0 stages its whole array: its block at any point is the array. -/
theorem blk0_3 (c : Dev nD) (t : Fin cfg0.N) (A : S64x32.Idx → EReal) (hA : (V0 m ρ c main_arg3 : S64x32.Idx → EReal) = A) :
    (iblk0 (V0 m ρ) c 3 t : Vec Ideal S64x32 .f32) = A := by
  obtain ⟨e0, e1⟩ := idx0_3 t
  funext y
  unfold iblk0
  rw [View.read_apply, ← hA]
  refine congrArg (V0 m ρ c main_arg3 : S64x32.Idx → EReal) (funext fun a => Fin.ext ?_)
  match a with
  | ⟨0, _⟩ => show win0_3.index t (0 : Fin 2) * 64 + 1 * (y 0).val = (y 0).val; rw [e0]; omega
  | ⟨1, _⟩ => show win0_3.index t (1 : Fin 2) * 32 + 1 * (y 1).val = (y 1).val; rw [e1]; omega

/-- Window 4 of region 0 stages its whole array: its block at any point is the array. -/
theorem blk0_4 (c : Dev nD) (t : Fin cfg0.N) (A : S64x1.Idx → EReal) (hA : (V0 m ρ c main_arg4 : S64x1.Idx → EReal) = A) :
    (iblk0 (V0 m ρ) c 4 t : Vec Ideal S64x1 .f32) = A := by
  obtain ⟨e0, e1⟩ := idx0_4 t
  funext y
  unfold iblk0
  rw [View.read_apply, ← hA]
  refine congrArg (V0 m ρ c main_arg4 : S64x1.Idx → EReal) (funext fun a => Fin.ext ?_)
  match a with
  | ⟨0, _⟩ => show win0_4.index t (0 : Fin 2) * 64 + 1 * (y 0).val = (y 0).val; rw [e0]; omega
  | ⟨1, _⟩ => show win0_4.index t (1 : Fin 2) * 1 + 1 * (y 1).val = (y 1).val; rw [e1]; omega

/-! ## The arguments, and the two result arrays as functions of them -/

abbrev argX (c : Dev nD) : Spec.SX.Idx → EReal := m ((c.tc : Thread nD τ).loc main_arg0)
abbrev argW0 (c : Dev nD) : Spec.SW0.Idx → EReal := m ((c.tc : Thread nD τ).loc main_arg1)
abbrev argB0 (c : Dev nD) : Spec.SB0.Idx → EReal := m ((c.tc : Thread nD τ).loc main_arg2)
abbrev argW1 (c : Dev nD) : Spec.SW1.Idx → EReal := m ((c.tc : Thread nD τ).loc main_arg3)
abbrev argB1 (c : Dev nD) : Spec.SC.Idx → EReal := m ((c.tc : Thread nD τ).loc main_arg4)
abbrev argGamma (c : Dev nD) : Spec.SC.Idx → EReal := m ((c.tc : Thread nD τ).loc main_arg5)
abbrev argBeta (c : Dev nD) : Spec.SC.Idx → EReal := m ((c.tc : Thread nD τ).loc main_arg6)

/-- The per-batch-element sums as a [128, 1, 64, 1] array: entry (n, 0, o, 0) is the sum of channel o over batch element n. -/
def GS (x : Spec.SX.Idx → EReal) (w0 : Spec.SW0.Idx → EReal) (b0 : Spec.SB0.Idx → EReal) (w1 : Spec.SW1.Idx → EReal)
    (b1 : Spec.SC.Idx → EReal) : S128x1x64x1.Idx → EReal := fun i => Spec.rowSum x w0 b0 w1 b1 (i 0) (i 2)

/-- The per-batch-element sums of squares as a [128, 1, 64, 1] array. -/
def GQ (x : Spec.SX.Idx → EReal) (w0 : Spec.SW0.Idx → EReal) (b0 : Spec.SB0.Idx → EReal) (w1 : Spec.SW1.Idx → EReal)
    (b1 : Spec.SC.Idx → EReal) : S128x1x64x1.Idx → EReal := fun i => Spec.rowSq x w0 b0 w1 b1 (i 0) (i 2)

/-- On the block of batch element n the two layers are the specification's at n. -/
theorem g2_of_block (x : Spec.SX.Idx → EReal) (w0 : Spec.SW0.Idx → EReal) (b0 : Spec.SB0.Idx → EReal) (w1 : Spec.SW1.Idx → EReal)
    (b1 : Spec.SC.Idx → EReal) (n : Fin 128) (x0 : S1x4x16384.Idx → EReal) (h0 : ∀ y, x0 y = x (ix3 n (y 1) (y 2)))
    (o : Fin 64) (l : Fin 16384) : g2 x0 w0 b0 w1 b1 o l = Spec.h2 x w0 b0 w1 b1 n o l := by
  obtain rfl : x0 = fun y => x (ix3 n (y 1) (y 2)) := funext h0
  rfl

/-- The first stored block, on the blocks of batch element n, is row n of the sums. -/
theorem sum_at (x : Spec.SX.Idx → EReal) (w0 : Spec.SW0.Idx → EReal) (b0 : Spec.SB0.Idx → EReal) (w1 : Spec.SW1.Idx → EReal)
    (b1 : Spec.SC.Idx → EReal) (n : Fin 128) (x0 : Vec Ideal S1x4x16384 .f32) (v1 : Vec Ideal S32x4 .f32) (v2 : Vec Ideal S32x1 .f32)
    (v3 : Vec Ideal S64x32 .f32) (v4 : Vec Ideal S64x1 .f32) (h0 : ∀ y, x0 y = x (ix3 n (y 1) (y 2)))
    (h1 : v1 = w0) (h2 : v2 = b0) (h3 : v3 = w1) (h4 : v4 = b1) (y : S1x1x64x1.Idx) :
    k0_pay2 (F := Ideal) x0 v1 v2 v3 v4 y = GS x w0 b0 w1 b1 (ix4 n (0 : Fin 1) (y 2 : Fin 64) (0 : Fin 1)) := by
  subst h1 h2 h3 h4
  obtain ⟨a, b, o, d, rfl⟩ : ∃ (a : Fin 1) (b : Fin 1) (o : Fin 64) (d : Fin 1), y = ix4 a b o d :=
    ⟨y 0, y 1, y 2, y 3, eq_ix4 y⟩
  obtain rfl : a = 0 := Subsingleton.elim _ _
  obtain rfl : b = 0 := Subsingleton.elim _ _
  obtain rfl : d = 0 := Subsingleton.elim _ _
  rw [pay2_apply]
  show _ = Spec.rowSum x v1 v2 v3 v4 n o
  exact Finset.sum_congr rfl fun l _ => g2_of_block x v1 v2 v3 v4 n x0 h0 o l
/-- The second stored block, on the blocks of batch element n, is row n of the sums of squares. -/
theorem sq_at (x : Spec.SX.Idx → EReal) (w0 : Spec.SW0.Idx → EReal) (b0 : Spec.SB0.Idx → EReal) (w1 : Spec.SW1.Idx → EReal)
    (b1 : Spec.SC.Idx → EReal) (n : Fin 128) (x0 : Vec Ideal S1x4x16384 .f32) (v1 : Vec Ideal S32x4 .f32) (v2 : Vec Ideal S32x1 .f32)
    (v3 : Vec Ideal S64x32 .f32) (v4 : Vec Ideal S64x1 .f32) (h0 : ∀ y, x0 y = x (ix3 n (y 1) (y 2)))
    (h1 : v1 = w0) (h2 : v2 = b0) (h3 : v3 = w1) (h4 : v4 = b1) (y : S1x1x64x1.Idx) :
    k0_pay3 (F := Ideal) x0 v1 v2 v3 v4 y = GQ x w0 b0 w1 b1 (ix4 n (0 : Fin 1) (y 2 : Fin 64) (0 : Fin 1)) := by
  subst h1 h2 h3 h4
  obtain ⟨a, b, o, d, rfl⟩ : ∃ (a : Fin 1) (b : Fin 1) (o : Fin 64) (d : Fin 1), y = ix4 a b o d :=
    ⟨y 0, y 1, y 2, y 3, eq_ix4 y⟩
  obtain rfl : a = 0 := Subsingleton.elim _ _
  obtain rfl : b = 0 := Subsingleton.elim _ _
  obtain rfl : d = 0 := Subsingleton.elim _ _
  rw [pay3_apply]
  show _ = Spec.rowSq x v1 v2 v3 v4 n o
  exact Finset.sum_congr rfl fun l _ => congrArg₂ (· * ·) (g2_of_block x v1 v2 v3 v4 n x0 h0 o l) (g2_of_block x v1 v2 v3 v4 n x0 h0 o l)
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## From the blocks to the arrays -/

/-- What point t writes back through window 5 is row t of the sums. -/
theorem flushed0_5 (c : Dev nD) (t : Fin cfg0.N) :
    (dat0 (V0 m ρ) c).flushed 5 t
      = ((cfg0.win 5).blk t).view.read (Elt Ideal) (GS (argX m c) (argW0 m c) (argB0 m c) (argW1 m c) (argB1 m c)) := by
  show (cfg0.win 5).cut (grid0.coords t) ((dat0 (V0 m ρ) c).after 5 t) = _
  rw [after0_5]
  unfold out0_5
  rw [View.canon_unit_zero hz4]
  simp only [View.ld_unit_zero (S := S1x4x16384) hz3, View.ld_unit_zero (S := S32x4) hz2, View.ld_unit_zero (S := S32x1) hz2,
    View.ld_unit_zero (S := S64x32) hz2, View.ld_unit_zero (S := S64x1) hz2]
  refine funext fun (y : S1x1x64x1.Idx) => ?_
  rw [View.read_apply]
  obtain ⟨e0, e1, e2, e3⟩ := idx0_5 t
  have hn : t.val < 128 := lt_of_lt_of_eq t.isLt (N_0 : cfg0.N = 128)
  have hy0 : (y 0).val < 1 := (y 0).isLt
  have hb0 : ∀ y' : S1x4x16384.Idx, (iblk0 (V0 m ρ) c 0 t : Vec Ideal S1x4x16384 .f32) y' = argX m c (ix3 (⟨t.val, hn⟩ : Fin 128) (y' 1) (y' 2)) :=
    fun y' => blk0_0 m ρ c t y' (ix3 (⟨t.val, hn⟩ : Fin 128) (y' 1) (y' 2)) rfl rfl rfl
  have hb1 : (iblk0 (V0 m ρ) c 1 t : Vec Ideal S32x4 .f32) = argW0 m c := blk0_1 m ρ c t (argW0 m c) rfl
  have hb2 : (iblk0 (V0 m ρ) c 2 t : Vec Ideal S32x1 .f32) = argB0 m c := blk0_2 m ρ c t (argB0 m c) rfl
  have hb3 : (iblk0 (V0 m ρ) c 3 t : Vec Ideal S64x32 .f32) = argW1 m c := blk0_3 m ρ c t (argW1 m c) rfl
  have hb4 : (iblk0 (V0 m ρ) c 4 t : Vec Ideal S64x1 .f32) = argB1 m c := blk0_4 m ρ c t (argB1 m c) rfl
  have key := sum_at (argX m c) (argW0 m c) (argB0 m c) (argW1 m c) (argB1 m c) (⟨t.val, hn⟩ : Fin 128)
    (iblk0 (V0 m ρ) c 0 t) (iblk0 (V0 m ρ) c 1 t) (iblk0 (V0 m ρ) c 2 t) (iblk0 (V0 m ρ) c 3 t) (iblk0 (V0 m ρ) c 4 t)
    hb0 hb1 hb2 hb3 hb4 y
  have hy1 : (y 1).val < 1 := (y 1).isLt
  have hy3 : (y 3).val < 1 := (y 3).isLt
  have hemb : ((cfg0.win 5).blk t).view.emb y
      = (ix4 (⟨t.val, hn⟩ : Fin 128) (0 : Fin 1) (y 2 : Fin 64) (0 : Fin 1) : S128x1x64x1.Idx) := by
    funext a
    apply Fin.ext
    match a with
    | ⟨0, _⟩ => show win0_5.index t (0 : Fin 4) * 1 + 1 * (y 0).val = t.val; rw [e0]; omega
    | ⟨1, _⟩ => show win0_5.index t (1 : Fin 4) * 1 + 1 * (y 1).val = 0; rw [e1]; omega
    | ⟨2, _⟩ => show win0_5.index t (2 : Fin 4) * 64 + 1 * (y 2).val = (y 2).val; rw [e2]; omega
    | ⟨3, _⟩ => show win0_5.index t (3 : Fin 4) * 1 + 1 * (y 3).val = 0; rw [e3]; omega
  generalize k0_pay2 (F := Ideal) (iblk0 (V0 m ρ) c 0 t) (iblk0 (V0 m ρ) c 1 t) (iblk0 (V0 m ρ) c 2 t) (iblk0 (V0 m ρ) c 3 t)
    (iblk0 (V0 m ρ) c 4 t) = P at key ⊢
  refine Eq.trans ?_ (cast_eq _ _).symm
  refine (show (win0 5).cut (grid0.coords t) P y = P y from rfl).trans ?_
  exact key.trans (congrArg (GS (argX m c) (argW0 m c) (argB0 m c) (argW1 m c) (argB1 m c)) hemb.symm)

/-- Every entry of the array is in the block of the point of its batch element. -/
theorem covered0_5 (i : S128x1x64x1.Idx) :
    ∃ t : Fin cfg0.N, (cfg0.win 5).flush t = true ∧ i ∈ ((cfg0.win 5).blk t).view.set := by
  have hN : cfg0.N = 128 := N_0
  have hi0 : (i 0).val < 128 := (i 0).isLt
  have hi1 : (i 1).val < 1 := (i 1).isLt
  have hi2 : (i 2).val < 64 := (i 2).isLt
  have hi3 : (i 3).val < 1 := (i 3).isLt
  obtain ⟨t, ht⟩ : ∃ t : Fin cfg0.N, t.val = (i 0).val := ⟨⟨(i 0).val, by omega⟩, rfl⟩
  obtain ⟨e0, e1, e2, e3⟩ := idx0_5 t
  refine ⟨t, flush0_5 t, ?_⟩
  show i ∈ ((View.whole main_v0_0).slice (win0_5.rect t)).set
  rw [View.set_slice_whole, Rect.mem_set_unit]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 1 ≤ (i 1).val ∧ (i 1).val < win0_5.index t (1 : Fin 4) * 1 + 1; rw [e1]; omega
  | ⟨2, _⟩ => show win0_5.index t (2 : Fin 4) * 64 ≤ (i 2).val ∧ (i 2).val < win0_5.index t (2 : Fin 4) * 64 + 64; rw [e2]; omega
  | ⟨3, _⟩ => show win0_5.index t (3 : Fin 4) * 1 ≤ (i 3).val ∧ (i 3).val < win0_5.index t (3 : Fin 4) * 1 + 1; rw [e3]; omega

/-- After the first region the array behind window 5 is the sums. -/
theorem final0_5 (c : Dev nD) :
    (dat0 (V0 m ρ) c).arrAt 5 cfg0.N = GS (argX m c) (argW0 m c) (argB0 m c) (argW1 m c) (argB1 m c) :=
  (dat0 (V0 m ρ) c).arrAt_eq_of_cover 5 (GS (argX m c) (argW0 m c) (argB0 m c) (argW1 m c) (argB1 m c))
    (fun t _ => flushed0_5 m ρ c t) covered0_5

/-- What point t writes back through window 6 is row t of the sums of squares. -/
theorem flushed0_6 (c : Dev nD) (t : Fin cfg0.N) :
    (dat0 (V0 m ρ) c).flushed 6 t
      = ((cfg0.win 6).blk t).view.read (Elt Ideal) (GQ (argX m c) (argW0 m c) (argB0 m c) (argW1 m c) (argB1 m c)) := by
  show (cfg0.win 6).cut (grid0.coords t) ((dat0 (V0 m ρ) c).after 6 t) = _
  rw [after0_6]
  unfold out0_6
  rw [View.canon_unit_zero hz4]
  simp only [View.ld_unit_zero (S := S1x4x16384) hz3, View.ld_unit_zero (S := S32x4) hz2, View.ld_unit_zero (S := S32x1) hz2,
    View.ld_unit_zero (S := S64x32) hz2, View.ld_unit_zero (S := S64x1) hz2]
  refine funext fun (y : S1x1x64x1.Idx) => ?_
  rw [View.read_apply]
  obtain ⟨e0, e1, e2, e3⟩ := idx0_6 t
  have hn : t.val < 128 := lt_of_lt_of_eq t.isLt (N_0 : cfg0.N = 128)
  have hy0 : (y 0).val < 1 := (y 0).isLt
  have hb0 : ∀ y' : S1x4x16384.Idx, (iblk0 (V0 m ρ) c 0 t : Vec Ideal S1x4x16384 .f32) y' = argX m c (ix3 (⟨t.val, hn⟩ : Fin 128) (y' 1) (y' 2)) :=
    fun y' => blk0_0 m ρ c t y' (ix3 (⟨t.val, hn⟩ : Fin 128) (y' 1) (y' 2)) rfl rfl rfl
  have hb1 : (iblk0 (V0 m ρ) c 1 t : Vec Ideal S32x4 .f32) = argW0 m c := blk0_1 m ρ c t (argW0 m c) rfl
  have hb2 : (iblk0 (V0 m ρ) c 2 t : Vec Ideal S32x1 .f32) = argB0 m c := blk0_2 m ρ c t (argB0 m c) rfl
  have hb3 : (iblk0 (V0 m ρ) c 3 t : Vec Ideal S64x32 .f32) = argW1 m c := blk0_3 m ρ c t (argW1 m c) rfl
  have hb4 : (iblk0 (V0 m ρ) c 4 t : Vec Ideal S64x1 .f32) = argB1 m c := blk0_4 m ρ c t (argB1 m c) rfl
  have key := sq_at (argX m c) (argW0 m c) (argB0 m c) (argW1 m c) (argB1 m c) (⟨t.val, hn⟩ : Fin 128)
    (iblk0 (V0 m ρ) c 0 t) (iblk0 (V0 m ρ) c 1 t) (iblk0 (V0 m ρ) c 2 t) (iblk0 (V0 m ρ) c 3 t) (iblk0 (V0 m ρ) c 4 t)
    hb0 hb1 hb2 hb3 hb4 y
  have hy1 : (y 1).val < 1 := (y 1).isLt
  have hy3 : (y 3).val < 1 := (y 3).isLt
  have hemb : ((cfg0.win 6).blk t).view.emb y
      = (ix4 (⟨t.val, hn⟩ : Fin 128) (0 : Fin 1) (y 2 : Fin 64) (0 : Fin 1) : S128x1x64x1.Idx) := by
    funext a
    apply Fin.ext
    match a with
    | ⟨0, _⟩ => show win0_6.index t (0 : Fin 4) * 1 + 1 * (y 0).val = t.val; rw [e0]; omega
    | ⟨1, _⟩ => show win0_6.index t (1 : Fin 4) * 1 + 1 * (y 1).val = 0; rw [e1]; omega
    | ⟨2, _⟩ => show win0_6.index t (2 : Fin 4) * 64 + 1 * (y 2).val = (y 2).val; rw [e2]; omega
    | ⟨3, _⟩ => show win0_6.index t (3 : Fin 4) * 1 + 1 * (y 3).val = 0; rw [e3]; omega
  generalize k0_pay3 (F := Ideal) (iblk0 (V0 m ρ) c 0 t) (iblk0 (V0 m ρ) c 1 t) (iblk0 (V0 m ρ) c 2 t) (iblk0 (V0 m ρ) c 3 t)
    (iblk0 (V0 m ρ) c 4 t) = P at key ⊢
  refine Eq.trans ?_ (cast_eq _ _).symm
  refine (show (win0 6).cut (grid0.coords t) P y = P y from rfl).trans ?_
  exact key.trans (congrArg (GQ (argX m c) (argW0 m c) (argB0 m c) (argW1 m c) (argB1 m c)) hemb.symm)

/-- Every entry of the array is in the block of the point of its batch element. -/
theorem covered0_6 (i : S128x1x64x1.Idx) :
    ∃ t : Fin cfg0.N, (cfg0.win 6).flush t = true ∧ i ∈ ((cfg0.win 6).blk t).view.set := by
  have hN : cfg0.N = 128 := N_0
  have hi0 : (i 0).val < 128 := (i 0).isLt
  have hi1 : (i 1).val < 1 := (i 1).isLt
  have hi2 : (i 2).val < 64 := (i 2).isLt
  have hi3 : (i 3).val < 1 := (i 3).isLt
  obtain ⟨t, ht⟩ : ∃ t : Fin cfg0.N, t.val = (i 0).val := ⟨⟨(i 0).val, by omega⟩, rfl⟩
  obtain ⟨e0, e1, e2, e3⟩ := idx0_6 t
  refine ⟨t, flush0_6 t, ?_⟩
  show i ∈ ((View.whole main_v0_1).slice (win0_6.rect t)).set
  rw [View.set_slice_whole, Rect.mem_set_unit]
  intro a
  match a with
  | ⟨0, _⟩ => show win0_6.index t (0 : Fin 4) * 1 ≤ (i 0).val ∧ (i 0).val < win0_6.index t (0 : Fin 4) * 1 + 1; rw [e0]; omega
  | ⟨1, _⟩ => show win0_6.index t (1 : Fin 4) * 1 ≤ (i 1).val ∧ (i 1).val < win0_6.index t (1 : Fin 4) * 1 + 1; rw [e1]; omega
  | ⟨2, _⟩ => show win0_6.index t (2 : Fin 4) * 64 ≤ (i 2).val ∧ (i 2).val < win0_6.index t (2 : Fin 4) * 64 + 64; rw [e2]; omega
  | ⟨3, _⟩ => show win0_6.index t (3 : Fin 4) * 1 ≤ (i 3).val ∧ (i 3).val < win0_6.index t (3 : Fin 4) * 1 + 1; rw [e3]; omega

/-- After the first region the array behind window 6 is the sums of squares. -/
theorem final0_6 (c : Dev nD) :
    (dat0 (V0 m ρ) c).arrAt 6 cfg0.N = GQ (argX m c) (argW0 m c) (argB0 m c) (argW1 m c) (argB1 m c) :=
  (dat0 (V0 m ρ) c).arrAt_eq_of_cover 6 (GQ (argX m c) (argW0 m c) (argB0 m c) (argW1 m c) (argB1 m c))
    (fun t _ => flushed0_6 m ρ c t) covered0_6

/-! ## The host stretch: the per-channel sums, and the scale and shift the second region is entered with -/

/-- The rows of sums, summed over the batch from zero, are the per-channel sums. -/
theorem sumS (x : Spec.SX.Idx → EReal) (w0 : Spec.SW0.Idx → EReal) (b0 : Spec.SB0.Idx → EReal) (w1 : Spec.SW1.Idx → EReal)
    (b1 : Spec.SC.Idx → EReal) :
    Host.reduceAdd (F := Ideal) (GS x w0 b0 w1 b1 : FVec Ideal S128x1x64x1 .f32) (constant (F := Ideal) S_ .f32 0x00000000#32)
        reducesTo_S128x1x64x1_S64x1_d0_1 h_S_ = Spec.statS x w0 b0 w1 b1 := by
  funext j
  obtain ⟨o, z, rfl⟩ : ∃ (o : Fin 64) (z : Fin 1), j = ix2 o z := ⟨j 0, j 1, eq_ix2 j⟩
  obtain rfl : z = 0 := Subsingleton.elim _ _
  rw [hostReduceAdd_apply]
  refine (hostSum2 _ _ _ o).trans ?_
  show Ideal.ofBits .f32 0x00000000#32 + _ = ∑ n : Fin 128, Spec.rowSum x w0 b0 w1 b1 n o
  rw [Ideal.ofBits_zero_f32, zero_add]
  exact Finset.sum_congr rfl fun n _ => rfl

/-- The rows of sums of squares, summed over the batch from zero, are the per-channel sums of squares. -/
theorem sumQ (x : Spec.SX.Idx → EReal) (w0 : Spec.SW0.Idx → EReal) (b0 : Spec.SB0.Idx → EReal) (w1 : Spec.SW1.Idx → EReal)
    (b1 : Spec.SC.Idx → EReal) :
    Host.reduceAdd (F := Ideal) (GQ x w0 b0 w1 b1 : FVec Ideal S128x1x64x1 .f32) (constant (F := Ideal) S_ .f32 0x00000000#32)
        reducesTo_S128x1x64x1_S64x1_d0_1 h_S_ = Spec.statQ x w0 b0 w1 b1 := by
  funext j
  obtain ⟨o, z, rfl⟩ : ∃ (o : Fin 64) (z : Fin 1), j = ix2 o z := ⟨j 0, j 1, eq_ix2 j⟩
  obtain rfl : z = 0 := Subsingleton.elim _ _
  rw [hostReduceAdd_apply]
  refine (hostSum2 _ _ _ o).trans ?_
  show Ideal.ofBits .f32 0x00000000#32 + _ = ∑ n : Fin 128, Spec.rowSq x w0 b0 w1 b1 n o
  rw [Ideal.ofBits_zero_f32, zero_add]
  exact Finset.sum_congr rfl fun n _ => rfl

/-- When the second region is entered the scale buffer holds the fold's scale of the per-channel sums and gamma. -/
theorem W2_v14 (c : Dev nD) :
    (W2 m ρ c (Proc.devRef .tc main_v14) : S64x1.Idx → EReal)
      = Cert.Tail.scaleOf bcast_S_S64x1
          (Cert.Spec.statS (m ((c : Thread nD τ).loc main_arg0)) (m ((c : Thread nD τ).loc main_arg1)) (m ((c : Thread nD τ).loc main_arg2)) (m ((c : Thread nD τ).loc main_arg3)) (m ((c : Thread nD τ).loc main_arg4)))
          (Cert.Spec.statQ (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg5)) := by
  have e5 : W1 m ρ c (Proc.devRef .tc main_v0_0) = GS (argX m c) (argW0 m c) (argB0 m c) (argW1 m c) (argB1 m c) :=
    (W1_arr m ρ c 5).trans (final0_5 m ρ c)
  have e6 : W1 m ρ c (Proc.devRef .tc main_v0_1) = GQ (argX m c) (argW0 m c) (argB0 m c) (argW1 m c) (argB1 m c) :=
    (W1_arr m ρ c 6).trans (final0_6 m ρ c)
  have eg : W1 m ρ c (Proc.devRef .tc main_arg5) = m ((c : Thread nD τ).loc main_arg5) :=
    (W1_of_ne m ρ c main_arg5 (by decide)).trans rfl
  refine (fold_v14 (W1 m ρ c)).trans ?_
  rw [e5, e6, eg, sumS, sumQ]

/-- When the second region is entered the shift buffer holds the fold's shift of the per-channel sums, gamma and beta. -/
theorem W2_v16 (c : Dev nD) :
    (W2 m ρ c (Proc.devRef .tc main_v16) : S64x1.Idx → EReal)
      = Cert.Tail.shiftOf bcast_S_S64x1
          (Cert.Spec.statS (m ((c : Thread nD τ).loc main_arg0)) (m ((c : Thread nD τ).loc main_arg1)) (m ((c : Thread nD τ).loc main_arg2)) (m ((c : Thread nD τ).loc main_arg3)) (m ((c : Thread nD τ).loc main_arg4)))
          (Cert.Spec.statQ (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg5)) (m ((c : Thread nD τ).loc main_arg6)) := by
  have e5 : W1 m ρ c (Proc.devRef .tc main_v0_0) = GS (argX m c) (argW0 m c) (argB0 m c) (argW1 m c) (argB1 m c) :=
    (W1_arr m ρ c 5).trans (final0_5 m ρ c)
  have e6 : W1 m ρ c (Proc.devRef .tc main_v0_1) = GQ (argX m c) (argW0 m c) (argB0 m c) (argW1 m c) (argB1 m c) :=
    (W1_arr m ρ c 6).trans (final0_6 m ρ c)
  have eg : W1 m ρ c (Proc.devRef .tc main_arg5) = m ((c : Thread nD τ).loc main_arg5) :=
    (W1_of_ne m ρ c main_arg5 (by decide)).trans rfl
  have eb : W1 m ρ c (Proc.devRef .tc main_arg6) = m ((c : Thread nD τ).loc main_arg6) :=
    (W1_of_ne m ρ c main_arg6 (by decide)).trans rfl
  refine (fold_v16 (W1 m ρ c)).trans ?_
  rw [e5, e6, eg, eb, sumS, sumQ]

end Cert.ReferenceIdeal.Hand

end
-- ==== Proof.RefValue.lean ====
/-
  The reference's run at the ideal values with its result named: the result array ends at the specification's output for
  the batch-norm fold of the specification's whole-batch sums, and every argument array ends as launched.
-/
import proofs.«145259_g2000300775167955_pallasbulk_386_8_alg».proof.Proof.RefRun
import proofs.«145259_g2000300775167955_pallasbulk_386_8_alg».proof.Proof.RefOut
import proofs.«145259_g2000300775167955_pallasbulk_386_8_alg».proof.Proof.RefStats
import proofs.«145259_g2000300775167955_pallasbulk_386_8_alg».proof.Proof.Tail

set_option maxRecDepth 16384

noncomputable section

open scoped BigOperators

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v17) = Cert.Spec.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (Cert.Tail.scaleOf bcast_S_S64x1
          (Cert.Spec.statS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Cert.Spec.statQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)))
        (Cert.Tail.shiftOf bcast_S_S64x1
          (Cert.Spec.statS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Cert.Spec.statQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans ((W3_v17 m ρ c).trans (by
      show Cert.Spec.Y _ _ _ _ _ (Gen.W2 m ρ c (Proc.devRef .tc main_v14)) (Gen.W2 m ρ c (Proc.devRef .tc main_v16)) = _
      rw [W2_v14 m ρ c, W2_v16 m ρ c])), (h c).2⟩) (run_named (F := Ideal) m ρ)

end Cert.ReferenceIdeal.Hand

end
-- ==== Proof.lean ====
/-
  The certificate's five claims.

  Both programs compute, for a batch x of 128 point clouds (4 channels, 16384 points), a two-layer pointwise perceptron
  with rectifiers, h2 = max(w1 · max(w0 · x + b0, 0) + b1, 0), then batch statistics of h2 per output channel over the
  whole batch (sum and sum of squares), a batch-norm fold of the statistics into a per-channel scale and shift, and the
  output y = h2 · scale + shift. They differ in how the work is laid out:
  * the kernel folds the second bias into the second matrix product — it pads the hidden layer from 32 to 40 rows, row
    32 pinned to 1 (zero weights, bias 1) and the second weight matrix's column 32 holding b1, the remaining rows and
    columns zero — and accumulates the statistics over 64 consecutive batch elements per output row, two rows in all;
  * the reference adds both biases explicitly and writes one partial sum per batch element, summed afterwards.
  On the extended reals the two agree entry by entry: 0 · x = 0 for every x and x · 1 = x make the padded product the
  product plus the bias, and addition is commutative and associative, so the two groupings of the batch sum agree. The
  fold from the sums to scale and shift is the same sequence of operations in both and is never opened. No finiteness of
  the inputs is used.

  The frames: the kernel (at the bit level and at the ideal values) runs as a host stretch, the statistics pass, a host
  stretch and the normalising pass, each pass proved point by point; the reference's frame is its generated one.
-/
import proofs.«145259_g2000300775167955_pallasbulk_386_8_alg».proof.Defs
import proofs.«145259_g2000300775167955_pallasbulk_386_8_alg».proof.Proof.Gen.Kernel
import proofs.«145259_g2000300775167955_pallasbulk_386_8_alg».proof.Proof.Gen.KernelIdeal
import proofs.«145259_g2000300775167955_pallasbulk_386_8_alg».proof.Proof.Gen.ReferenceIdeal
import proofs.«145259_g2000300775167955_pallasbulk_386_8_alg».proof.Proof.Gen.ReferenceIdeal.Frame
import proofs.«145259_g2000300775167955_pallasbulk_386_8_alg».proof.Proof.Gen.Pre_finite_inputs
import proofs.«145259_g2000300775167955_pallasbulk_386_8_alg».proof.Proof.BRun
import proofs.«145259_g2000300775167955_pallasbulk_386_8_alg».proof.Proof.KClaim
import proofs.«145259_g2000300775167955_pallasbulk_386_8_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Gen.frame m ρ

/-- At the ideal values both result arrays end at the specification's output of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
